-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x4x2048 : Shape := ⟨4, ![64, 32, 4, 2048]⟩
abbrev S64x8 : Shape := ⟨2, ![64, 8]⟩
abbrev S720x2048 : Shape := ⟨2, ![720, 2048]⟩
abbrev S720 : Shape := ⟨1, ![720]⟩
abbrev S_ : Shape := ⟨0, ![]⟩

class Facts : Prop where
  bcast_S_S64x32x4x2048 : S_.BroadcastsInDim S64x32x4x2048 (![] : Fin 0 → Fin S64x32x4x2048.rank)
  reducesTo_S64x32x4x2048_S_d0_1_2_3 : S64x32x4x2048.ReducesTo [0, 1, 2, 3] S_
  h_S_ : 0 < S_.numel
  bcast_S_S64x8 : S_.BroadcastsInDim S64x8 (![] : Fin 0 → Fin S64x8.rank)
  reducesTo_S64x8_S_d0_1 : S64x8.ReducesTo [0, 1] S_
  bcast_S_S720x2048 : S_.BroadcastsInDim S720x2048 (![] : Fin 0 → Fin S720x2048.rank)
  reducesTo_S720x2048_S_d0_1 : S720x2048.ReducesTo [0, 1] S_
  bcast_S_S720 : S_.BroadcastsInDim S720 (![] : Fin 0 → Fin S720.rank)
  reducesTo_S720_S_d0 : S720.ReducesTo [0] S_

variable [Facts]

def fn_part7 {F : FTy → Type} [FloatOps F] (main_v118 : IVec S_ 1) (main_v119 : FVec F S720 .f32) : IVec S_ 1 :=
  let main_cst_46 : FVec F S_ .f32 := constant S_ .f32 0x7F800000#32
  let main_v120 : FVec F S720 .f32 := broadcastInDim S720 ![] bcast_S_S720 main_cst_46
  let main_v121 : IVec S720 1 := cmpf .olt main_v119 main_v120
  let main_c_47 : IVec S_ 1 := constantI S_ 1 1#1
  let main_v122 : IVec S_ 1 := (fun x v => Host.reduce IntOp.andi x v reducesTo_S720_S_d0 h_S_) main_v121 main_c_47
  let main_v123 : IVec S_ 1 := andi main_v118 main_v122
  main_v123

def fn_part6 {F : FTy → Type} [FloatOps F] (main_arg21 : FVec F S720 .f32) (main_arg22 : FVec F S720 .f32) (main_arg23 : FVec F S720 .f32) (main_arg24 : FVec F S720 .f32) (main_v98 : IVec S_ 1) (main_v101 : IVec S720 1) (main_c_39 : IVec S_ 1) : IVec S_ 1 :=
  let main_v102 : IVec S_ 1 := (fun x v => Host.reduce IntOp.andi x v reducesTo_S720_S_d0 h_S_) main_v101 main_c_39
  let main_v103 : IVec S_ 1 := andi main_v98 main_v102
  let main_v104 : FVec F S720 .f32 := Host.absf main_arg21
  let main_cst_40 : FVec F S_ .f32 := constant S_ .f32 0x7F800000#32
  let main_v105 : FVec F S720 .f32 := broadcastInDim S720 ![] bcast_S_S720 main_cst_40
  let main_v106 : IVec S720 1 := cmpf .olt main_v104 main_v105
  let main_c_41 : IVec S_ 1 := constantI S_ 1 1#1
  let main_v107 : IVec S_ 1 := (fun x v => Host.reduce IntOp.andi x v reducesTo_S720_S_d0 h_S_) main_v106 main_c_41
  let main_v108 : IVec S_ 1 := andi main_v103 main_v107
  let main_v109 : FVec F S720 .f32 := Host.absf main_arg22
  let main_cst_42 : FVec F S_ .f32 := constant S_ .f32 0x7F800000#32
  let main_v110 : FVec F S720 .f32 := broadcastInDim S720 ![] bcast_S_S720 main_cst_42
  let main_v111 : IVec S720 1 := cmpf .olt main_v109 main_v110
  let main_c_43 : IVec S_ 1 := constantI S_ 1 1#1
  let main_v112 : IVec S_ 1 := (fun x v => Host.reduce IntOp.andi x v reducesTo_S720_S_d0 h_S_) main_v111 main_c_43
  let main_v113 : IVec S_ 1 := andi main_v108 main_v112
  let main_v114 : FVec F S720 .f32 := Host.absf main_arg23
  let main_cst_44 : FVec F S_ .f32 := constant S_ .f32 0x7F800000#32
  let main_v115 : FVec F S720 .f32 := broadcastInDim S720 ![] bcast_S_S720 main_cst_44
  let main_v116 : IVec S720 1 := cmpf .olt main_v114 main_v115
  let main_c_45 : IVec S_ 1 := constantI S_ 1 1#1
  let main_v117 : IVec S_ 1 := (fun x v => Host.reduce IntOp.andi x v reducesTo_S720_S_d0 h_S_) main_v116 main_c_45
  let main_v118 : IVec S_ 1 := andi main_v113 main_v117
  let main_v119 : FVec F S720 .f32 := Host.absf main_arg24
  fn_part7 (F := F) main_v118 main_v119

def fn_part5 {F : FTy → Type} [FloatOps F] (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) (main_v83 : IVec S_ 1) (main_v84 : FVec F S720 .f32) (main_cst_32 : FVec F S_ .f32) : IVec S_ 1 :=
  let main_v85 : FVec F S720 .f32 := broadcastInDim S720 ![] bcast_S_S720 main_cst_32
  let main_v86 : IVec S720 1 := cmpf .olt main_v84 main_v85
  let main_c_33 : IVec S_ 1 := constantI S_ 1 1#1
  let main_v87 : IVec S_ 1 := (fun x v => Host.reduce IntOp.andi x v reducesTo_S720_S_d0 h_S_) main_v86 main_c_33
  let main_v88 : IVec S_ 1 := andi main_v83 main_v87
  let main_v89 : FVec F S720 .f32 := Host.absf main_arg18
  let main_cst_34 : FVec F S_ .f32 := constant S_ .f32 0x7F800000#32
  let main_v90 : FVec F S720 .f32 := broadcastInDim S720 ![] bcast_S_S720 main_cst_34
  let main_v91 : IVec S720 1 := cmpf .olt main_v89 main_v90
  let main_c_35 : IVec S_ 1 := constantI S_ 1 1#1
  let main_v92 : IVec S_ 1 := (fun x v => Host.reduce IntOp.andi x v reducesTo_S720_S_d0 h_S_) main_v91 main_c_35
  let main_v93 : IVec S_ 1 := andi main_v88 main_v92
  let main_v94 : FVec F S720 .f32 := Host.absf main_arg19
  let main_cst_36 : FVec F S_ .f32 := constant S_ .f32 0x7F800000#32
  let main_v95 : FVec F S720 .f32 := broadcastInDim S720 ![] bcast_S_S720 main_cst_36
  let main_v96 : IVec S720 1 := cmpf .olt main_v94 main_v95
  let main_c_37 : IVec S_ 1 := constantI S_ 1 1#1
  let main_v97 : IVec S_ 1 := (fun x v => Host.reduce IntOp.andi x v reducesTo_S720_S_d0 h_S_) main_v96 main_c_37
  let main_v98 : IVec S_ 1 := andi main_v93 main_v97
  let main_v99 : FVec F S720 .f32 := Host.absf main_arg20
  let main_cst_38 : FVec F S_ .f32 := constant S_ .f32 0x7F800000#32
  let main_v100 : FVec F S720 .f32 := broadcastInDim S720 ![] bcast_S_S720 main_cst_38
  let main_v101 : IVec S720 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S720x2048 .f32) (main_arg15 : FVec F S720x2048 .f32) (main_arg16 : FVec F S720x2048 .f32) (main_arg17 : FVec F S720 .f32) (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) (main_v63 : IVec S_ 1) (main_v67 : IVec S_ 1) : IVec S_ 1 :=
  let main_v68 : IVec S_ 1 := andi main_v63 main_v67
  let main_v69 : FVec F S720x2048 .f32 := Host.absf main_arg14
  let main_cst_26 : FVec F S_ .f32 := constant S_ .f32 0x7F800000#32
  let main_v70 : FVec F S720x2048 .f32 := broadcastInDim S720x2048 ![] bcast_S_S720x2048 main_cst_26
  let main_v71 : IVec S720x2048 1 := cmpf .olt main_v69 main_v70
  let main_c_27 : IVec S_ 1 := constantI S_ 1 1#1
  let main_v72 : IVec S_ 1 := (fun x v => Host.reduce IntOp.andi x v reducesTo_S720x2048_S_d0_1 h_S_) main_v71 main_c_27
  let main_v73 : IVec S_ 1 := andi main_v68 main_v72
  let main_v74 : FVec F S720x2048 .f32 := Host.absf main_arg15
  let main_cst_28 : FVec F S_ .f32 := constant S_ .f32 0x7F800000#32
  let main_v75 : FVec F S720x2048 .f32 := broadcastInDim S720x2048 ![] bcast_S_S720x2048 main_cst_28
  let main_v76 : IVec S720x2048 1 := cmpf .olt main_v74 main_v75
  let main_c_29 : IVec S_ 1 := constantI S_ 1 1#1
  let main_v77 : IVec S_ 1 := (fun x v => Host.reduce IntOp.andi x v reducesTo_S720x2048_S_d0_1 h_S_) main_v76 main_c_29
  let main_v78 : IVec S_ 1 := andi main_v73 main_v77
  let main_v79 : FVec F S720x2048 .f32 := Host.absf main_arg16
  let main_cst_30 : FVec F S_ .f32 := constant S_ .f32 0x7F800000#32
  let main_v80 : FVec F S720x2048 .f32 := broadcastInDim S720x2048 ![] bcast_S_S720x2048 main_cst_30
  let main_v81 : IVec S720x2048 1 := cmpf .olt main_v79 main_v80
  let main_c_31 : IVec S_ 1 := constantI S_ 1 1#1
  let main_v82 : IVec S_ 1 := (fun x v => Host.reduce IntOp.andi x v reducesTo_S720x2048_S_d0_1 h_S_) main_v81 main_c_31
  let main_v83 : IVec S_ 1 := andi main_v78 main_v82
  let main_v84 : FVec F S720 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S720x2048 .f32) (main_arg12 : FVec F S720x2048 .f32) (main_arg13 : FVec F S720x2048 .f32) (main_arg14 : FVec F S720x2048 .f32) (main_arg15 : FVec F S720x2048 .f32) (main_arg16 : FVec F S720x2048 .f32) (main_arg17 : FVec F S720 .f32) (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) (main_v48 : IVec S_ 1) (main_v49 : FVec F S720x2048 .f32) (main_v50 : FVec F S720x2048 .f32) : IVec S_ 1 :=
  let main_v51 : IVec S720x2048 1 := cmpf .olt main_v49 main_v50
  let main_c_19 : IVec S_ 1 := constantI S_ 1 1#1
  let main_v52 : IVec S_ 1 := (fun x v => Host.reduce IntOp.andi x v reducesTo_S720x2048_S_d0_1 h_S_) main_v51 main_c_19
  let main_v53 : IVec S_ 1 := andi main_v48 main_v52
  let main_v54 : FVec F S720x2048 .f32 := Host.absf main_arg11
  let main_cst_20 : FVec F S_ .f32 := constant S_ .f32 0x7F800000#32
  let main_v55 : FVec F S720x2048 .f32 := broadcastInDim S720x2048 ![] bcast_S_S720x2048 main_cst_20
  let main_v56 : IVec S720x2048 1 := cmpf .olt main_v54 main_v55
  let main_c_21 : IVec S_ 1 := constantI S_ 1 1#1
  let main_v57 : IVec S_ 1 := (fun x v => Host.reduce IntOp.andi x v reducesTo_S720x2048_S_d0_1 h_S_) main_v56 main_c_21
  let main_v58 : IVec S_ 1 := andi main_v53 main_v57
  let main_v59 : FVec F S720x2048 .f32 := Host.absf main_arg12
  let main_cst_22 : FVec F S_ .f32 := constant S_ .f32 0x7F800000#32
  let main_v60 : FVec F S720x2048 .f32 := broadcastInDim S720x2048 ![] bcast_S_S720x2048 main_cst_22
  let main_v61 : IVec S720x2048 1 := cmpf .olt main_v59 main_v60
  let main_c_23 : IVec S_ 1 := constantI S_ 1 1#1
  let main_v62 : IVec S_ 1 := (fun x v => Host.reduce IntOp.andi x v reducesTo_S720x2048_S_d0_1 h_S_) main_v61 main_c_23
  let main_v63 : IVec S_ 1 := andi main_v58 main_v62
  let main_v64 : FVec F S720x2048 .f32 := Host.absf main_arg13
  let main_cst_24 : FVec F S_ .f32 := constant S_ .f32 0x7F800000#32
  let main_v65 : FVec F S720x2048 .f32 := broadcastInDim S720x2048 ![] bcast_S_S720x2048 main_cst_24
  let main_v66 : IVec S720x2048 1 := cmpf .olt main_v64 main_v65
  let main_c_25 : IVec S_ 1 := constantI S_ 1 1#1
  let main_v67 : IVec S_ 1 := (fun x v => Host.reduce IntOp.andi x v reducesTo_S720x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S64x32x4x2048 .f32) (main_arg8 : FVec F S64x8 .f32) (main_arg9 : FVec F S720x2048 .f32) (main_arg10 : FVec F S720x2048 .f32) (main_arg11 : FVec F S720x2048 .f32) (main_arg12 : FVec F S720x2048 .f32) (main_arg13 : FVec F S720x2048 .f32) (main_arg14 : FVec F S720x2048 .f32) (main_arg15 : FVec F S720x2048 .f32) (main_arg16 : FVec F S720x2048 .f32) (main_arg17 : FVec F S720 .f32) (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) (main_v33 : IVec S_ 1) : IVec S_ 1 :=
  let main_v34 : FVec F S64x32x4x2048 .f32 := Host.absf main_arg7
  let main_cst_12 : FVec F S_ .f32 := constant S_ .f32 0x7F800000#32
  let main_v35 : FVec F S64x32x4x2048 .f32 := broadcastInDim S64x32x4x2048 ![] bcast_S_S64x32x4x2048 main_cst_12
  let main_v36 : IVec S64x32x4x2048 1 := cmpf .olt main_v34 main_v35
  let main_c_13 : IVec S_ 1 := constantI S_ 1 1#1
  let main_v37 : IVec S_ 1 := (fun x v => Host.reduce IntOp.andi x v reducesTo_S64x32x4x2048_S_d0_1_2_3 h_S_) main_v36 main_c_13
  let main_v38 : IVec S_ 1 := andi main_v33 main_v37
  let main_v39 : FVec F S64x8 .f32 := Host.absf main_arg8
  let main_cst_14 : FVec F S_ .f32 := constant S_ .f32 0x7F800000#32
  let main_v40 : FVec F S64x8 .f32 := broadcastInDim S64x8 ![] bcast_S_S64x8 main_cst_14
  let main_v41 : IVec S64x8 1 := cmpf .olt main_v39 main_v40
  let main_c_15 : IVec S_ 1 := constantI S_ 1 1#1
  let main_v42 : IVec S_ 1 := (fun x v => Host.reduce IntOp.andi x v reducesTo_S64x8_S_d0_1 h_S_) main_v41 main_c_15
  let main_v43 : IVec S_ 1 := andi main_v38 main_v42
  let main_v44 : FVec F S720x2048 .f32 := Host.absf main_arg9
  let main_cst_16 : FVec F S_ .f32 := constant S_ .f32 0x7F800000#32
  let main_v45 : FVec F S720x2048 .f32 := broadcastInDim S720x2048 ![] bcast_S_S720x2048 main_cst_16
  let main_v46 : IVec S720x2048 1 := cmpf .olt main_v44 main_v45
  let main_c_17 : IVec S_ 1 := constantI S_ 1 1#1
  let main_v47 : IVec S_ 1 := (fun x v => Host.reduce IntOp.andi x v reducesTo_S720x2048_S_d0_1 h_S_) main_v46 main_c_17
  let main_v48 : IVec S_ 1 := andi main_v43 main_v47
  let main_v49 : FVec F S720x2048 .f32 := Host.absf main_arg10
  let main_cst_18 : FVec F S_ .f32 := constant S_ .f32 0x7F800000#32
  let main_v50 : FVec F S720x2048 .f32 := broadcastInDim S720x2048 ![] bcast_S_S720x2048 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64x32x4x2048 .f32) (main_arg5 : FVec F S64x32x4x2048 .f32) (main_arg6 : FVec F S64x32x4x2048 .f32) (main_arg7 : FVec F S64x32x4x2048 .f32) (main_arg8 : FVec F S64x8 .f32) (main_arg9 : FVec F S720x2048 .f32) (main_arg10 : FVec F S720x2048 .f32) (main_arg11 : FVec F S720x2048 .f32) (main_arg12 : FVec F S720x2048 .f32) (main_arg13 : FVec F S720x2048 .f32) (main_arg14 : FVec F S720x2048 .f32) (main_arg15 : FVec F S720x2048 .f32) (main_arg16 : FVec F S720x2048 .f32) (main_arg17 : FVec F S720 .f32) (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) (main_v13 : IVec S_ 1) (main_v16 : IVec S64x32x4x2048 1) : IVec S_ 1 :=
  let main_c_5 : IVec S_ 1 := constantI S_ 1 1#1
  let main_v17 : IVec S_ 1 := (fun x v => Host.reduce IntOp.andi x v reducesTo_S64x32x4x2048_S_d0_1_2_3 h_S_) main_v16 main_c_5
  let main_v18 : IVec S_ 1 := andi main_v13 main_v17
  let main_v19 : FVec F S64x32x4x2048 .f32 := Host.absf main_arg4
  let main_cst_6 : FVec F S_ .f32 := constant S_ .f32 0x7F800000#32
  let main_v20 : FVec F S64x32x4x2048 .f32 := broadcastInDim S64x32x4x2048 ![] bcast_S_S64x32x4x2048 main_cst_6
  let main_v21 : IVec S64x32x4x2048 1 := cmpf .olt main_v19 main_v20
  let main_c_7 : IVec S_ 1 := constantI S_ 1 1#1
  let main_v22 : IVec S_ 1 := (fun x v => Host.reduce IntOp.andi x v reducesTo_S64x32x4x2048_S_d0_1_2_3 h_S_) main_v21 main_c_7
  let main_v23 : IVec S_ 1 := andi main_v18 main_v22
  let main_v24 : FVec F S64x32x4x2048 .f32 := Host.absf main_arg5
  let main_cst_8 : FVec F S_ .f32 := constant S_ .f32 0x7F800000#32
  let main_v25 : FVec F S64x32x4x2048 .f32 := broadcastInDim S64x32x4x2048 ![] bcast_S_S64x32x4x2048 main_cst_8
  let main_v26 : IVec S64x32x4x2048 1 := cmpf .olt main_v24 main_v25
  let main_c_9 : IVec S_ 1 := constantI S_ 1 1#1
  let main_v27 : IVec S_ 1 := (fun x v => Host.reduce IntOp.andi x v reducesTo_S64x32x4x2048_S_d0_1_2_3 h_S_) main_v26 main_c_9
  let main_v28 : IVec S_ 1 := andi main_v23 main_v27
  let main_v29 : FVec F S64x32x4x2048 .f32 := Host.absf main_arg6
  let main_cst_10 : FVec F S_ .f32 := constant S_ .f32 0x7F800000#32
  let main_v30 : FVec F S64x32x4x2048 .f32 := broadcastInDim S64x32x4x2048 ![] bcast_S_S64x32x4x2048 main_cst_10
  let main_v31 : IVec S64x32x4x2048 1 := cmpf .olt main_v29 main_v30
  let main_c_11 : IVec S_ 1 := constantI S_ 1 1#1
  let main_v32 : IVec S_ 1 := (fun x v => Host.reduce IntOp.andi x v reducesTo_S64x32x4x2048_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S64x32x4x2048 .f32) (main_arg1 : FVec F S64x32x4x2048 .f32) (main_arg2 : FVec F S64x32x4x2048 .f32) (main_arg3 : FVec F S64x32x4x2048 .f32) (main_arg4 : FVec F S64x32x4x2048 .f32) (main_arg5 : FVec F S64x32x4x2048 .f32) (main_arg6 : FVec F S64x32x4x2048 .f32) (main_arg7 : FVec F S64x32x4x2048 .f32) (main_arg8 : FVec F S64x8 .f32) (main_arg9 : FVec F S720x2048 .f32) (main_arg10 : FVec F S720x2048 .f32) (main_arg11 : FVec F S720x2048 .f32) (main_arg12 : FVec F S720x2048 .f32) (main_arg13 : FVec F S720x2048 .f32) (main_arg14 : FVec F S720x2048 .f32) (main_arg15 : FVec F S720x2048 .f32) (main_arg16 : FVec F S720x2048 .f32) (main_arg17 : FVec F S720 .f32) (main_arg18 : FVec F S720 .f32) (main_arg19 : FVec F S720 .f32) (main_arg20 : FVec F S720 .f32) (main_arg21 : FVec F S720 .f32) (main_arg22 : FVec F S720 .f32) (main_arg23 : FVec F S720 .f32) (main_arg24 : FVec F S720 .f32) : IVec S_ 1 :=
  let main_v0 : FVec F S64x32x4x2048 .f32 := Host.absf main_arg0
  let main_cst : FVec F S_ .f32 := constant S_ .f32 0x7F800000#32
  let main_v1 : FVec F S64x32x4x2048 .f32 := broadcastInDim S64x32x4x2048 ![] bcast_S_S64x32x4x2048 main_cst
  let main_v2 : IVec S64x32x4x2048 1 := cmpf .olt main_v0 main_v1
  let main_c : IVec S_ 1 := constantI S_ 1 1#1
  let main_v3 : IVec S_ 1 := (fun x v => Host.reduce IntOp.andi x v reducesTo_S64x32x4x2048_S_d0_1_2_3 h_S_) main_v2 main_c
  let main_v4 : FVec F S64x32x4x2048 .f32 := Host.absf main_arg1
  let main_cst_0 : FVec F S_ .f32 := constant S_ .f32 0x7F800000#32
  let main_v5 : FVec F S64x32x4x2048 .f32 := broadcastInDim S64x32x4x2048 ![] bcast_S_S64x32x4x2048 main_cst_0
  let main_v6 : IVec S64x32x4x2048 1 := cmpf .olt main_v4 main_v5
  let main_c_1 : IVec S_ 1 := constantI S_ 1 1#1
  let main_v7 : IVec S_ 1 := (fun x v => Host.reduce IntOp.andi x v reducesTo_S64x32x4x2048_S_d0_1_2_3 h_S_) main_v6 main_c_1
  let main_v8 : IVec S_ 1 := andi main_v3 main_v7
  let main_v9 : FVec F S64x32x4x2048 .f32 := Host.absf main_arg2
  let main_cst_2 : FVec F S_ .f32 := constant S_ .f32 0x7F800000#32
  let main_v10 : FVec F S64x32x4x2048 .f32 := broadcastInDim S64x32x4x2048 ![] bcast_S_S64x32x4x2048 main_cst_2
  let main_v11 : IVec S64x32x4x2048 1 := cmpf .olt main_v9 main_v10
  let main_c_3 : IVec S_ 1 := constantI S_ 1 1#1
  let main_v12 : IVec S_ 1 := (fun x v => Host.reduce IntOp.andi x v reducesTo_S64x32x4x2048_S_d0_1_2_3 h_S_) main_v11 main_c_3
  let main_v13 : IVec S_ 1 := andi main_v8 main_v12
  let main_v14 : FVec F S64x32x4x2048 .f32 := Host.absf main_arg3
  let main_cst_4 : FVec F S_ .f32 := constant S_ .f32 0x7F800000#32
  let main_v15 : FVec F S64x32x4x2048 .f32 := broadcastInDim S64x32x4x2048 ![] bcast_S_S64x32x4x2048 main_cst_4
  let main_v16 : IVec S64x32x4x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S64x32x4x2048 : Shape := ⟨4, ![64, 32, 4, 2048]⟩
abbrev S64x8 : Shape := ⟨2, ![64, 8]⟩
abbrev S720x2048 : Shape := ⟨2, ![720, 2048]⟩
abbrev S720 : Shape := ⟨1, ![720]⟩
abbrev S2048x8192 : Shape := ⟨2, ![2048, 8192]⟩
abbrev S1x720 : Shape := ⟨2, ![1, 720]⟩
abbrev S8x720 : Shape := ⟨2, ![8, 720]⟩
abbrev S64x720x32 : Shape := ⟨3, ![64, 720, 32]⟩
abbrev S16x8 : Shape := ⟨2, ![16, 8]⟩
abbrev S512x256 : Shape := ⟨2, ![512, 256]⟩
abbrev S720x256 : Shape := ⟨2, ![720, 256]⟩
abbrev S16x720x32 : Shape := ⟨3, ![16, 720, 32]⟩
abbrev S512x720 : Shape := ⟨2, ![512, 720]⟩
abbrev S16x32x256 : Shape := ⟨3, ![16, 32, 256]⟩
abbrev S16x1 : Shape := ⟨2, ![16, 1]⟩
abbrev S16 : Shape := ⟨1, ![16]⟩
abbrev S16x1x1 : Shape := ⟨3, ![16, 1, 1]⟩
abbrev S16x720 : Shape := ⟨2, ![16, 720]⟩
abbrev S16x32x720 : Shape := ⟨3, ![16, 32, 720]⟩
abbrev S16x1x720 : Shape := ⟨3, ![16, 1, 720]⟩

abbrev nBuf : Space → Nat
  | .hbm => 43
  | .vmem => 38
  | .smem => 0
  | _ => 0

abbrev bufTy : (tb : Table) → Fin (tcTables nBuf tb) → BufTy
  | .hbm, ⟨0, _⟩ => ⟨S64x32x4x2048, .f32⟩
  | .hbm, ⟨1, _⟩ => ⟨S64x32x4x2048, .f32⟩
  | .hbm, ⟨2, _⟩ => ⟨S64x32x4x2048, .f32⟩
  | .hbm, ⟨3, _⟩ => ⟨S64x32x4x2048, .f32⟩
  | .hbm, ⟨4, _⟩ => ⟨S64x32x4x2048, .f32⟩
  | .hbm, ⟨5, _⟩ => ⟨S64x32x4x2048, .f32⟩
  | .hbm, ⟨6, _⟩ => ⟨S64x32x4x2048, .f32⟩
  | .hbm, ⟨7, _⟩ => ⟨S64x32x4x2048, .f32⟩
  | .hbm, ⟨8, _⟩ => ⟨S64x8, .f32⟩
  | .hbm, ⟨9, _⟩ => ⟨S720x2048, .f32⟩
  | .hbm, ⟨10, _⟩ => ⟨S720x2048, .f32⟩
  | .hbm, ⟨11, _⟩ => ⟨S720x2048, .f32⟩
  | .hbm, ⟨12, _⟩ => ⟨S720x2048, .f32⟩
  | .hbm, ⟨13, _⟩ => ⟨S720x2048, .f32⟩
  | .hbm, ⟨14, _⟩ => ⟨S720x2048, .f32⟩
  | .hbm, ⟨15, _⟩ => ⟨S720x2048, .f32⟩
  | .hbm, ⟨16, _⟩ => ⟨S720x2048, .f32⟩
  | .hbm, ⟨17, _⟩ => ⟨S720, .f32⟩
  | .hbm, ⟨18, _⟩ => ⟨S720, .f32⟩
  | .hbm, ⟨19, _⟩ => ⟨S720, .f32⟩
  | .hbm, ⟨20, _⟩ => ⟨S720, .f32⟩
  | .hbm, ⟨21, _⟩ => ⟨S720, .f32⟩
  | .hbm, ⟨22, _⟩ => ⟨S720, .f32⟩
  | .hbm, ⟨23, _⟩ => ⟨S720, .f32⟩
  | .hbm, ⟨24, _⟩ => ⟨S720, .f32⟩
  | .hbm, ⟨25, _⟩ => ⟨S2048x8192, .f32⟩
  | .hbm, ⟨26, _⟩ => ⟨S2048x8192, .f32⟩
  | .hbm, ⟨27, _⟩ => ⟨S2048x8192, .f32⟩
  | .hbm, ⟨28, _⟩ => ⟨S2048x8192, .f32⟩
  | .hbm, ⟨29, _⟩ => ⟨S2048x8192, .f32⟩
  | .hbm, ⟨30, _⟩ => ⟨S2048x8192, .f32⟩
  | .hbm, ⟨31, _⟩ => ⟨S2048x8192, .f32⟩
  | .hbm, ⟨32, _⟩ => ⟨S2048x8192, .f32⟩
  | .hbm, ⟨33, _⟩ => ⟨S1x720, .f32⟩
  | .hbm, ⟨34, _⟩ => ⟨S1x720, .f32⟩
  | .hbm, ⟨35, _⟩ => ⟨S1x720, .f32⟩
  | .hbm, ⟨36, _⟩ => ⟨S1x720, .f32⟩
  | .hbm, ⟨37, _⟩ => ⟨S1x720, .f32⟩
  | .hbm, ⟨38, _⟩ => ⟨S1x720, .f32⟩
  | .hbm, ⟨39, _⟩ => ⟨S1x720, .f32⟩
  | .hbm, ⟨40, _⟩ => ⟨S1x720, .f32⟩
  | .hbm, ⟨41, _⟩ => ⟨S8x720, .f32⟩
  | .hbm, ⟨42, _⟩ => ⟨S64x720x32, .f32⟩
  | .local _ .vmem, ⟨0, _⟩ => ⟨S16x8, .f32⟩
  | .local _ .vmem, ⟨1, _⟩ => ⟨S16x8, .f32⟩
  | .local _ .vmem, ⟨2, _⟩ => ⟨S8x720, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S720x256, .f32⟩
  | .local _ .vmem, ⟨20, _⟩ => ⟨S720x256, .f32⟩
  | .local _ .vmem, ⟨21, _⟩ => ⟨S720x256, .f32⟩
  | .local _ .vmem, ⟨22, _⟩ => ⟨S720x256, .f32⟩
  | .local _ .vmem, ⟨23, _⟩ => ⟨S720x256, .f32⟩
  | .local _ .vmem, ⟨24, _⟩ => ⟨S720x256, .f32⟩
  | .local _ .vmem, ⟨25, _⟩ => ⟨S720x256, .f32⟩
  | .local _ .vmem, ⟨26, _⟩ => ⟨S720x256, .f32⟩
  | .local _ .vmem, ⟨27, _⟩ => ⟨S720x256, .f32⟩
  | .local _ .vmem, ⟨28, _⟩ => ⟨S720x256, .f32⟩
  | .local _ .vmem, ⟨29, _⟩ => ⟨S720x256, .f32⟩
  | .local _ .vmem, ⟨30, _⟩ => ⟨S720x256, .f32⟩
  | .local _ .vmem, ⟨31, _⟩ => ⟨S720x256, .f32⟩
  | .local _ .vmem, ⟨32, _⟩ => ⟨S720x256, .f32⟩
  | .local _ .vmem, ⟨33, _⟩ => ⟨S720x256, .f32⟩
  | .local _ .vmem, ⟨34, _⟩ => ⟨S720x256, .f32⟩
  | .local _ .vmem, ⟨35, _⟩ => ⟨S16x720x32, .f32⟩
  | .local _ .vmem, ⟨36, _⟩ => ⟨S16x720x32, .f32⟩
  | .local _ .vmem, ⟨37, _⟩ => ⟨S512x720, .f32⟩
  | _, _ => ⟨S64x32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v106 : BitVec 1 := Scalar.cmpi .eq arg1 c7_i32
  let v107 : BitVec 32 := Scalar.extui v106
  let c0_i32_45 : BitVec 32 := 0#32
  let v108 : BitVec 1 := Scalar.cmpi .ne v107 c0_i32_45
  v108

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x720 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S720x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S720x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S720x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S720x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S720x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S720x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S720x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S720x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S16x720x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

class Facts₀ : Prop where
  shapeCasts_S64x32x4x2048_S2048x8192 : S64x32x4x2048.ShapeCasts S2048x8192
  bcast_S720_S1x720_1 : S720.BroadcastsInDim S1x720 (![1] : Fin 1 → Fin S1x720.rank)
  concatenates_S1x720_S1x720_S1x720_S1x720_S1x720_S1x720_S1x720_S1x720_S8x720_d0 : Shape.Concatenates [S1x720, S1x720, S1x720, S1x720, S1x720, S1x720, S1x720, S1x720] S8x720 0
  inb_S16x8_S16x8_0_0 : ∀ a, (![0, 0] : Fin 2 → Nat) a + S16x8.size a ≤ S16x8.size a
  h_S16x8 : 0 < S16x8.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S512x256_S16x32x256 : S512x256.ShapeCasts S16x32x256
  slices_S16x8_o0_0_S16x1 : S16x8.Slices ![0, 0] S16x1
  shapeCasts_S16x1_S16 : S16x1.ShapeCasts S16
  shapeCasts_S16_S16x1x1 : S16.ShapeCasts S16x1x1
  broadcasts_S16x1x1_S16x32x256 : S16x1x1.Broadcasts S16x32x256
  shapeCasts_S16x32x256_S512x256 : S16x32x256.ShapeCasts S512x256
  inb_S720x256_S720x256_0_0 : ∀ a, (![0, 0] : Fin 2 → Nat) a + S720x256.size a ≤ S720x256.size a
  h_S720x256 : 0 < S720x256.numel
  slices_S16x8_o0_1_S16x1 : S16x8.Slices ![0, 1] S16x1
  slices_S16x8_o0_2_S16x1 : S16x8.Slices ![0, 2] S16x1
  slices_S16x8_o0_3_S16x1 : S16x8.Slices ![0, 3] S16x1
  slices_S16x8_o0_4_S16x1 : S16x8.Slices ![0, 4] S16x1
  slices_S16x8_o0_5_S16x1 : S16x8.Slices ![0, 5] S16x1
  slices_S16x8_o0_6_S16x1 : S16x8.Slices ![0, 6] S16x1
  slices_S16x8_o0_7_S16x1 : S16x8.Slices ![0, 7] S16x1
  inb_S512x720_S512x720_0_0 : ∀ a, (![0, 0] : Fin 2 → Nat) a + S512x720.size a ≤ S512x720.size a
  h_S512x720 : 0 < S512x720.numel
  shapeCasts_S512x720_S512x720 : S512x720.ShapeCasts S512x720
  inb_S8x720_S8x720_0_0 : ∀ a, (![0, 0] : Fin 2 → Nat) a + S8x720.size a ≤ S8x720.size a
  h_S8x720 : 0 < S8x720.numel
  shapeCasts_S8x720_S8x720 : S8x720.ShapeCasts S8x720
  shapeCasts_S512x720_S16x32x720 : S512x720.ShapeCasts S16x32x720
  shapeCasts_S16x720_S16x1x720 : S16x720.ShapeCasts S16x1x720
  broadcasts_S16x1x720_S16x32x720 : S16x1x720.Broadcasts S16x32x720
  transposes_S16x32x720_p0_2_1_S16x720x32 : S16x32x720.Transposes [0, 2, 1] S16x720x32
  inb_S16x720x32_S16x720x32_0_0_0 : ∀ a, (![0, 0, 0] : Fin 3 → Nat) a + S16x720x32.size a ≤ S16x720x32.size a
  h_S16x720x32 : 0 < S16x720x32.numel
  dot_S512x256_S720x256_S512x720_1_1_0_0_n_n_wf : DotDims.WF S512x256 S720x256 S512x720 [1] [1] [0] [0] [] []
  dot_S16x8_S8x720_S16x720_1_0_0_1_n_n_wf : DotDims.WF S16x8 S8x720 S16x720 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8.size a ≤ S64x8.size a
  hwx0_0 : ∀ i : grid0.Coords, EltTy.bits .f32 = 32 ∨ (Rect.block (s := S64x8) S16x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x720.size a ≤ S8x720.size a
  hwx0_1 : ∀ i : grid0.Coords, EltTy.bits .f32 = 32 ∨ (Rect.block (s := S8x720) S8x720.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x8192.size a
  hwx0_2 : ∀ i : grid0.Coords, EltTy.bits .f32 = 32 ∨ (Rect.block (s := S2048x8192) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x8192.size a
  hwx0_3 : ∀ i : grid0.Coords, EltTy.bits .f32 = 32 ∨ (Rect.block (s := S2048x8192) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x8192.size a
  hwx0_4 : ∀ i : grid0.Coords, EltTy.bits .f32 = 32 ∨ (Rect.block (s := S2048x8192) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x8192.size a
  hwx0_5 : ∀ i : grid0.Coords, EltTy.bits .f32 = 32 ∨ (Rect.block (s := S2048x8192) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x8192.size a
  hwx0_6 : ∀ i : grid0.Coords, EltTy.bits .f32 = 32 ∨ (Rect.block (s := S2048x8192) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x8192.size a
  hwx0_7 : ∀ i : grid0.Coords, EltTy.bits .f32 = 32 ∨ (Rect.block (s := S2048x8192) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S2048x8192.size a
  hwx0_8 : ∀ i : grid0.Coords, EltTy.bits .f32 = 32 ∨ (Rect.block (s := S2048x8192) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S2048x8192.size a
  hwx0_9 : ∀ i : grid0.Coords, EltTy.bits .f32 = 32 ∨ (Rect.block (s := S2048x8192) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S720x256.size a ≤ S720x2048.size a
  hwx0_10 : ∀ i : grid0.Coords, EltTy.bits .f32 = 32 ∨ (Rect.block (s := S720x2048) S720x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S720x256.size a ≤ S720x2048.size a
  hwx0_11 : ∀ i : grid0.Coords, EltTy.bits .f32 = 32 ∨ (Rect.block (s := S720x2048) S720x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S720x256.size a ≤ S720x2048.size a
  hwx0_12 : ∀ i : grid0.Coords, EltTy.bits .f32 = 32 ∨ (Rect.block (s := S720x2048) S720x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S720x256.size a ≤ S720x2048.size a
  hwx0_13 : ∀ i : grid0.Coords, EltTy.bits .f32 = 32 ∨ (Rect.block (s := S720x2048) S720x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S720x256.size a ≤ S720x2048.size a
  hwx0_14 : ∀ i : grid0.Coords, EltTy.bits .f32 = 32 ∨ (Rect.block (s := S720x2048) S720x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S720x256.size a ≤ S720x2048.size a
  hwx0_15 : ∀ i : grid0.Coords, EltTy.bits .f32 = 32 ∨ (Rect.block (s := S720x2048) S720x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S720x256.size a ≤ S720x2048.size a
  hwx0_16 : ∀ i : grid0.Coords, EltTy.bits .f32 = 32 ∨ (Rect.block (s := S720x2048) S720x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S720x256.size a ≤ S720x2048.size a
  hwx0_17 : ∀ i : grid0.Coords, EltTy.bits .f32 = 32 ∨ (Rect.block (s := S720x2048) S720x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S16x720x32.size a ≤ S64x720x32.size a
  hwx0_18 : ∀ i : grid0.Coords, EltTy.bits .f32 = 32 ∨ (Rect.block (s := S64x720x32) S16x720x32.size (cc0_transform_18 i) (hinb0_18 i)).WholeWords (EltTy.packing .f32)

variable [Facts₀]

def dot_S512x256_S720x256_S512x720_1_1_0_0_n_n : DotDims S512x256 S720x256 S512x720 where
  lhsContracting := [1]
  rhsContracting := [1]
  lhsNonContracting := [0]
  rhsNonContracting := [0]
  lhsBatch := []
  rhsBatch := []
  wf := dot_S512x256_S720x256_S512x720_1_1_0_0_n_n_wf
def dot_S16x8_S8x720_S16x720_1_0_0_1_n_n : DotDims S16x8 S8x720 S16x720 where
  lhsContracting := [1]
  rhsContracting := [0]
  lhsNonContracting := [0]
  rhsNonContracting := [1]
  lhsBatch := []
  rhsBatch := []
  wf := dot_S16x8_S8x720_S16x720_1_0_0_1_n_n_wf

abbrev win0_0 : Pipeline.Window sig grid0 :=
  Pipeline.Window.ofSpec (Memref.whole main_arg8) S16x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x720.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S720x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S720x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S720x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S720x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S720x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S720x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S720x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S720x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v17) S16x720x32.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev idle0 : Fin 19 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun i => !(k0_cond3 i == 1#1) | ⟨_ + 19, h⟩ => absurd h (Nat.not_lt.2 (Nat.le_add_left _ _))

class Facts : Prop extends Facts₀ where

variable [Facts]
-- ==== ReferenceIdeal.lean ====
abbrev S64x32x4x2048 : Shape := ⟨4, ![64, 32, 4, 2048]⟩
abbrev S64x8 : Shape := ⟨2, ![64, 8]⟩
abbrev S720x2048 : Shape := ⟨2, ![720, 2048]⟩
abbrev S720 : Shape := ⟨1, ![720]⟩
abbrev S64x32x1x2048 : Shape := ⟨4, ![64, 32, 1, 2048]⟩
abbrev S64x32x1x720 : Shape := ⟨4, ![64, 32, 1, 720]⟩
abbrev S1x1x1x720 : Shape := ⟨4, ![1, 1, 1, 720]⟩
abbrev S_ : Shape := ⟨0, ![]⟩
abbrev S64x1 : Shape := ⟨2, ![64, 1]⟩
abbrev S64 : Shape := ⟨1, ![64]⟩
abbrev S64x1x1x1 : Shape := ⟨4, ![64, 1, 1, 1]⟩
abbrev S64x32x720 : Shape := ⟨3, ![64, 32, 720]⟩
abbrev S64x720x32 : Shape := ⟨3, ![64, 720, 32]⟩

abbrev nBuf : Space → Nat
  | .hbm => 192
  | .vmem => 0
  | .smem => 0
  | _ => 0

abbrev hbmTy0_0 (i : Nat) : BufTy := match i % 128 with
  | 0 => ⟨S64x32x4x2048, .f32⟩
  | 1 => ⟨S64x32x4x2048, .f32⟩
  | 2 => ⟨S64x32x4x2048, .f32⟩
  | 3 => ⟨S64x32x4x2048, .f32⟩
  | 4 => ⟨S64x32x4x2048, .f32⟩
  | 5 => ⟨S64x32x4x2048, .f32⟩
  | 6 => ⟨S64x32x4x2048, .f32⟩
  | 7 => ⟨S64x32x4x2048, .f32⟩
  | 8 => ⟨S64x8, .f32⟩
  | 9 => ⟨S720x2048, .f32⟩
  | 10 => ⟨S720x2048, .f32⟩
  | 11 => ⟨S720x2048, .f32⟩
  | 12 => ⟨S720x2048, .f32⟩
  | 13 => ⟨S720x2048, .f32⟩
  | 14 => ⟨S720x2048, .f32⟩
  | 15 => ⟨S720x2048, .f32⟩
  | 16 => ⟨S720x2048, .f32⟩
  | 17 => ⟨S720, .f32⟩
  | 18 => ⟨S720, .f32⟩
  | 19 => ⟨S720, .f32⟩
  | 20 => ⟨S720, .f32⟩
  | 21 => ⟨S720, .f32⟩
  | 22 => ⟨S720, .f32⟩
  | 23 => ⟨S720, .f32⟩
  | 24 => ⟨S720, .f32⟩
  | 25 => ⟨S64x32x1x2048, .f32⟩
  | 26 => ⟨S64x32x1x720, .f32⟩
  | 27 => ⟨S1x1x1x720, .f32⟩
  | 28 => ⟨S64x32x1x720, .f32⟩
  | 29 => ⟨S64x32x1x720, .f32⟩
  | 30 => ⟨S64x32x1x2048, .f32⟩
  | 31 => ⟨S64x32x1x720, .f32⟩
  | 32 => ⟨S1x1x1x720, .f32⟩
  | 33 => ⟨S64x32x1x720, .f32⟩
  | 34 => ⟨S64x32x1x720, .f32⟩
  | 35 => ⟨S64x32x1x2048, .f32⟩
  | 36 => ⟨S64x32x1x720, .f32⟩
  | 37 => ⟨S1x1x1x720, .f32⟩
  | 38 => ⟨S64x32x1x720, .f32⟩
  | 39 => ⟨S64x32x1x720, .f32⟩
  | 40 => ⟨S64x32x1x2048, .f32⟩
  | 41 => ⟨S64x32x1x720, .f32⟩
  | 42 => ⟨S1x1x1x720, .f32⟩
  | 43 => ⟨S64x32x1x720, .f32⟩
  | 44 => ⟨S64x32x1x720, .f32⟩
  | 45 => ⟨S64x32x1x2048, .f32⟩
  | 46 => ⟨S64x32x1x720, .f32⟩
  | 47 => ⟨S1x1x1x720, .f32⟩
  | 48 => ⟨S64x32x1x720, .f32⟩
  | 49 => ⟨S64x32x1x720, .f32⟩
  | 50 => ⟨S64x32x1x2048, .f32⟩
  | 51 => ⟨S64x32x1x720, .f32⟩
  | 52 => ⟨S1x1x1x720, .f32⟩
  | 53 => ⟨S64x32x1x720, .f32⟩
  | 54 => ⟨S64x32x1x720, .f32⟩
  | 55 => ⟨S64x32x1x2048, .f32⟩
  | 56 => ⟨S64x32x1x720, .f32⟩
  | 57 => ⟨S1x1x1x720, .f32⟩
  | 58 => ⟨S64x32x1x720, .f32⟩
  | 59 => ⟨S64x32x1x720, .f32⟩
  | 60 => ⟨S64x32x1x2048, .f32⟩
  | 61 => ⟨S64x32x1x720, .f32⟩
  | 62 => ⟨S1x1x1x720, .f32⟩
  | 63 => ⟨S64x32x1x720, .f32⟩
  | 64 => ⟨S64x32x1x720, .f32⟩
  | 65 => ⟨S_, .f32⟩
  | 66 => ⟨S64x32x1x720, .f32⟩
  | 67 => ⟨S64x1, .f32⟩
  | 68 => ⟨S64, .f32⟩
  | 69 => ⟨S_, .f32⟩
  | 70 => ⟨S64, .f32⟩
  | 71 => ⟨S64, .i1⟩
  | 72 => ⟨S64x1, .f32⟩
  | 73 => ⟨S64, .f32⟩
  | 74 => ⟨S_, .f32⟩
  | 75 => ⟨S_, .f32⟩
  | 76 => ⟨S64, .f32⟩
  | 77 => ⟨S64, .f32⟩
  | 78 => ⟨S64x1x1x1, .f32⟩
  | 79 => ⟨S64x32x1x720, .f32⟩
  | 80 => ⟨S64x32x1x720, .f32⟩
  | 81 => ⟨S64x32x1x720, .f32⟩
  | 82 => ⟨S64x1, .f32⟩
  | 83 => ⟨S64, .f32⟩
  | 84 => ⟨S_, .f32⟩
  | 85 => ⟨S64, .f32⟩
  | 86 => ⟨S64, .i1⟩
  | 87 => ⟨S64x1, .f32⟩
  | 88 => ⟨S64, .f32⟩
  | 89 => ⟨S_, .f32⟩
  | 90 => ⟨S_, .f32⟩
  | 91 => ⟨S64, .f32⟩
  | 92 => ⟨S64, .f32⟩
  | 93 => ⟨S64x1x1x1, .f32⟩
  | 94 => ⟨S64x32x1x720, .f32⟩
  | 95 => ⟨S64x32x1x720, .f32⟩
  | 96 => ⟨S64x32x1x720, .f32⟩
  | 97 => ⟨S64x1, .f32⟩
  | 98 => ⟨S64, .f32⟩
  | 99 => ⟨S_, .f32⟩
  | 100 => ⟨S64, .f32⟩
  | 101 => ⟨S64, .i1⟩
  | 102 => ⟨S64x1, .f32⟩
  | 103 => ⟨S64, .f32⟩
  | 104 => ⟨S_, .f32⟩
  | 105 => ⟨S_, .f32⟩
  | 106 => ⟨S64, .f32⟩
  | 107 => ⟨S64, .f32⟩
  | 108 => ⟨S64x1x1x1, .f32⟩
  | 109 => ⟨S64x32x1x720, .f32⟩
  | 110 => ⟨S64x32x1x720, .f32⟩
  | 111 => ⟨S64x32x1x720, .f32⟩
  | 112 => ⟨S64x1, .f32⟩
  | 113 => ⟨S64, .f32⟩
  | 114 => ⟨S_, .f32⟩
  | 115 => ⟨S64, .f32⟩
  | 116 => ⟨S64, .i1⟩
  | 117 => ⟨S64x1, .f32⟩
  | 118 => ⟨S64, .f32⟩
  | 119 => ⟨S_, .f32⟩
  | 120 => ⟨S_, .f32⟩
  | 121 => ⟨S64, .f32⟩
  | 122 => ⟨S64, .f32⟩
  | 123 => ⟨S64x1x1x1, .f32⟩
  | 124 => ⟨S64x32x1x720, .f32⟩
  | 125 => ⟨S64x32x1x720, .f32⟩
  | 126 => ⟨S64x32x1x720, .f32⟩
  | 127 => ⟨S64x1, .f32⟩
  | _ => ⟨S64x32x4x2048, .f32⟩

abbrev hbmTy0_1 (i : Nat) : BufTy := match i % 128 with
  | 0 => ⟨S64, .f32⟩
  | 1 => ⟨S_, .f32⟩
  | 2 => ⟨S64, .f32⟩
  | 3 => ⟨S64, .i1⟩
  | 4 => ⟨S64x1, .f32⟩
  | 5 => ⟨S64, .f32⟩
  | 6 => ⟨S_, .f32⟩
  | 7 => ⟨S_, .f32⟩
  | 8 => ⟨S64, .f32⟩
  | 9 => ⟨S64, .f32⟩
  | 10 => ⟨S64x1x1x1, .f32⟩
  | 11 => ⟨S64x32x1x720, .f32⟩
  | 12 => ⟨S64x32x1x720, .f32⟩
  | 13 => ⟨S64x32x1x720, .f32⟩
  | 14 => ⟨S64x1, .f32⟩
  | 15 => ⟨S64, .f32⟩
  | 16 => ⟨S_, .f32⟩
  | 17 => ⟨S64, .f32⟩
  | 18 => ⟨S64, .i1⟩
  | 19 => ⟨S64x1, .f32⟩
  | 20 => ⟨S64, .f32⟩
  | 21 => ⟨S_, .f32⟩
  | 22 => ⟨S_, .f32⟩
  | 23 => ⟨S64, .f32⟩
  | 24 => ⟨S64, .f32⟩
  | 25 => ⟨S64x1x1x1, .f32⟩
  | 26 => ⟨S64x32x1x720, .f32⟩
  | 27 => ⟨S64x32x1x720, .f32⟩
  | 28 => ⟨S64x32x1x720, .f32⟩
  | 29 => ⟨S64x1, .f32⟩
  | 30 => ⟨S64, .f32⟩
  | 31 => ⟨S_, .f32⟩
  | 32 => ⟨S64, .f32⟩
  | 33 => ⟨S64, .i1⟩
  | 34 => ⟨S64x1, .f32⟩
  | 35 => ⟨S64, .f32⟩
  | 36 => ⟨S_, .f32⟩
  | 37 => ⟨S_, .f32⟩
  | 38 => ⟨S64, .f32⟩
  | 39 => ⟨S64, .f32⟩
  | 40 => ⟨S64x1x1x1, .f32⟩
  | 41 => ⟨S64x32x1x720, .f32⟩
  | 42 => ⟨S64x32x1x720, .f32⟩
  | 43 => ⟨S64x32x1x720, .f32⟩
  | 44 => ⟨S64x1, .f32⟩
  | 45 => ⟨S64, .f32⟩
  | 46 => ⟨S_, .f32⟩
  | 47 => ⟨S64, .f32⟩
  | 48 => ⟨S64, .i1⟩
  | 49 => ⟨S64x1, .f32⟩
  | 50 => ⟨S64, .f32⟩
  | 51 => ⟨S_, .f32⟩
  | 52 => ⟨S_, .f32⟩
  | 53 => ⟨S64, .f32⟩
  | 54 => ⟨S64, .f32⟩
  | 55 => ⟨S64x1x1x1, .f32⟩
  | 56 => ⟨S64x32x1x720, .f32⟩
  | 57 => ⟨S64x32x1x720, .f32⟩
  | 58 => ⟨S64x32x1x720, .f32⟩
  | 59 => ⟨S_, .f32⟩
  | 60 => ⟨S64x32x1x720, .f32⟩
  | 61 => ⟨S64x32x1x720, .f32⟩
  | 62 => ⟨S64x32x720, .f32⟩
  | 63 => ⟨S64x720x32, .f32⟩
  | _ => ⟨S64x32x4x2048, .f32⟩

abbrev hbmTy (i : Nat) : BufTy := match i / 128 with
  | 0 => hbmTy0_0 i
  | 1 => hbmTy0_1 i
  | _ => ⟨S64x32x4x2048, .f32⟩

abbrev bufTy : (tb : Table) → Fin (tcTables nBuf tb) → BufTy
  | .hbm, ⟨i, _⟩ => hbmTy i
  | _, _ => ⟨S64x32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_1 : Ref sig .tc := ⟨.hbm, 74, rfl⟩
abbrev main_call0_v0 : Ref sig .tc := ⟨.hbm, 75, rfl⟩
abbrev main_call0_v1 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_3 : Ref sig .tc := ⟨.hbm, 89, rfl⟩
abbrev main_call1_v0 : Ref sig .tc := ⟨.hbm, 90, rfl⟩
abbrev main_call1_v1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_4 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_5 : Ref sig .tc := ⟨.hbm, 104, rfl⟩
abbrev main_call2_v0 : Ref sig .tc := ⟨.hbm, 105, rfl⟩
abbrev main_call2_v1 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_6 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_7 : Ref sig .tc := ⟨.hbm, 119, rfl⟩
abbrev main_call3_v0 : Ref sig .tc := ⟨.hbm, 120, rfl⟩
abbrev main_call3_v1 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_8 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_9 : Ref sig .tc := ⟨.hbm, 134, rfl⟩
abbrev main_call4_v0 : Ref sig .tc := ⟨.hbm, 135, rfl⟩
abbrev main_call4_v1 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_10 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_11 : Ref sig .tc := ⟨.hbm, 149, rfl⟩
abbrev main_call5_v0 : Ref sig .tc := ⟨.hbm, 150, rfl⟩
abbrev main_call5_v1 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_12 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_13 : Ref sig .tc := ⟨.hbm, 164, rfl⟩
abbrev main_call6_v0 : Ref sig .tc := ⟨.hbm, 165, rfl⟩
abbrev main_call6_v1 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_14 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_15 : Ref sig .tc := ⟨.hbm, 179, rfl⟩
abbrev main_call7_v0 : Ref sig .tc := ⟨.hbm, 180, rfl⟩
abbrev main_call7_v1 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_16 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩

abbrev nD : Nat := 1
abbrev τ : Topo := Topo.v7x

variable {F : FTy → Type} [FloatOps F]

class Facts₀ : Prop where
  slices_S64x32x4x2048_S64x32x1x2048_0_0_3_0 : S64x32x4x2048.Slices ![0, 0, 3, 0] S64x32x1x2048
  bcast_S720_S1x1x1x720_3 : S720.BroadcastsInDim S1x1x1x720 (![3] : Fin 1 → Fin S1x1x1x720.rank)
  bcast_S1x1x1x720_S64x32x1x720_0_1_2_3 : S1x1x1x720.BroadcastsInDim S64x32x1x720 (![0, 1, 2, 3] : Fin 4 → Fin S64x32x1x720.rank)
  bcast_S_S64x32x1x720 : S_.BroadcastsInDim S64x32x1x720 (![] : Fin 0 → Fin S64x32x1x720.rank)
  slices_S64x8_S64x1_0_0 : S64x8.Slices ![0, 0] S64x1
  shapeCasts_S64x1_S64 : S64x1.ShapeCasts S64
  bcast_S_S64 : S_.BroadcastsInDim S64 (![] : Fin 0 → Fin S64.rank)
  bcast_S64_S64x1x1x1_0 : S64.BroadcastsInDim S64x1x1x1 (![0] : Fin 1 → Fin S64x1x1x1.rank)
  bcast_S64x1x1x1_S64x32x1x720_0_1_2_3 : S64x1x1x1.BroadcastsInDim S64x32x1x720 (![0, 1, 2, 3] : Fin 4 → Fin S64x32x1x720.rank)
  slices_S64x8_S64x1_0_1 : S64x8.Slices ![0, 1] S64x1
  slices_S64x8_S64x1_0_2 : S64x8.Slices ![0, 2] S64x1
  slices_S64x8_S64x1_0_3 : S64x8.Slices ![0, 3] S64x1
  slices_S64x8_S64x1_0_4 : S64x8.Slices ![0, 4] S64x1
  slices_S64x8_S64x1_0_5 : S64x8.Slices ![0, 5] S64x1
  slices_S64x8_S64x1_0_6 : S64x8.Slices ![0, 6] S64x1
  slices_S64x8_S64x1_0_7 : S64x8.Slices ![0, 7] S64x1
  shapeCasts_S64x32x1x720_S64x32x720 : S64x32x1x720.ShapeCasts S64x32x720
  transposes_S64x32x720_S64x720x32_0_2_1 : S64x32x720.Transposes [0, 2, 1] S64x720x32
  dot_S64x32x1x2048_S720x2048_S64x32x1x720_3_1_012_0_n_n_wf : DotDims.WF S64x32x1x2048 S720x2048 S64x32x1x720 [3] [1] [0, 1, 2] [0] [] []

variable [Facts₀]

def dot_S64x32x1x2048_S720x2048_S64x32x1x720_3_1_012_0_n_n : DotDims S64x32x1x2048 S720x2048 S64x32x1x720 where
  lhsContracting := [3]
  rhsContracting := [1]
  lhsNonContracting := [0, 1, 2]
  rhsNonContracting := [0]
  lhsBatch := []
  rhsBatch := []
  wf := dot_S64x32x1x2048_S720x2048_S64x32x1x720_3_1_012_0_n_n_wf

class Facts : Prop extends Facts₀ where

variable [Facts]
-- ==== Proof.KernelConds.lean ====
import proofs.«164986_g23622320128510_cont_sun_c4_816_3_alg».proof.Proof.Gen.Kernel.Launch
import proofs.«164986_g23622320128510_cont_sun_c4_816_3_alg».proof.Proof.Gen.Kernel.Skeleton
import proofs.«164986_g23622320128510_cont_sun_c4_816_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions of the body, over the grid

The grid is 4 x 8: point `t` is batch block `t / 8` at feature block `k = t % 8`. The body resets its
accumulator at `k = 0`, adds to it at every other `k`, and writes the output block at `k = 7`. -/

/-- "this is the first feature block" (`k = 0`): the accumulator is stored afresh. -/
abbrev cond0_0 (i : grid0.Coords) : Prop := (Scalar.cmpi .ne (Scalar.extui (Scalar.cmpi .eq (BitVec.ofNat 32 (i 1).val) 0#32)) 0#32) = 1#1
/-- "this is not the first feature block" (`k ≠ 0`): the accumulator is added to. -/
abbrev cond0_1 (i : grid0.Coords) : Prop := (Scalar.cmpi .ne (Scalar.extui (Scalar.cmpi .ne (BitVec.ofNat 32 (i 1).val) 0#32)) 0#32) = 1#1
/-- "this is the last feature block" (`k = 7`): the output block is computed and stored. -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)

/-! The case of a point, from `k = t % 8`. -/
theorem cA0 (t : Fin cfg0.N) (h : t.val % 8 = 0) : cond0_0 (grid0.coords t) := (hcond0_0 t).mpr h
theorem cA1 (t : Fin cfg0.N) (h : t.val % 8 = 0) : ¬cond0_1 (grid0.coords t) := fun h' => (hcond0_1 t).mp h' h
theorem cA2 (t : Fin cfg0.N) (h : t.val % 8 = 0) : ¬cond0_2 (grid0.coords t) := fun h' => by have := (hcond0_2 t).mp h'; omega
theorem cN0 (t : Fin cfg0.N) (h : ¬ t.val % 8 = 0) : ¬cond0_0 (grid0.coords t) := fun h' => h ((hcond0_0 t).mp h')
theorem cN1 (t : Fin cfg0.N) (h : ¬ t.val % 8 = 0) : cond0_1 (grid0.coords t) := (hcond0_1 t).mpr h
theorem cC2 (t : Fin cfg0.N) (h : t.val % 8 = 7) : cond0_2 (grid0.coords t) := (hcond0_2 t).mpr h
theorem cB2 (t : Fin cfg0.N) (h : ¬ t.val % 8 = 7) : ¬cond0_2 (grid0.coords t) := fun h' => h ((hcond0_2 t).mp h')

end Cert.Kernel.Fr

end
-- ==== Proof.KernelRunA.lean ====
import proofs.«164986_g23622320128510_cont_sun_c4_816_3_alg».proof.Proof.KernelConds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a first feature block (`k = 0`): the accumulator, whatever it held, is overwritten by this block's partial products; the output buffer is handed back untouched. The pieces each written buffer ends with are found by the run itself. -/
noncomputable def kernelRun0_A (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : cond0_0 i) (hc1 : ¬cond0_1 i) (hc2 : ¬cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) :
    { LS0 : List (View.Piece (Elt F) S512x720 .f32) //
      ∀ (xi18 : Vec F S16x720x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun xi18 E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; iexact HS0

end Cert.Kernel.Fr

end
-- ==== Proof.KernelRunB.lean ====
import proofs.«164986_g23622320128510_cont_sun_c4_816_3_alg».proof.Proof.KernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a middle feature block (`0 < k < 7`): this block's partial products are added to the accumulator the block before left (`xs0`); the output buffer is handed back untouched. The pieces each written buffer ends with are found by the run itself. -/
noncomputable def kernelRun0_B (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : ¬cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    { LS0 : List (View.Piece (Elt F) S512x720 .f32) //
      ∀ (xi18 : Vec F S16x720x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun xi18 E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; iexact HS0

end Cert.Kernel.Fr

end
-- ==== Proof.KernelRunC.lean ====
import proofs.«164986_g23622320128510_cont_sun_c4_816_3_alg».proof.Proof.KernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at the last feature block (`k = 7`): this block's partial products are added to the accumulator (`xs0`), and the output buffer is overwritten with the accumulator plus the gate-weighted bias plus the constant, transposed. The pieces each written buffer ends with are found by the run itself. -/
noncomputable def kernelRun0_C (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    Σ' (L18 : List (View.Piece (Elt F) S16x720x32 .f32)), { LS0 : List (View.Piece (Elt F) S512x720 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg21.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    iexists _; iexact HS0

end Cert.Kernel.Fr

end
-- ==== Proof.KernelKit.lean ====
import proofs.«164986_g23622320128510_cont_sun_c4_816_3_alg».proof.Proof.KernelConds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Seventeen host operations come first: each of the eight activation arrays `[64,32,4,2048]` re-laid as `[2048,8192]`
(row `b·32+c`, column `l·2048+d`), each of the eight bias vectors made a `[1,720]` row, and the eight rows
stacked into one `[8,720]` matrix. None of them writes an argument array. -/

/-- Core `c`'s buffers when the region is entered: after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
there or not (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
/-- Away from the last feature block the output window is idle: the body stores nothing into it, -/
theorem idleAt0_18 : ∀ t : Fin cfg0.N, ¬cond0_2 (grid0.coords t) → cfg0.idle 18 (grid0.coords t) = true := by decide +kernel
/-- and the pipeline does not write it back there. -/
theorem noFlush0_18 : ∀ t : Fin cfg0.N, ¬cond0_2 (grid0.coords t) → (cfg0.win 18).flush t = false := by decide +kernel
/-- At a last feature block it is live. -/
theorem liveAt0_18 : ∀ t : Fin cfg0.N, cond0_2 (grid0.coords t) → cfg0.idle 18 (grid0.coords t) = false := by decide +kernel

/-! ## The staging memrefs the pipeline passes the body, and the accumulator -/
abbrev ms0_0 (t : Fin cfg0.N) : Memref sig .tc .vmem S16x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x720 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S720x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S720x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S720x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S720x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S720x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S720x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S720x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S720x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S16x720x32 .f32 := win0_18.stage (cfg0.slots t 18)
abbrev hs0_18 (t : Fin cfg0.N) : (ms0_18 t).IsWhole := hstage0_18 ((cfg0.slots t 18).cast nbuf0_18)
/-- The accumulator: a whole scoped buffer of the kernel's own. -/
abbrev scM0_0 : Memref sig .tc .vmem S512x720 .f32 := Memref.whole cc0_scratch0
abbrev VS0_0 : View sig .tc .vmem S512x720 .f32 := scM0_0.view
/-- One staging buffer of the output window, through which its contents are stated. -/
abbrev VO0_18 : View sig .tc .vmem S16x720x32 .f32 := (Memref.whole cc0_stg18_0 : Memref sig .tc .vmem S16x720x32 .f32).view

/-- The region's invariant: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim's post from a frame run -/

/-- A run whose post has every window's array at what the proof data computes and every other unscoped buffer as the
    region found it leaves the twenty-five argument arrays as launched: nine are arrays of input windows, which the
    pipeline only reads; sixteen are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 0).trans (((dats 0 c).arrAt_in 0 rfl _).trans ((hA c 0).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c))),
      ((h c).1 14).trans (((dats 0 c).arrAt_in 14 rfl _).trans ((hA c 14).trans (V_main_arg13 m c))),
      ((h c).1 15).trans (((dats 0 c).arrAt_in 15 rfl _).trans ((hA c 15).trans (V_main_arg14 m c))),
      ((h c).1 16).trans (((dats 0 c).arrAt_in 16 rfl _).trans ((hA c 16).trans (V_main_arg15 m c))),
      ((h c).1 17).trans (((dats 0 c).arrAt_in 17 rfl _).trans ((hA c 17).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) h

end Cert.Kernel.Fr

end
-- ==== Proof.KernelFrame.lean ====
import proofs.«164986_g23622320128510_cont_sun_c4_816_3_alg».proof.Proof.KernelRunC
import proofs.«164986_g23622320128510_cont_sun_c4_816_3_alg».proof.Proof.KernelKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the memrefs the pipeline passes and the windows' blocks -/

abbrev runAtA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cA0 t h0) (cA1 t h0) (cA2 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
abbrev runAtB (c : Dev nD) (t : Fin cfg0.N) (h0 : ¬ t.val % 8 = 0) (h2 : ¬ t.val % 8 = 7) (xs0 : Vec F S512x720 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cB2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0
abbrev runAtC (c : Dev nD) (t : Fin cfg0.N) (h0 : ¬ t.val % 8 = 0) (h2 : t.val % 8 = 7) (xs0 : Vec F S512x720 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cC2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0

/-! Each run's pieces for the accumulator tile it whole, and the last run's pieces for the output block tile it whole. -/
theorem scoverA (c : Dev nD) (t : Fin cfg0.N) (h0 : t.val % 8 = 0) (y : S512x720.Idx) :
    ∃ pc ∈ (runAtA m c t h0).1, y ∈ pc.1.set :=
  View.cover_of_tiledL (runAtA m c t h0).1 S512x720.size (by sl_kernel_rfl) y
theorem scoverB (c : Dev nD) (t : Fin cfg0.N) (h0 : ¬ t.val % 8 = 0) (h2 : ¬ t.val % 8 = 7) (xs0 : Vec F S512x720 .f32) (y : S512x720.Idx) :
    ∃ pc ∈ (runAtB m c t h0 h2 xs0).1, y ∈ pc.1.set :=
  View.cover_of_tiledL (runAtB m c t h0 h2 xs0).1 S512x720.size (by sl_kernel_rfl) y
theorem scoverC (c : Dev nD) (t : Fin cfg0.N) (h0 : ¬ t.val % 8 = 0) (h2 : t.val % 8 = 7) (xs0 : Vec F S512x720 .f32) (y : S512x720.Idx) :
    ∃ pc ∈ (runAtC m c t h0 h2 xs0).2.1, y ∈ pc.1.set :=
  View.cover_of_tiledL (runAtC m c t h0 h2 xs0).2.1 S512x720.size (by sl_kernel_rfl) y
theorem coverC (c : Dev nD) (t : Fin cfg0.N) (h0 : ¬ t.val % 8 = 0) (h2 : t.val % 8 = 7) (xs0 : Vec F S512x720 .f32) (y : S16x720x32.Idx) :
    ∃ pc ∈ (runAtC m c t h0 h2 xs0).1, y ∈ pc.1.set :=
  View.cover_of_tiledL (runAtC m c t h0 h2 xs0).1 S16x720x32.size (by sl_kernel_rfl) y

/-- What a first feature block leaves in the accumulator. -/
def soutA (c : Dev nD) (t : Fin cfg0.N) (h0 : t.val % 8 = 0) : Vec F S512x720 .f32 :=
  VS0_0.read (Elt F) (VS0_0.writes (Elt F) VS0_0.junk (runAtA m c t h0).1)
/-- What a middle feature block leaves in the accumulator, over what the block before left. -/
def soutB (c : Dev nD) (t : Fin cfg0.N) (h0 : ¬ t.val % 8 = 0) (h2 : ¬ t.val % 8 = 7) (xs0 : Vec F S512x720 .f32) : Vec F S512x720 .f32 :=
  VS0_0.read (Elt F) (VS0_0.writes (Elt F) VS0_0.junk (runAtB m c t h0 h2 xs0).1)
/-- What a last feature block leaves in the accumulator, -/
def soutC (c : Dev nD) (t : Fin cfg0.N) (h0 : ¬ t.val % 8 = 0) (h2 : t.val % 8 = 7) (xs0 : Vec F S512x720 .f32) : Vec F S512x720 .f32 :=
  VS0_0.read (Elt F) (VS0_0.writes (Elt F) VS0_0.junk (runAtC m c t h0 h2 xs0).2.1)
/-- and in the output window's staging buffer. -/
def outC (c : Dev nD) (t : Fin cfg0.N) (h0 : ¬ t.val % 8 = 0) (h2 : t.val % 8 = 7) (xs0 : Vec F S512x720 .f32) : Vec F S16x720x32 .f32 :=
  VO0_18.read (Elt F) (VO0_18.writes (Elt F) VO0_18.junk (runAtC m c t h0 h2 xs0).1)

/-! ## The accumulation, point by point -/

/-- What the accumulator holds after the body at position `n`: reset at a first feature block, else the case's
    contents over what position `n - 1` left. -/
def accAt (c : Dev nD) : (n : ℕ) → n < cfg0.N → Vec F S512x720 .f32
  | 0, hn => soutA m c ⟨0, hn⟩ (Nat.zero_mod _)
  | n + 1, hn =>
    if h0 : (n + 1) % 8 = 0 then soutA m c ⟨n + 1, hn⟩ h0
    else if h2 : (n + 1) % 8 = 7 then soutC m c ⟨n + 1, hn⟩ h0 h2 (accAt c n (Nat.lt_of_succ_lt hn))
    else soutB m c ⟨n + 1, hn⟩ h0 h2 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => exact rfl
  | succ n => exact (dif_pos h0).trans rfl
theorem accAt_B (c : Dev nD) (t : Fin cfg0.N) (h0 : ¬ t.val % 8 = 0) (h2 : ¬ t.val % 8 = 7) :
    accAt m c t.val t.isLt = soutB m c t h0 h2 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)
theorem accAt_C (c : Dev nD) (t : Fin cfg0.N) (h0 : ¬ t.val % 8 = 0) (h2 : t.val % 8 = 7) :
    accAt m c t.val t.isLt = soutC m c t h0 h2 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- What the output window's staging buffer holds after the body at point `t`: at a last feature block what that
    case stored; elsewhere the window is idle and nothing consults this. -/
def outAt (c : Dev nD) (t : Fin cfg0.N) : Vec F S16x720x32 .f32 :=
  if h2 : t.val % 8 = 7 then outC m c t (by omega) h2 (accAt m c (t.val - 1) (Nat.lt_of_le_of_lt (Nat.sub_le _ _) t.isLt))
  else VO0_18.read (Elt F) VO0_18.junk
theorem outAt_C (c : Dev nD) (t : Fin cfg0.N) (h0 : ¬ t.val % 8 = 0) (h2 : t.val % 8 = 7) :
    outAt m c t = outC m c t h0 h2 (accAt m c (t.val - 1) (Nat.lt_of_le_of_lt (Nat.sub_le _ _) t.isLt)) := dif_pos h2

/-- The region's invariant before position `n`: before the first point the accumulator holds anything; afterwards
    what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outAt m c t
    | ⟨n + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 8000000 in
/-- The body at any point: the inputs' buffers hold their blocks; `k = t % 8` says which run applies; the invariant
    hands the run the accumulator at what the point before left (at anything before the first point) and takes it back
    at this point's contents; away from a last feature block the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  have hN : t.val < 32 := lt_of_lt_of_eq t.isLt (show cfg0.N = 32 from N_0)
  by_cases h0 : t.val % 8 = 0
  · rw [Dat.leavesExact_idle (dats m 0 c) 18 t (idleAt0_18 t (cA2 t h0)) (noFlush0_18 t (cA2 t h0))]
    rw [accAt_A m c t h0]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexists _; iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun h => h0 (by rw [h])
    by_cases h2 : t.val % 8 = 7
    · rw [show (dats m 0 c).leavesExact 18 t = owns (c : Thread nD τ) (ms0_18 t) fullShare ((dats m 0 c).after 18 t) from by
        unfold Dat.leavesExact; rw [liveAt0_18 t (cC2 t h2)], after0_18]
      rw [accAt_C m c t h0 h2, outAt_C m c t h0 h2]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtC m c t h0 h2 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      iintro ⟨H0, H1, H2, H3, H4, H5, H6, H7, H8, H9, H10, H11, H12, H13, H14, H15, H16, H17, ⟨%e18, H18⟩, ⟨%es0, HS0⟩⟩
      isplitl [HS0 Hg]
      · isplitl [HS0]
        · unfold owns; iexists _; isplitr
          swap; · iexact HS0
          ipureintro; exact View.read_writes_of_cover _ _ _ _ _ (scoverC m c t h0 h2 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (coverC m c t h0 h2 _)
    · rw [Dat.leavesExact_idle (dats m 0 c) 18 t (idleAt0_18 t (cB2 t h2)) (noFlush0_18 t (cB2 t h2))]
      rw [accAt_B m c t h0 h2]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtB m c t h0 h2 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverB m c t h0 h2 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Fr

end
-- ==== Proof.KernelIdealConds.lean ====
import proofs.«164986_g23622320128510_cont_sun_c4_816_3_alg».proof.Proof.Gen.KernelIdeal.Launch
import proofs.«164986_g23622320128510_cont_sun_c4_816_3_alg».proof.Proof.Gen.KernelIdeal.Skeleton
import proofs.«164986_g23622320128510_cont_sun_c4_816_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions of the body, over the grid

The grid is 4 x 8: point `t` is batch block `t / 8` at feature block `k = t % 8`. The body resets its
accumulator at `k = 0`, adds to it at every other `k`, and writes the output block at `k = 7`. -/

/-- "this is the first feature block" (`k = 0`): the accumulator is stored afresh. -/
abbrev cond0_0 (i : grid0.Coords) : Prop := (Scalar.cmpi .ne (Scalar.extui (Scalar.cmpi .eq (BitVec.ofNat 32 (i 1).val) 0#32)) 0#32) = 1#1
/-- "this is not the first feature block" (`k ≠ 0`): the accumulator is added to. -/
abbrev cond0_1 (i : grid0.Coords) : Prop := (Scalar.cmpi .ne (Scalar.extui (Scalar.cmpi .ne (BitVec.ofNat 32 (i 1).val) 0#32)) 0#32) = 1#1
/-- "this is the last feature block" (`k = 7`): the output block is computed and stored. -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)

/-! The case of a point, from `k = t % 8`. -/
theorem cA0 (t : Fin cfg0.N) (h : t.val % 8 = 0) : cond0_0 (grid0.coords t) := (hcond0_0 t).mpr h
theorem cA1 (t : Fin cfg0.N) (h : t.val % 8 = 0) : ¬cond0_1 (grid0.coords t) := fun h' => (hcond0_1 t).mp h' h
theorem cA2 (t : Fin cfg0.N) (h : t.val % 8 = 0) : ¬cond0_2 (grid0.coords t) := fun h' => by have := (hcond0_2 t).mp h'; omega
theorem cN0 (t : Fin cfg0.N) (h : ¬ t.val % 8 = 0) : ¬cond0_0 (grid0.coords t) := fun h' => h ((hcond0_0 t).mp h')
theorem cN1 (t : Fin cfg0.N) (h : ¬ t.val % 8 = 0) : cond0_1 (grid0.coords t) := (hcond0_1 t).mpr h
theorem cC2 (t : Fin cfg0.N) (h : t.val % 8 = 7) : cond0_2 (grid0.coords t) := (hcond0_2 t).mpr h
theorem cB2 (t : Fin cfg0.N) (h : ¬ t.val % 8 = 7) : ¬cond0_2 (grid0.coords t) := fun h' => h ((hcond0_2 t).mp h')

end Cert.KernelIdeal.Fr

end
-- ==== Proof.KernelIdealRunA.lean ====
import proofs.«164986_g23622320128510_cont_sun_c4_816_3_alg».proof.Proof.KernelIdealConds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a first feature block (`k = 0`): the accumulator, whatever it held, is overwritten by this block's partial products; the output buffer is handed back untouched. The pieces each written buffer ends with are found by the run itself. -/
noncomputable def kernelRun0_A (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : cond0_0 i) (hc1 : ¬cond0_1 i) (hc2 : ¬cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) :
    { LS0 : List (View.Piece (Elt F) S512x720 .f32) //
      ∀ (xi18 : Vec F S16x720x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun xi18 E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; iexact HS0

end Cert.KernelIdeal.Fr

end
-- ==== Proof.KernelIdealRunB.lean ====
import proofs.«164986_g23622320128510_cont_sun_c4_816_3_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a middle feature block (`0 < k < 7`): this block's partial products are added to the accumulator the block before left (`xs0`); the output buffer is handed back untouched. The pieces each written buffer ends with are found by the run itself. -/
noncomputable def kernelRun0_B (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : ¬cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    { LS0 : List (View.Piece (Elt F) S512x720 .f32) //
      ∀ (xi18 : Vec F S16x720x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare xi18 ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun xi18 E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; iexact HS0

end Cert.KernelIdeal.Fr

end
-- ==== Proof.KernelIdealRunC.lean ====
import proofs.«164986_g23622320128510_cont_sun_c4_816_3_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at the last feature block (`k = 7`): this block's partial products are added to the accumulator (`xs0`), and the output buffer is overwritten with the accumulator plus the gate-weighted bias plus the constant, transposed. The pieces each written buffer ends with are found by the run itself. -/
noncomputable def kernelRun0_C (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : cond0_2 i)
    (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    Σ' (L18 : List (View.Piece (Elt F) S16x720x32 .f32)), { LS0 : List (View.Piece (Elt F) S512x720 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__head_kernel_eq_skeleton]; unfold cc0__head_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg21.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    iexists _; iexact HS0

end Cert.KernelIdeal.Fr

end
-- ==== Proof.KernelIdealKit.lean ====
import proofs.«164986_g23622320128510_cont_sun_c4_816_3_alg».proof.Proof.KernelIdealConds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Seventeen host operations come first: each of the eight activation arrays `[64,32,4,2048]` re-laid as `[2048,8192]`
(row `b·32+c`, column `l·2048+d`), each of the eight bias vectors made a `[1,720]` row, and the eight rows
stacked into one `[8,720]` matrix. None of them writes an argument array. -/

/-- Core `c`'s buffers when the region is entered: after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
there or not (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
/-- Away from the last feature block the output window is idle: the body stores nothing into it, -/
theorem idleAt0_18 : ∀ t : Fin cfg0.N, ¬cond0_2 (grid0.coords t) → cfg0.idle 18 (grid0.coords t) = true := by decide +kernel
/-- and the pipeline does not write it back there. -/
theorem noFlush0_18 : ∀ t : Fin cfg0.N, ¬cond0_2 (grid0.coords t) → (cfg0.win 18).flush t = false := by decide +kernel
/-- At a last feature block it is live. -/
theorem liveAt0_18 : ∀ t : Fin cfg0.N, cond0_2 (grid0.coords t) → cfg0.idle 18 (grid0.coords t) = false := by decide +kernel

/-! ## The staging memrefs the pipeline passes the body, and the accumulator -/
abbrev ms0_0 (t : Fin cfg0.N) : Memref sig .tc .vmem S16x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x720 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S720x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S720x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S720x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S720x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S720x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S720x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S720x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S720x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S16x720x32 .f32 := win0_18.stage (cfg0.slots t 18)
abbrev hs0_18 (t : Fin cfg0.N) : (ms0_18 t).IsWhole := hstage0_18 ((cfg0.slots t 18).cast nbuf0_18)
/-- The accumulator: a whole scoped buffer of the kernel's own. -/
abbrev scM0_0 : Memref sig .tc .vmem S512x720 .f32 := Memref.whole cc0_scratch0
abbrev VS0_0 : View sig .tc .vmem S512x720 .f32 := scM0_0.view
/-- One staging buffer of the output window, through which its contents are stated. -/
abbrev VO0_18 : View sig .tc .vmem S16x720x32 .f32 := (Memref.whole cc0_stg18_0 : Memref sig .tc .vmem S16x720x32 .f32).view

/-- The region's invariant: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim's post from a frame run -/

/-- A run whose post has every window's array at what the proof data computes and every other unscoped buffer as the
    region found it leaves the twenty-five argument arrays as launched: nine are arrays of input windows, which the
    pipeline only reads; sixteen are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 0).trans (((dats 0 c).arrAt_in 0 rfl _).trans ((hA c 0).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c))),
      ((h c).1 14).trans (((dats 0 c).arrAt_in 14 rfl _).trans ((hA c 14).trans (V_main_arg13 m c))),
      ((h c).1 15).trans (((dats 0 c).arrAt_in 15 rfl _).trans ((hA c 15).trans (V_main_arg14 m c))),
      ((h c).1 16).trans (((dats 0 c).arrAt_in 16 rfl _).trans ((hA c 16).trans (V_main_arg15 m c))),
      ((h c).1 17).trans (((dats 0 c).arrAt_in 17 rfl _).trans ((hA c 17).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) h

end Cert.KernelIdeal.Fr

end
-- ==== Proof.KernelIdealFrame.lean ====
import proofs.«164986_g23622320128510_cont_sun_c4_816_3_alg».proof.Proof.KernelIdealRunC
import proofs.«164986_g23622320128510_cont_sun_c4_816_3_alg».proof.Proof.KernelIdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the memrefs the pipeline passes and the windows' blocks -/

abbrev runAtA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cA0 t h0) (cA1 t h0) (cA2 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
abbrev runAtB (c : Dev nD) (t : Fin cfg0.N) (h0 : ¬ t.val % 8 = 0) (h2 : ¬ t.val % 8 = 7) (xs0 : Vec F S512x720 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cB2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0
abbrev runAtC (c : Dev nD) (t : Fin cfg0.N) (h0 : ¬ t.val % 8 = 0) (h2 : t.val % 8 = 7) (xs0 : Vec F S512x720 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cC2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0

/-! Each run's pieces for the accumulator tile it whole, and the last run's pieces for the output block tile it whole. -/
theorem scoverA (c : Dev nD) (t : Fin cfg0.N) (h0 : t.val % 8 = 0) (y : S512x720.Idx) :
    ∃ pc ∈ (runAtA m c t h0).1, y ∈ pc.1.set :=
  View.cover_of_tiledL (runAtA m c t h0).1 S512x720.size (by sl_kernel_rfl) y
theorem scoverB (c : Dev nD) (t : Fin cfg0.N) (h0 : ¬ t.val % 8 = 0) (h2 : ¬ t.val % 8 = 7) (xs0 : Vec F S512x720 .f32) (y : S512x720.Idx) :
    ∃ pc ∈ (runAtB m c t h0 h2 xs0).1, y ∈ pc.1.set :=
  View.cover_of_tiledL (runAtB m c t h0 h2 xs0).1 S512x720.size (by sl_kernel_rfl) y
theorem scoverC (c : Dev nD) (t : Fin cfg0.N) (h0 : ¬ t.val % 8 = 0) (h2 : t.val % 8 = 7) (xs0 : Vec F S512x720 .f32) (y : S512x720.Idx) :
    ∃ pc ∈ (runAtC m c t h0 h2 xs0).2.1, y ∈ pc.1.set :=
  View.cover_of_tiledL (runAtC m c t h0 h2 xs0).2.1 S512x720.size (by sl_kernel_rfl) y
theorem coverC (c : Dev nD) (t : Fin cfg0.N) (h0 : ¬ t.val % 8 = 0) (h2 : t.val % 8 = 7) (xs0 : Vec F S512x720 .f32) (y : S16x720x32.Idx) :
    ∃ pc ∈ (runAtC m c t h0 h2 xs0).1, y ∈ pc.1.set :=
  View.cover_of_tiledL (runAtC m c t h0 h2 xs0).1 S16x720x32.size (by sl_kernel_rfl) y

/-- What a first feature block leaves in the accumulator. -/
def soutA (c : Dev nD) (t : Fin cfg0.N) (h0 : t.val % 8 = 0) : Vec F S512x720 .f32 :=
  VS0_0.read (Elt F) (VS0_0.writes (Elt F) VS0_0.junk (runAtA m c t h0).1)
/-- What a middle feature block leaves in the accumulator, over what the block before left. -/
def soutB (c : Dev nD) (t : Fin cfg0.N) (h0 : ¬ t.val % 8 = 0) (h2 : ¬ t.val % 8 = 7) (xs0 : Vec F S512x720 .f32) : Vec F S512x720 .f32 :=
  VS0_0.read (Elt F) (VS0_0.writes (Elt F) VS0_0.junk (runAtB m c t h0 h2 xs0).1)
/-- What a last feature block leaves in the accumulator, -/
def soutC (c : Dev nD) (t : Fin cfg0.N) (h0 : ¬ t.val % 8 = 0) (h2 : t.val % 8 = 7) (xs0 : Vec F S512x720 .f32) : Vec F S512x720 .f32 :=
  VS0_0.read (Elt F) (VS0_0.writes (Elt F) VS0_0.junk (runAtC m c t h0 h2 xs0).2.1)
/-- and in the output window's staging buffer. -/
def outC (c : Dev nD) (t : Fin cfg0.N) (h0 : ¬ t.val % 8 = 0) (h2 : t.val % 8 = 7) (xs0 : Vec F S512x720 .f32) : Vec F S16x720x32 .f32 :=
  VO0_18.read (Elt F) (VO0_18.writes (Elt F) VO0_18.junk (runAtC m c t h0 h2 xs0).1)

/-! ## The accumulation, point by point -/

/-- What the accumulator holds after the body at position `n`: reset at a first feature block, else the case's
    contents over what position `n - 1` left. -/
def accAt (c : Dev nD) : (n : ℕ) → n < cfg0.N → Vec F S512x720 .f32
  | 0, hn => soutA m c ⟨0, hn⟩ (Nat.zero_mod _)
  | n + 1, hn =>
    if h0 : (n + 1) % 8 = 0 then soutA m c ⟨n + 1, hn⟩ h0
    else if h2 : (n + 1) % 8 = 7 then soutC m c ⟨n + 1, hn⟩ h0 h2 (accAt c n (Nat.lt_of_succ_lt hn))
    else soutB m c ⟨n + 1, hn⟩ h0 h2 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => exact rfl
  | succ n => exact (dif_pos h0).trans rfl
theorem accAt_B (c : Dev nD) (t : Fin cfg0.N) (h0 : ¬ t.val % 8 = 0) (h2 : ¬ t.val % 8 = 7) :
    accAt m c t.val t.isLt = soutB m c t h0 h2 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)
theorem accAt_C (c : Dev nD) (t : Fin cfg0.N) (h0 : ¬ t.val % 8 = 0) (h2 : t.val % 8 = 7) :
    accAt m c t.val t.isLt = soutC m c t h0 h2 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- What the output window's staging buffer holds after the body at point `t`: at a last feature block what that
    case stored; elsewhere the window is idle and nothing consults this. -/
def outAt (c : Dev nD) (t : Fin cfg0.N) : Vec F S16x720x32 .f32 :=
  if h2 : t.val % 8 = 7 then outC m c t (by omega) h2 (accAt m c (t.val - 1) (Nat.lt_of_le_of_lt (Nat.sub_le _ _) t.isLt))
  else VO0_18.read (Elt F) VO0_18.junk
theorem outAt_C (c : Dev nD) (t : Fin cfg0.N) (h0 : ¬ t.val % 8 = 0) (h2 : t.val % 8 = 7) :
    outAt m c t = outC m c t h0 h2 (accAt m c (t.val - 1) (Nat.lt_of_le_of_lt (Nat.sub_le _ _) t.isLt)) := dif_pos h2

/-- The region's invariant before position `n`: before the first point the accumulator holds anything; afterwards
    what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body each input's buffer at its block and the output's at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outAt m c t
    | ⟨n + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 8000000 in
/-- The body at any point: the inputs' buffers hold their blocks; `k = t % 8` says which run applies; the invariant
    hands the run the accumulator at what the point before left (at anything before the first point) and takes it back
    at this point's contents; away from a last feature block the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  have hN : t.val < 32 := lt_of_lt_of_eq t.isLt (show cfg0.N = 32 from N_0)
  by_cases h0 : t.val % 8 = 0
  · rw [Dat.leavesExact_idle (dats m 0 c) 18 t (idleAt0_18 t (cA2 t h0)) (noFlush0_18 t (cA2 t h0))]
    rw [accAt_A m c t h0]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexists _; iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun h => h0 (by rw [h])
    by_cases h2 : t.val % 8 = 7
    · rw [show (dats m 0 c).leavesExact 18 t = owns (c : Thread nD τ) (ms0_18 t) fullShare ((dats m 0 c).after 18 t) from by
        unfold Dat.leavesExact; rw [liveAt0_18 t (cC2 t h2)], after0_18]
      rw [accAt_C m c t h0 h2, outAt_C m c t h0 h2]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtC m c t h0 h2 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      iintro ⟨H0, H1, H2, H3, H4, H5, H6, H7, H8, H9, H10, H11, H12, H13, H14, H15, H16, H17, ⟨%e18, H18⟩, ⟨%es0, HS0⟩⟩
      isplitl [HS0 Hg]
      · isplitl [HS0]
        · unfold owns; iexists _; isplitr
          swap; · iexact HS0
          ipureintro; exact View.read_writes_of_cover _ _ _ _ _ (scoverC m c t h0 h2 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (coverC m c t h0 h2 _)
    · rw [Dat.leavesExact_idle (dats m 0 c) 18 t (idleAt0_18 t (cB2 t h2)) (noFlush0_18 t (cB2 t h2))]
      rw [accAt_B m c t h0 h2]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runAtB m c t h0 h2 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS0]; · iexact HS0
      iintro ⟨H0, H1, H2, H3, H4, H5, H6, H7, H8, H9, H10, H11, H12, H13, H14, H15, H16, H17, H18, ⟨%es0, HS0⟩⟩
      isplitl [HS0 Hg]
      · isplitl [HS0]
        · unfold owns; iexists _; isplitr
          swap; · iexact HS0
          ipureintro; exact View.read_writes_of_cover _ _ _ _ _ (scoverB m c t h0 h2 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Fr

end
-- ==== Proof.KernelIdealPieces.lean ====
import proofs.«164986_g23622320128510_cont_sun_c4_816_3_alg».proof.Proof.KernelIdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs found is what the body's arithmetic says

Each run stored ONE value whole into each buffer it wrote; read back, the buffer holds that value: the body's payload
of the blocks it loaded (and, for the accumulator away from a first feature block, of what the accumulator held). -/

theorem hz2 : (![0, 0] : Fin 2 → Nat) = fun _ => 0 := funext fun a => by fin_cases a <;> rfl
theorem hz3 : (![0, 0, 0] : Fin 3 → Nat) = fun _ => 0 := funext fun a => by fin_cases a <;> rfl

theorem pieceA (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : cond0_0 i) (hc1 : ¬cond0_1 i) (hc2 : ¬cond0_2 i) (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 x17).1
      = k0_pay2 (k0_pay5 x0) (k0_pay8 (k0_pay5 x0) (k0_pay6 x0 x2 x10 x3 x11) (k0_pay7 x0 x4 x12) x5 x13 x6 x14 x7 x15) (k0_pay9 x8) (k0_pay10 (k0_pay5 x0)) x16 x9 x17 := by
  unfold kernelRun0_A; dsimp only; sl_unfold_words
  rw [View.canon_unit_zero hz2]
  simp only [View.readAt_eq_ld, Memref.IsWhole.read_unread, View.ld_unit_zero (S := S16x8) hz2, View.ld_unit_zero (S := S8x720) hz2, View.ld_unit_zero (S := S512x256) hz2, View.ld_unit_zero (S := S720x256) hz2, View.ld_unit_zero (S := S512x720) hz2]

theorem pieceB (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : ¬cond0_2 i) (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 x17 xs0).1
      = k0_pay3 (k0_pay5 x0) (k0_pay8 (k0_pay5 x0) (k0_pay6 x0 x2 x10 x3 x11) (k0_pay7 x0 x4 x12) x5 x13 x6 x14 x7 x15) (k0_pay9 x8) (k0_pay10 (k0_pay5 x0)) x16 x9 x17 xs0 := by
  unfold kernelRun0_B; dsimp only; sl_unfold_words
  rw [View.canon_unit_zero hz2]
  simp only [View.readAt_eq_ld, Memref.IsWhole.read_unread, View.ld_unit_zero (S := S16x8) hz2, View.ld_unit_zero (S := S8x720) hz2, View.ld_unit_zero (S := S512x256) hz2, View.ld_unit_zero (S := S720x256) hz2, View.ld_unit_zero (S := S512x720) hz2]

theorem pieceCs (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : cond0_2 i) (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 x17 xs0).2.1
      = k0_pay3 (k0_pay5 x0) (k0_pay8 (k0_pay5 x0) (k0_pay6 x0 x2 x10 x3 x11) (k0_pay7 x0 x4 x12) x5 x13 x6 x14 x7 x15) (k0_pay9 x8) (k0_pay10 (k0_pay5 x0)) x16 x9 x17 xs0 := by
  unfold kernelRun0_C; dsimp only; sl_unfold_words
  rw [View.canon_unit_zero hz2]
  simp only [View.readAt_eq_ld, Memref.IsWhole.read_unread, View.ld_unit_zero (S := S16x8) hz2, View.ld_unit_zero (S := S8x720) hz2, View.ld_unit_zero (S := S512x256) hz2, View.ld_unit_zero (S := S720x256) hz2, View.ld_unit_zero (S := S512x720) hz2]

theorem pieceCo (c : Dev nD) (i : grid0.Coords) (arg2 : Memref sig .tc .vmem S16x8 .f32) (harg2 : arg2.IsWhole) (arg3 : Memref sig .tc .vmem S8x720 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S720x256 .f32) (harg12 : arg12.IsWhole) (arg13 : Memref sig .tc .vmem S720x256 .f32) (harg13 : arg13.IsWhole) (arg14 : Memref sig .tc .vmem S720x256 .f32) (harg14 : arg14.IsWhole) (arg15 : Memref sig .tc .vmem S720x256 .f32) (harg15 : arg15.IsWhole) (arg16 : Memref sig .tc .vmem S720x256 .f32) (harg16 : arg16.IsWhole) (arg17 : Memref sig .tc .vmem S720x256 .f32) (harg17 : arg17.IsWhole) (arg18 : Memref sig .tc .vmem S720x256 .f32) (harg18 : arg18.IsWhole) (arg19 : Memref sig .tc .vmem S720x256 .f32) (harg19 : arg19.IsWhole) (arg20 : Memref sig .tc .vmem S16x720x32 .f32) (harg20 : arg20.IsWhole) (arg21 : Memref sig .tc .vmem S512x720 .f32) (harg21 : arg21.IsWhole) (hc0 : ¬cond0_0 i) (hc1 : cond0_1 i) (hc2 : cond0_2 i) (x0 : Vec F S16x8 .f32) (x1 : Vec F S8x720 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S720x256 .f32) (x11 : Vec F S720x256 .f32) (x12 : Vec F S720x256 .f32) (x13 : Vec F S720x256 .f32) (x14 : Vec F S720x256 .f32) (x15 : Vec F S720x256 .f32) (x16 : Vec F S720x256 .f32) (x17 : Vec F S720x256 .f32) (xs0 : Vec F S512x720 .f32) :
    View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 x15 x16 x17 xs0).1
      = k0_pay4 (k0_pay5 x0) x1 (k0_pay3 (k0_pay5 x0) (k0_pay8 (k0_pay5 x0) (k0_pay6 x0 x2 x10 x3 x11) (k0_pay7 x0 x4 x12) x5 x13 x6 x14 x7 x15) (k0_pay9 x8) (k0_pay10 (k0_pay5 x0)) x16 x9 x17 xs0) := by
  unfold kernelRun0_C; dsimp only; sl_unfold_words
  rw [View.canon_unit_zero hz3]
  simp only [View.readCov_unit_zero (S := S512x720) _ hz2, View.readAt_eq_ld, Memref.IsWhole.read_unread, View.ld_unit_zero (S := S16x8) hz2, View.ld_unit_zero (S := S8x720) hz2, View.ld_unit_zero (S := S512x256) hz2, View.ld_unit_zero (S := S720x256) hz2, View.ld_unit_zero (S := S512x720) hz2]

/-! The same at a grid point. -/

theorem soutA_eq (c : Dev nD) (t : Fin cfg0.N) (h0 : t.val % 8 = 0) :
    soutA m c t h0 = k0_pay2 (k0_pay5 (iblk m c 0 t)) (k0_pay8 (k0_pay5 (iblk m c 0 t)) (k0_pay6 (iblk m c 0 t) (iblk m c 2 t) (iblk m c 10 t) (iblk m c 3 t) (iblk m c 11 t)) (k0_pay7 (iblk m c 0 t) (iblk m c 4 t) (iblk m c 12 t)) (iblk m c 5 t) (iblk m c 13 t) (iblk m c 6 t) (iblk m c 14 t) (iblk m c 7 t) (iblk m c 15 t)) (k0_pay9 (iblk m c 8 t)) (k0_pay10 (k0_pay5 (iblk m c 0 t))) (iblk m c 16 t) (iblk m c 9 t) (iblk m c 17 t) := by
  unfold soutA; rw [View.read_writes_junk_eq_canon]
  exact pieceA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cA0 t h0) (cA1 t h0) (cA2 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
theorem soutB_eq (c : Dev nD) (t : Fin cfg0.N) (h0 : ¬ t.val % 8 = 0) (h2 : ¬ t.val % 8 = 7) (xs0 : Vec F S512x720 .f32) :
    soutB m c t h0 h2 xs0 = k0_pay3 (k0_pay5 (iblk m c 0 t)) (k0_pay8 (k0_pay5 (iblk m c 0 t)) (k0_pay6 (iblk m c 0 t) (iblk m c 2 t) (iblk m c 10 t) (iblk m c 3 t) (iblk m c 11 t)) (k0_pay7 (iblk m c 0 t) (iblk m c 4 t) (iblk m c 12 t)) (iblk m c 5 t) (iblk m c 13 t) (iblk m c 6 t) (iblk m c 14 t) (iblk m c 7 t) (iblk m c 15 t)) (k0_pay9 (iblk m c 8 t)) (k0_pay10 (k0_pay5 (iblk m c 0 t))) (iblk m c 16 t) (iblk m c 9 t) (iblk m c 17 t) xs0 := by
  unfold soutB; rw [View.read_writes_junk_eq_canon]
  exact pieceB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cB2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0
theorem soutC_eq (c : Dev nD) (t : Fin cfg0.N) (h0 : ¬ t.val % 8 = 0) (h2 : t.val % 8 = 7) (xs0 : Vec F S512x720 .f32) :
    soutC m c t h0 h2 xs0 = k0_pay3 (k0_pay5 (iblk m c 0 t)) (k0_pay8 (k0_pay5 (iblk m c 0 t)) (k0_pay6 (iblk m c 0 t) (iblk m c 2 t) (iblk m c 10 t) (iblk m c 3 t) (iblk m c 11 t)) (k0_pay7 (iblk m c 0 t) (iblk m c 4 t) (iblk m c 12 t)) (iblk m c 5 t) (iblk m c 13 t) (iblk m c 6 t) (iblk m c 14 t) (iblk m c 7 t) (iblk m c 15 t)) (k0_pay9 (iblk m c 8 t)) (k0_pay10 (k0_pay5 (iblk m c 0 t))) (iblk m c 16 t) (iblk m c 9 t) (iblk m c 17 t) xs0 := by
  unfold soutC; rw [View.read_writes_junk_eq_canon]
  exact pieceCs (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cC2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0
theorem outC_eq (c : Dev nD) (t : Fin cfg0.N) (h0 : ¬ t.val % 8 = 0) (h2 : t.val % 8 = 7) (xs0 : Vec F S512x720 .f32) :
    outC m c t h0 h2 xs0 = k0_pay4 (k0_pay5 (iblk m c 0 t)) (iblk m c 1 t) (k0_pay3 (k0_pay5 (iblk m c 0 t)) (k0_pay8 (k0_pay5 (iblk m c 0 t)) (k0_pay6 (iblk m c 0 t) (iblk m c 2 t) (iblk m c 10 t) (iblk m c 3 t) (iblk m c 11 t)) (k0_pay7 (iblk m c 0 t) (iblk m c 4 t) (iblk m c 12 t)) (iblk m c 5 t) (iblk m c 13 t) (iblk m c 6 t) (iblk m c 14 t) (iblk m c 7 t) (iblk m c 15 t)) (k0_pay9 (iblk m c 8 t)) (k0_pay10 (k0_pay5 (iblk m c 0 t))) (iblk m c 16 t) (iblk m c 9 t) (iblk m c 17 t) xs0) := by
  unfold outC; rw [View.read_writes_junk_eq_canon]
  exact pieceCo (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (cN0 t h0) (cN1 t h0) (cC2 t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0

end Cert.KernelIdeal.Fr

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.KernelIdealBlocks.lean ====
import proofs.«164986_g23622320128510_cont_sun_c4_816_3_alg».proof.Proof.KernelIdealKit
import proofs.«164986_g23622320128510_cont_sun_c4_816_3_alg».proof.Proof.LibInDimRow
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which entries of the arrays a point's blocks are

Point `t` is batch block `t / 8` at feature block `t % 8`. The gate block is rows `16·(t/8) …` of the gates; an activation block
is rows `512·(t/8) …` and columns `256·(24 + t%8) …` of the re-laid `[2048, 8192]` array; a weight block is columns `256·(t%8) …`
of a weight matrix; the stacked biases are one block; the output block is batch elements `16·(t/8) …`. -/

theorem idx_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_2 : ∀ t : Fin cfg0.N, win0_2.index t (0 : Fin 2) = t.val / 8 ∧ win0_2.index t (1 : Fin 2) = 24 + t.val % 8 :=
  (by decide +kernel : ∀ t : Fin grid0.N, win0_2.index t (0 : Fin 2) = t.val / 8 ∧ win0_2.index t (1 : Fin 2) = 24 + t.val % 8)
theorem idx_3 : ∀ t : Fin cfg0.N, win0_3.index t (0 : Fin 2) = t.val / 8 ∧ win0_3.index t (1 : Fin 2) = 24 + t.val % 8 :=
  (by decide +kernel : ∀ t : Fin grid0.N, win0_3.index t (0 : Fin 2) = t.val / 8 ∧ win0_3.index t (1 : Fin 2) = 24 + t.val % 8)
theorem idx_4 : ∀ t : Fin cfg0.N, win0_4.index t (0 : Fin 2) = t.val / 8 ∧ win0_4.index t (1 : Fin 2) = 24 + t.val % 8 :=
  (by decide +kernel : ∀ t : Fin grid0.N, win0_4.index t (0 : Fin 2) = t.val / 8 ∧ win0_4.index t (1 : Fin 2) = 24 + t.val % 8)
theorem idx_5 : ∀ t : Fin cfg0.N, win0_5.index t (0 : Fin 2) = t.val / 8 ∧ win0_5.index t (1 : Fin 2) = 24 + t.val % 8 :=
  (by decide +kernel : ∀ t : Fin grid0.N, win0_5.index t (0 : Fin 2) = t.val / 8 ∧ win0_5.index t (1 : Fin 2) = 24 + t.val % 8)
theorem idx_6 : ∀ t : Fin cfg0.N, win0_6.index t (0 : Fin 2) = t.val / 8 ∧ win0_6.index t (1 : Fin 2) = 24 + t.val % 8 :=
  (by decide +kernel : ∀ t : Fin grid0.N, win0_6.index t (0 : Fin 2) = t.val / 8 ∧ win0_6.index t (1 : Fin 2) = 24 + t.val % 8)
theorem idx_7 : ∀ t : Fin cfg0.N, win0_7.index t (0 : Fin 2) = t.val / 8 ∧ win0_7.index t (1 : Fin 2) = 24 + t.val % 8 :=
  (by decide +kernel : ∀ t : Fin grid0.N, win0_7.index t (0 : Fin 2) = t.val / 8 ∧ win0_7.index t (1 : Fin 2) = 24 + t.val % 8)
theorem idx_8 : ∀ t : Fin cfg0.N, win0_8.index t (0 : Fin 2) = t.val / 8 ∧ win0_8.index t (1 : Fin 2) = 24 + t.val % 8 :=
  (by decide +kernel : ∀ t : Fin grid0.N, win0_8.index t (0 : Fin 2) = t.val / 8 ∧ win0_8.index t (1 : Fin 2) = 24 + t.val % 8)
theorem idx_9 : ∀ t : Fin cfg0.N, win0_9.index t (0 : Fin 2) = t.val / 8 ∧ win0_9.index t (1 : Fin 2) = 24 + t.val % 8 :=
  (by decide +kernel : ∀ t : Fin grid0.N, win0_9.index t (0 : Fin 2) = t.val / 8 ∧ win0_9.index t (1 : Fin 2) = 24 + t.val % 8)
theorem idx_10 : ∀ t : Fin cfg0.N, win0_10.index t (0 : Fin 2) = 0 ∧ win0_10.index t (1 : Fin 2) = t.val % 8 :=
  (by decide +kernel : ∀ t : Fin grid0.N, win0_10.index t (0 : Fin 2) = 0 ∧ win0_10.index t (1 : Fin 2) = t.val % 8)
theorem idx_11 : ∀ t : Fin cfg0.N, win0_11.index t (0 : Fin 2) = 0 ∧ win0_11.index t (1 : Fin 2) = t.val % 8 :=
  (by decide +kernel : ∀ t : Fin grid0.N, win0_11.index t (0 : Fin 2) = 0 ∧ win0_11.index t (1 : Fin 2) = t.val % 8)
theorem idx_12 : ∀ t : Fin cfg0.N, win0_12.index t (0 : Fin 2) = 0 ∧ win0_12.index t (1 : Fin 2) = t.val % 8 :=
  (by decide +kernel : ∀ t : Fin grid0.N, win0_12.index t (0 : Fin 2) = 0 ∧ win0_12.index t (1 : Fin 2) = t.val % 8)
theorem idx_13 : ∀ t : Fin cfg0.N, win0_13.index t (0 : Fin 2) = 0 ∧ win0_13.index t (1 : Fin 2) = t.val % 8 :=
  (by decide +kernel : ∀ t : Fin grid0.N, win0_13.index t (0 : Fin 2) = 0 ∧ win0_13.index t (1 : Fin 2) = t.val % 8)
theorem idx_14 : ∀ t : Fin cfg0.N, win0_14.index t (0 : Fin 2) = 0 ∧ win0_14.index t (1 : Fin 2) = t.val % 8 :=
  (by decide +kernel : ∀ t : Fin grid0.N, win0_14.index t (0 : Fin 2) = 0 ∧ win0_14.index t (1 : Fin 2) = t.val % 8)
theorem idx_15 : ∀ t : Fin cfg0.N, win0_15.index t (0 : Fin 2) = 0 ∧ win0_15.index t (1 : Fin 2) = t.val % 8 :=
  (by decide +kernel : ∀ t : Fin grid0.N, win0_15.index t (0 : Fin 2) = 0 ∧ win0_15.index t (1 : Fin 2) = t.val % 8)
theorem idx_16 : ∀ t : Fin cfg0.N, win0_16.index t (0 : Fin 2) = 0 ∧ win0_16.index t (1 : Fin 2) = t.val % 8 :=
  (by decide +kernel : ∀ t : Fin grid0.N, win0_16.index t (0 : Fin 2) = 0 ∧ win0_16.index t (1 : Fin 2) = t.val % 8)
theorem idx_17 : ∀ t : Fin cfg0.N, win0_17.index t (0 : Fin 2) = 0 ∧ win0_17.index t (1 : Fin 2) = t.val % 8 :=
  (by decide +kernel : ∀ t : Fin grid0.N, win0_17.index t (0 : Fin 2) = 0 ∧ win0_17.index t (1 : Fin 2) = t.val % 8)
theorem idx_18 : ∀ t : Fin cfg0.N, win0_18.index t (0 : Fin 3) = t.val / 8 ∧ win0_18.index t (1 : Fin 3) = 0 ∧ win0_18.index t (2 : Fin 3) = 0 :=
  (by decide +kernel : ∀ t : Fin grid0.N, win0_18.index t (0 : Fin 3) = t.val / 8 ∧ win0_18.index t (1 : Fin 3) = 0 ∧ win0_18.index t (2 : Fin 3) = 0)

/-- The gate block. -/
theorem blk0_apply (c : Dev nD) (t : Fin cfg0.N) (p : Fin 16) (i : Fin 8) (b : Fin 64) (hb : b.val = 16 * (t.val / 8) + p.val) :
    iblk m c 0 t (ix2 p i) = m ((c : Thread nD τ).loc main_arg8) (ix2 b i) := by
  obtain ⟨e0, e1⟩ := idx_0 t
  rw [← V_main_arg8 m c]
  show V m c main_arg8 (((cfg0.win 0).blk t).view.emb (ix2 p i)) = V m c main_arg8 (ix2 b i)
  refine congrArg _ (funext fun a => Fin.ext ?_)
  match a with
  | ⟨0, _⟩ => show win0_0.index t (0 : Fin 2) * 16 + 1 * p.val = b.val; omega
  | ⟨1, _⟩ => show win0_0.index t (1 : Fin 2) * 8 + 1 * i.val = i.val; omega

/-- The stacked biases: one block, the whole matrix. -/
theorem blk1_apply (c : Dev nD) (t : Fin cfg0.N) (i : Fin 8) (f : Fin 720) :
    iblk m c 1 t (ix2 i f) = V m c main_v16 (ix2 i f) := by
  obtain ⟨e0, e1⟩ := idx_1 t
  show V m c main_v16 (((cfg0.win 1).blk t).view.emb (ix2 i f)) = V m c main_v16 (ix2 i f)
  refine congrArg _ (funext fun a => Fin.ext ?_)
  match a with
  | ⟨0, _⟩ => show win0_1.index t (0 : Fin 2) * 8 + 1 * i.val = i.val; omega
  | ⟨1, _⟩ => show win0_1.index t (1 : Fin 2) * 720 + 1 * f.val = f.val; omega

/-! The activation blocks. -/
theorem blk2_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 2 t (ix2 row d) = V m c main_v0 (ix2 R C) := by
  obtain ⟨e0, e1⟩ := idx_2 t
  show V m c main_v0 (((cfg0.win 2).blk t).view.emb (ix2 row d)) = V m c main_v0 (ix2 R C)
  refine congrArg _ (funext fun a => Fin.ext ?_)
  match a with
  | ⟨0, _⟩ => show win0_2.index t (0 : Fin 2) * 512 + 1 * row.val = R.val; omega
  | ⟨1, _⟩ => show win0_2.index t (1 : Fin 2) * 256 + 1 * d.val = C.val; omega
theorem blk3_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 3 t (ix2 row d) = V m c main_v1 (ix2 R C) := by
  obtain ⟨e0, e1⟩ := idx_3 t
  show V m c main_v1 (((cfg0.win 3).blk t).view.emb (ix2 row d)) = V m c main_v1 (ix2 R C)
  refine congrArg _ (funext fun a => Fin.ext ?_)
  match a with
  | ⟨0, _⟩ => show win0_3.index t (0 : Fin 2) * 512 + 1 * row.val = R.val; omega
  | ⟨1, _⟩ => show win0_3.index t (1 : Fin 2) * 256 + 1 * d.val = C.val; omega
theorem blk4_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 4 t (ix2 row d) = V m c main_v2 (ix2 R C) := by
  obtain ⟨e0, e1⟩ := idx_4 t
  show V m c main_v2 (((cfg0.win 4).blk t).view.emb (ix2 row d)) = V m c main_v2 (ix2 R C)
  refine congrArg _ (funext fun a => Fin.ext ?_)
  match a with
  | ⟨0, _⟩ => show win0_4.index t (0 : Fin 2) * 512 + 1 * row.val = R.val; omega
  | ⟨1, _⟩ => show win0_4.index t (1 : Fin 2) * 256 + 1 * d.val = C.val; omega
theorem blk5_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 5 t (ix2 row d) = V m c main_v3 (ix2 R C) := by
  obtain ⟨e0, e1⟩ := idx_5 t
  show V m c main_v3 (((cfg0.win 5).blk t).view.emb (ix2 row d)) = V m c main_v3 (ix2 R C)
  refine congrArg _ (funext fun a => Fin.ext ?_)
  match a with
  | ⟨0, _⟩ => show win0_5.index t (0 : Fin 2) * 512 + 1 * row.val = R.val; omega
  | ⟨1, _⟩ => show win0_5.index t (1 : Fin 2) * 256 + 1 * d.val = C.val; omega
theorem blk6_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 6 t (ix2 row d) = V m c main_v4 (ix2 R C) := by
  obtain ⟨e0, e1⟩ := idx_6 t
  show V m c main_v4 (((cfg0.win 6).blk t).view.emb (ix2 row d)) = V m c main_v4 (ix2 R C)
  refine congrArg _ (funext fun a => Fin.ext ?_)
  match a with
  | ⟨0, _⟩ => show win0_6.index t (0 : Fin 2) * 512 + 1 * row.val = R.val; omega
  | ⟨1, _⟩ => show win0_6.index t (1 : Fin 2) * 256 + 1 * d.val = C.val; omega
theorem blk7_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 7 t (ix2 row d) = V m c main_v5 (ix2 R C) := by
  obtain ⟨e0, e1⟩ := idx_7 t
  show V m c main_v5 (((cfg0.win 7).blk t).view.emb (ix2 row d)) = V m c main_v5 (ix2 R C)
  refine congrArg _ (funext fun a => Fin.ext ?_)
  match a with
  | ⟨0, _⟩ => show win0_7.index t (0 : Fin 2) * 512 + 1 * row.val = R.val; omega
  | ⟨1, _⟩ => show win0_7.index t (1 : Fin 2) * 256 + 1 * d.val = C.val; omega
theorem blk8_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 8 t (ix2 row d) = V m c main_v6 (ix2 R C) := by
  obtain ⟨e0, e1⟩ := idx_8 t
  show V m c main_v6 (((cfg0.win 8).blk t).view.emb (ix2 row d)) = V m c main_v6 (ix2 R C)
  refine congrArg _ (funext fun a => Fin.ext ?_)
  match a with
  | ⟨0, _⟩ => show win0_8.index t (0 : Fin 2) * 512 + 1 * row.val = R.val; omega
  | ⟨1, _⟩ => show win0_8.index t (1 : Fin 2) * 256 + 1 * d.val = C.val; omega
theorem blk9_apply (c : Dev nD) (t : Fin cfg0.N) (row : Fin 512) (d : Fin 256) (R : Fin 2048) (C : Fin 8192)
    (hR : R.val = 512 * (t.val / 8) + row.val) (hC : C.val = 256 * (24 + t.val % 8) + d.val) :
    iblk m c 9 t (ix2 row d) = V m c main_v7 (ix2 R C) := by
  obtain ⟨e0, e1⟩ := idx_9 t
  show V m c main_v7 (((cfg0.win 9).blk t).view.emb (ix2 row d)) = V m c main_v7 (ix2 R C)
  refine congrArg _ (funext fun a => Fin.ext ?_)
  match a with
  | ⟨0, _⟩ => show win0_9.index t (0 : Fin 2) * 512 + 1 * row.val = R.val; omega
  | ⟨1, _⟩ => show win0_9.index t (1 : Fin 2) * 256 + 1 * d.val = C.val; omega

/-! The weight blocks. -/
theorem blk10_apply (c : Dev nD) (t : Fin cfg0.N) (f : Fin 720) (d : Fin 256) (D : Fin 2048)
    (hD : D.val = 256 * (t.val % 8) + d.val) :
    iblk m c 10 t (ix2 f d) = m ((c : Thread nD τ).loc main_arg9) (ix2 f D) := by
  obtain ⟨e0, e1⟩ := idx_10 t
  rw [← V_main_arg9 m c]
  show V m c main_arg9 (((cfg0.win 10).blk t).view.emb (ix2 f d)) = V m c main_arg9 (ix2 f D)
  refine congrArg _ (funext fun a => Fin.ext ?_)
  match a with
  | ⟨0, _⟩ => show win0_10.index t (0 : Fin 2) * 720 + 1 * f.val = f.val; omega
  | ⟨1, _⟩ => show win0_10.index t (1 : Fin 2) * 256 + 1 * d.val = D.val; omega
theorem blk11_apply (c : Dev nD) (t : Fin cfg0.N) (f : Fin 720) (d : Fin 256) (D : Fin 2048)
    (hD : D.val = 256 * (t.val % 8) + d.val) :
    iblk m c 11 t (ix2 f d) = m ((c : Thread nD τ).loc main_arg10) (ix2 f D) := by
  obtain ⟨e0, e1⟩ := idx_11 t
  rw [← V_main_arg10 m c]
  show V m c main_arg10 (((cfg0.win 11).blk t).view.emb (ix2 f d)) = V m c main_arg10 (ix2 f D)
  refine congrArg _ (funext fun a => Fin.ext ?_)
  match a with
  | ⟨0, _⟩ => show win0_11.index t (0 : Fin 2) * 720 + 1 * f.val = f.val; omega
  | ⟨1, _⟩ => show win0_11.index t (1 : Fin 2) * 256 + 1 * d.val = D.val; omega
theorem blk12_apply (c : Dev nD) (t : Fin cfg0.N) (f : Fin 720) (d : Fin 256) (D : Fin 2048)
    (hD : D.val = 256 * (t.val % 8) + d.val) :
    iblk m c 12 t (ix2 f d) = m ((c : Thread nD τ).loc main_arg11) (ix2 f D) := by
  obtain ⟨e0, e1⟩ := idx_12 t
  rw [← V_main_arg11 m c]
  show V m c main_arg11 (((cfg0.win 12).blk t).view.emb (ix2 f d)) = V m c main_arg11 (ix2 f D)
  refine congrArg _ (funext fun a => Fin.ext ?_)
  match a with
  | ⟨0, _⟩ => show win0_12.index t (0 : Fin 2) * 720 + 1 * f.val = f.val; omega
  | ⟨1, _⟩ => show win0_12.index t (1 : Fin 2) * 256 + 1 * d.val = D.val; omega
theorem blk13_apply (c : Dev nD) (t : Fin cfg0.N) (f : Fin 720) (d : Fin 256) (D : Fin 2048)
    (hD : D.val = 256 * (t.val % 8) + d.val) :
    iblk m c 13 t (ix2 f d) = m ((c : Thread nD τ).loc main_arg12) (ix2 f D) := by
  obtain ⟨e0, e1⟩ := idx_13 t
  rw [← V_main_arg12 m c]
  show V m c main_arg12 (((cfg0.win 13).blk t).view.emb (ix2 f d)) = V m c main_arg12 (ix2 f D)
  refine congrArg _ (funext fun a => Fin.ext ?_)
  match a with
  | ⟨0, _⟩ => show win0_13.index t (0 : Fin 2) * 720 + 1 * f.val = f.val; omega
  | ⟨1, _⟩ => show win0_13.index t (1 : Fin 2) * 256 + 1 * d.val = D.val; omega
theorem blk14_apply (c : Dev nD) (t : Fin cfg0.N) (f : Fin 720) (d : Fin 256) (D : Fin 2048)
    (hD : D.val = 256 * (t.val % 8) + d.val) :
    iblk m c 14 t (ix2 f d) = m ((c : Thread nD τ).loc main_arg13) (ix2 f D) := by
  obtain ⟨e0, e1⟩ := idx_14 t
  rw [← V_main_arg13 m c]
  show V m c main_arg13 (((cfg0.win 14).blk t).view.emb (ix2 f d)) = V m c main_arg13 (ix2 f D)
  refine congrArg _ (funext fun a => Fin.ext ?_)
  match a with
  | ⟨0, _⟩ => show win0_14.index t (0 : Fin 2) * 720 + 1 * f.val = f.val; omega
  | ⟨1, _⟩ => show win0_14.index t (1 : Fin 2) * 256 + 1 * d.val = D.val; omega
theorem blk15_apply (c : Dev nD) (t : Fin cfg0.N) (f : Fin 720) (d : Fin 256) (D : Fin 2048)
    (hD : D.val = 256 * (t.val % 8) + d.val) :
    iblk m c 15 t (ix2 f d) = m ((c : Thread nD τ).loc main_arg14) (ix2 f D) := by
  obtain ⟨e0, e1⟩ := idx_15 t
  rw [← V_main_arg14 m c]
  show V m c main_arg14 (((cfg0.win 15).blk t).view.emb (ix2 f d)) = V m c main_arg14 (ix2 f D)
  refine congrArg _ (funext fun a => Fin.ext ?_)
  match a with
  | ⟨0, _⟩ => show win0_15.index t (0 : Fin 2) * 720 + 1 * f.val = f.val; omega
  | ⟨1, _⟩ => show win0_15.index t (1 : Fin 2) * 256 + 1 * d.val = D.val; omega
theorem blk16_apply (c : Dev nD) (t : Fin cfg0.N) (f : Fin 720) (d : Fin 256) (D : Fin 2048)
    (hD : D.val = 256 * (t.val % 8) + d.val) :
    iblk m c 16 t (ix2 f d) = m ((c : Thread nD τ).loc main_arg15) (ix2 f D) := by
  obtain ⟨e0, e1⟩ := idx_16 t
  rw [← V_main_arg15 m c]
  show V m c main_arg15 (((cfg0.win 16).blk t).view.emb (ix2 f d)) = V m c main_arg15 (ix2 f D)
  refine congrArg _ (funext fun a => Fin.ext ?_)
  match a with
  | ⟨0, _⟩ => show win0_16.index t (0 : Fin 2) * 720 + 1 * f.val = f.val; omega
  | ⟨1, _⟩ => show win0_16.index t (1 : Fin 2) * 256 + 1 * d.val = D.val; omega
theorem blk17_apply (c : Dev nD) (t : Fin cfg0.N) (f : Fin 720) (d : Fin 256) (D : Fin 2048)
    (hD : D.val = 256 * (t.val % 8) + d.val) :
    iblk m c 17 t (ix2 f d) = m ((c : Thread nD τ).loc main_arg16) (ix2 f D) := by
  obtain ⟨e0, e1⟩ := idx_17 t
  rw [← V_main_arg16 m c]
  show V m c main_arg16 (((cfg0.win 17).blk t).view.emb (ix2 f d)) = V m c main_arg16 (ix2 f D)
  refine congrArg _ (funext fun a => Fin.ext ?_)
  match a with
  | ⟨0, _⟩ => show win0_17.index t (0 : Fin 2) * 720 + 1 * f.val = f.val; omega
  | ⟨1, _⟩ => show win0_17.index t (1 : Fin 2) * 256 + 1 * d.val = D.val; omega

/-! ## The host operations' results, read at an index -/

/-! An activation array re-laid as `[2048, 8192]`: row `32·b + q`, column `2048·l + d` is entry `(b, q, l, d)`. -/
theorem V_act0_apply (c : Dev nD) (R : Fin 2048) (C : Fin 8192) (b : Fin 64) (q : Fin 32) (l : Fin 4) (d : Fin 2048)
    (hR : R.val = b.val * 32 + q.val) (hC : C.val = l.val * 2048 + d.val) :
    V m c main_v0 (ix2 R C) = m ((c : Thread nD τ).loc main_arg0) (ix4 b q l d) := by
  have e : (V m c main_v0 : S2048x8192.Idx → Elt F .f32)
      = shapeCast S2048x8192 (m ((c : Thread nD τ).loc main_arg0)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act1_apply (c : Dev nD) (R : Fin 2048) (C : Fin 8192) (b : Fin 64) (q : Fin 32) (l : Fin 4) (d : Fin 2048)
    (hR : R.val = b.val * 32 + q.val) (hC : C.val = l.val * 2048 + d.val) :
    V m c main_v1 (ix2 R C) = m ((c : Thread nD τ).loc main_arg1) (ix4 b q l d) := by
  have e : (V m c main_v1 : S2048x8192.Idx → Elt F .f32)
      = shapeCast S2048x8192 (m ((c : Thread nD τ).loc main_arg1)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act2_apply (c : Dev nD) (R : Fin 2048) (C : Fin 8192) (b : Fin 64) (q : Fin 32) (l : Fin 4) (d : Fin 2048)
    (hR : R.val = b.val * 32 + q.val) (hC : C.val = l.val * 2048 + d.val) :
    V m c main_v2 (ix2 R C) = m ((c : Thread nD τ).loc main_arg2) (ix4 b q l d) := by
  have e : (V m c main_v2 : S2048x8192.Idx → Elt F .f32)
      = shapeCast S2048x8192 (m ((c : Thread nD τ).loc main_arg2)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act3_apply (c : Dev nD) (R : Fin 2048) (C : Fin 8192) (b : Fin 64) (q : Fin 32) (l : Fin 4) (d : Fin 2048)
    (hR : R.val = b.val * 32 + q.val) (hC : C.val = l.val * 2048 + d.val) :
    V m c main_v3 (ix2 R C) = m ((c : Thread nD τ).loc main_arg3) (ix4 b q l d) := by
  have e : (V m c main_v3 : S2048x8192.Idx → Elt F .f32)
      = shapeCast S2048x8192 (m ((c : Thread nD τ).loc main_arg3)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act4_apply (c : Dev nD) (R : Fin 2048) (C : Fin 8192) (b : Fin 64) (q : Fin 32) (l : Fin 4) (d : Fin 2048)
    (hR : R.val = b.val * 32 + q.val) (hC : C.val = l.val * 2048 + d.val) :
    V m c main_v4 (ix2 R C) = m ((c : Thread nD τ).loc main_arg4) (ix4 b q l d) := by
  have e : (V m c main_v4 : S2048x8192.Idx → Elt F .f32)
      = shapeCast S2048x8192 (m ((c : Thread nD τ).loc main_arg4)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act5_apply (c : Dev nD) (R : Fin 2048) (C : Fin 8192) (b : Fin 64) (q : Fin 32) (l : Fin 4) (d : Fin 2048)
    (hR : R.val = b.val * 32 + q.val) (hC : C.val = l.val * 2048 + d.val) :
    V m c main_v5 (ix2 R C) = m ((c : Thread nD τ).loc main_arg5) (ix4 b q l d) := by
  have e : (V m c main_v5 : S2048x8192.Idx → Elt F .f32)
      = shapeCast S2048x8192 (m ((c : Thread nD τ).loc main_arg5)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act6_apply (c : Dev nD) (R : Fin 2048) (C : Fin 8192) (b : Fin 64) (q : Fin 32) (l : Fin 4) (d : Fin 2048)
    (hR : R.val = b.val * 32 + q.val) (hC : C.val = l.val * 2048 + d.val) :
    V m c main_v6 (ix2 R C) = m ((c : Thread nD τ).loc main_arg6) (ix4 b q l d) := by
  have e : (V m c main_v6 : S2048x8192.Idx → Elt F .f32)
      = shapeCast S2048x8192 (m ((c : Thread nD τ).loc main_arg6)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)
theorem V_act7_apply (c : Dev nD) (R : Fin 2048) (C : Fin 8192) (b : Fin 64) (q : Fin 32) (l : Fin 4) (d : Fin 2048)
    (hR : R.val = b.val * 32 + q.val) (hC : C.val = l.val * 2048 + d.val) :
    V m c main_v7 (ix2 R C) = m ((c : Thread nD τ).loc main_arg7) (ix4 b q l d) := by
  have e : (V m c main_v7 : S2048x8192.Idx → Elt F .f32)
      = shapeCast S2048x8192 (m ((c : Thread nD τ).loc main_arg7)) shapeCasts_S64x32x4x2048_S2048x8192 := by
    dsimp only [V, hostOps0]; after_results; rfl
  rw [e]
  exact shapeCast_apply _ _ (ix2 R C) (ix4 b q l d) (by
    rw [Shape.rowMajor_val_four, Shape.rowMajor_val_two]
    show ((b.val * 32 + q.val) * 4 + l.val) * 2048 + d.val = R.val * 8192 + C.val
    omega)

set_option maxHeartbeats 1000000 in
/-- Eight `[1, 720]` rows stacked into `[8, 720]`: row `i` of the stack is row `i` of the list. -/
theorem stack8_apply {α : Type} (r0 r1 r2 r3 r4 r5 r6 r7 : S1x720.Idx → α)
    (h : Shape.Concatenates (([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))).map (·.1)) S8x720 (0 : Fin 2)) (i : Fin 8) (f : Fin 720) :
    concatenate S8x720 (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 i f)
      = (match i with | 0 => r0 | 1 => r1 | 2 => r2 | 3 => r3 | 4 => r4 | 5 => r5 | 6 => r6 | 7 => r7 : S1x720.Idx → α) (ix2 (0 : Fin 1) f) := by
  fin_cases i
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (0 : Fin 8) f) 0 (by show (0 : ℕ) < 8; omega) S1x720 r0 rfl rfl 0 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (1 : Fin 8) f) 1 (by show (1 : ℕ) < 8; omega) S1x720 r1 rfl rfl 1 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (2 : Fin 8) f) 2 (by show (2 : ℕ) < 8; omega) S1x720 r2 rfl rfl 2 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (3 : Fin 8) f) 3 (by show (3 : ℕ) < 8; omega) S1x720 r3 rfl rfl 3 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (4 : Fin 8) f) 4 (by show (4 : ℕ) < 8; omega) S1x720 r4 rfl rfl 4 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (5 : Fin 8) f) 5 (by show (5 : ℕ) < 8; omega) S1x720 r5 rfl rfl 5 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (6 : Fin 8) f) 6 (by show (6 : ℕ) < 8; omega) S1x720 r6 rfl rfl 6 (by simp) (ix2 (0 : Fin 1) f)
      (fun b hb => by match b with | ⟨0, _⟩ => exact absurd rfl hb | ⟨1, _⟩ => rfl) rfl
  · exact concatenate_apply_piece (0 : Fin 2) ([⟨S1x720, r0⟩, ⟨S1x720, r1⟩, ⟨S1x720, r2⟩, ⟨S1x720, r3⟩, ⟨S1x720, r4⟩, ⟨S1x720, r5⟩, ⟨S1x720, r6⟩, ⟨S1x720, r7⟩] : List ((s : Shape) × (s.Idx → α))) h (ix2 (7 : Fin 8) f) 7 (by show (7 : ℕ) < 8; omega) S1x720 r7 rfl rfl 7 (by simp) (ix2 (0 : Fin 1) f)
      (fun b hb => by match b with | ⟨0, _⟩ => exact absurd rfl hb | ⟨1, _⟩ => rfl) rfl

/-- The stacked biases: row `i` is bias vector `i`. -/
theorem V_bias_apply (c : Dev nD) (i : Fin 8) (f : Fin 720) :
    V m c main_v16 (ix2 i f)
      = (match i with
          | 0 => m ((c : Thread nD τ).loc main_arg17) | 1 => m ((c : Thread nD τ).loc main_arg18) | 2 => m ((c : Thread nD τ).loc main_arg19) | 3 => m ((c : Thread nD τ).loc main_arg20)
          | 4 => m ((c : Thread nD τ).loc main_arg21) | 5 => m ((c : Thread nD τ).loc main_arg22) | 6 => m ((c : Thread nD τ).loc main_arg23) | 7 => m ((c : Thread nD τ).loc main_arg24) : S720.Idx → Elt F .f32) (ix1 f) := by
  have e : (V m c main_v16 : S8x720.Idx → Elt F .f32)
      = concatenate S8x720 0 [⟨S1x720, broadcastInDim S1x720 ![1] bcast_S720_S1x720_1 (m ((c : Thread nD τ).loc main_arg17))⟩, ⟨S1x720, broadcastInDim S1x720 ![1] bcast_S720_S1x720_1 (m ((c : Thread nD τ).loc main_arg18))⟩, ⟨S1x720, broadcastInDim S1x720 ![1] bcast_S720_S1x720_1 (m ((c : Thread nD τ).loc main_arg19))⟩, ⟨S1x720, broadcastInDim S1x720 ![1] bcast_S720_S1x720_1 (m ((c : Thread nD τ).loc main_arg20))⟩, ⟨S1x720, broadcastInDim S1x720 ![1] bcast_S720_S1x720_1 (m ((c : Thread nD τ).loc main_arg21))⟩, ⟨S1x720, broadcastInDim S1x720 ![1] bcast_S720_S1x720_1 (m ((c : Thread nD τ).loc main_arg22))⟩, ⟨S1x720, broadcastInDim S1x720 ![1] bcast_S720_S1x720_1 (m ((c : Thread nD τ).loc main_arg23))⟩, ⟨S1x720, broadcastInDim S1x720 ![1] bcast_S720_S1x720_1 (m ((c : Thread nD τ).loc main_arg24))⟩] concatenates_S1x720_S1x720_S1x720_S1x720_S1x720_S1x720_S1x720_S1x720_S8x720_d0 := by
    dsimp only [V, hostOps0]; after_results; rfl
  rw [e, stack8_apply]
  fin_cases i <;> exact Cert.LibInDimRow.inDim_b_1b_apply _ _ 0 f

end Cert.KernelIdeal.Fr

end
-- ==== Proof.HeadSpec.lean ====
/-
  What the prediction head computes, as two arrangements of one sum.

  Eight experts. Expert `i` has activations `x_i[b, c, l, d]` (64 x 32 x 4 x 2048), a weight matrix `W_i[p, d]` (720 x 2048)
  and a bias `β_i[p]`; `γ[b, i]` (64 x 8) are the gates. Only the last position `l = 3` is used. The result is
  `out[b, p, c]` (64 x 720 x 32).

  * BLOCKWISE (how the kernel works): the feature axis `d = 256·k + col` is cut in eight blocks `k`; within a block every
    expert's activations are first scaled by the gate's positive part `max γ 0` and then contracted against the weights;
    the gate-weighted bias `Σ_i max γ 0 · β_i` and the constant are added at the end.
  * EXPERTWISE (how the reference works): each expert's full inner product plus its bias is formed first and then scaled by the
    gate where it is positive (`if 0 < γ then γ else 0`); the eight are summed and the constant added.

  On the extended reals the two agree when every entry is a real number: the law is distributivity of a real factor over
  a finite sum of reals, `max γ 0 = if 0 < γ then γ else 0`, and re-indexing `d ↔ (k, col)`.
-/
import Idealize.ShloMosaic.PureOps.Ideal
import Idealize.ShloMosaic.Lib.ValueIdx

noncomputable section

open scoped BigOperators

namespace Cert.HeadSpec

open Idealize.ShloMosaic Idealize.ShloMosaic.ValueIdx

/-- Activations `[batch, channel, position, feature]`. -/
abbrev SAct : Shape := ⟨4, ![64, 32, 4, 2048]⟩
/-- Gates `[batch, expert]`. -/
abbrev SGate : Shape := ⟨2, ![64, 8]⟩
/-- A weight matrix `[prediction, feature]`. -/
abbrev SWt : Shape := ⟨2, ![720, 2048]⟩
/-- A bias `[prediction]`. -/
abbrev SBias : Shape := ⟨1, ![720]⟩
/-- The result `[batch, prediction, channel]`. -/
abbrev SOut : Shape := ⟨3, ![64, 720, 32]⟩

/-- The additive constant: the real the f32 word nearest 1e-9 denotes (the same word in both programs, never evaluated). -/
def eps : EReal := Ideal.ofBits .f32 0x3089705F#32

/-- Feature `256·k + col` of feature block `k`. -/
def feat (k : Fin 8) (col : Fin 256) : Fin 2048 := ⟨256 * k.val + col.val, by have := k.isLt; have := col.isLt; omega⟩

/-- Every entry of the array is a real number (neither infinity). -/
def AllReal {S : Shape} (x : S.Idx → EReal) : Prop := ∀ j, ∃ r : ℝ, x j = (r : EReal)

variable (xs : Fin 8 → SAct.Idx → EReal) (gates : SGate.Idx → EReal) (ws : Fin 8 → SWt.Idx → EReal) (bs : Fin 8 → SBias.Idx → EReal)

/-- The blockwise arrangement at `(b, p, c)`. -/
def blockwiseAt (b : Fin 64) (p : Fin 720) (c : Fin 32) : EReal :=
  ((∑ k : Fin 8, ∑ i : Fin 8, ∑ col : Fin 256,
      (xs i (ix4 b c (3 : Fin 4) (feat k col)) * max (gates (ix2 b i)) 0) * ws i (ix2 p (feat k col)))
    + ∑ i : Fin 8, max (gates (ix2 b i)) 0 * bs i (ix1 p))
  + eps

/-- The expertwise arrangement at `(b, p, c)`. -/
def expertwiseAt (b : Fin 64) (p : Fin 720) (c : Fin 32) : EReal :=
  (∑ i : Fin 8, ((∑ d : Fin 2048, xs i (ix4 b c (3 : Fin 4) d) * ws i (ix2 p d)) + bs i (ix1 p))
      * (if 0 < gates (ix2 b i) then gates (ix2 b i) else 0))
  + eps

/-- The blockwise arrangement as an array. -/
def blockwise : SOut.Idx → EReal := fun j => blockwiseAt xs gates ws bs (j 0) (j 1) (j 2)
/-- The expertwise arrangement as an array. -/
def expertwise : SOut.Idx → EReal := fun j => expertwiseAt xs gates ws bs (j 0) (j 1) (j 2)

end Cert.HeadSpec

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.HeadBody.lean ====
/-
  One grid point's arithmetic, read entry by entry on the extended reals.

  At a point the body holds a `[16, 8]` block of gates, eight `[512, 256]` blocks of activations (row `32·p + q` is
  channel `q` of batch element `p` of the block) and eight `[720, 256]` blocks of weights. With `γ⁺ = max γ 0`:

  * the partial products of the point: at `(row, f)` the eight experts' terms `Σ_d (x_i(row, d) · γ⁺(p, i)) · w_i(f, d)`,
    added one after the other to zero;
  * the output block, from an accumulator `S`: at `(p, f, q)` it is `(S(32·p + q, f) + Σ_i γ⁺(p, i) · β(i, f)) + ε`.
-/
import proofs.«164986_g23622320128510_cont_sun_c4_816_3_alg».proof.Proof.Gen.KernelIdeal.Skeleton
import proofs.«164986_g23622320128510_cont_sun_c4_816_3_alg».proof.Proof.HeadSpec
import proofs.«164986_g23622320128510_cont_sun_c4_816_3_alg».proof.Proof.LibRowPairs
import proofs.«164986_g23622320128510_cont_sun_c4_816_3_alg».proof.Proof.LibRowDots
import proofs.«164986_g23622320128510_cont_sun_c4_816_3_alg».proof.Proof.LibUnitAxisLayout
import proofs.«164986_g23622320128510_cont_sun_c4_816_3_alg».proof.Proof.LibInnerProducts
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Idealize.ShloMosaic.RowPairs Idealize.ShloMosaic.UnitAxisLayout

/-- The positive part of the gate block at `(p, i)`. -/
theorem posGate_apply (x0 : Vec Ideal S16x8 .f32) (p : Fin 16) (i : Fin 8) :
    k0_pay5 x0 (ix2 p i) = max (x0 (ix2 p i)) 0 := by
  unfold k0_pay5
  show max (x0 (ix2 p i)) (Ideal.ofBits .f32 0x00000000#32) = _
  rw [Ideal.ofBits_zero_f32]

/-- Column `i` of a `[16, 8]` block, flattened and spread over `[16, 32, 256]`: at `(p, q, r)` it is the block's `(p, i)`. -/
theorem gate_column_apply (g : FVec Ideal S16x8 .f32) (o : ℕ) (hs : S16x8.Slices ![0, o] S16x1)
    (h1 : S16x1.ShapeCasts S16) (h2 : S16.ShapeCasts S16x1x1) (hb : S16x1x1.Broadcasts S16x32x256)
    (i : Fin 8) (hi : i.val = o) (p : Fin 16) (q : Fin 32) (r : Fin 256) :
    broadcastTo S16x32x256 (shapeCast S16x1x1 (shapeCast S16 (extractStridedSlice S16x1 ![0, o] g hs) h1) h2) hb (ix3 p q r)
      = g (ix2 p i) := by
  rw [broadcastTo_a11_abc_apply]
  rw [shapeCast_apply _ h2 (ix3 p (0 : Fin 1) (0 : Fin 1)) (ix1 p) (by
    rw [Shape.rowMajor_val_one, Shape.rowMajor_val_three]; show p.val = (p.val * 1 + 0) * 1 + 0; omega)]
  rw [shapeCast_apply _ h1 (ix1 p) (ix2 p (0 : Fin 1)) (by
    rw [Shape.rowMajor_val_two, Shape.rowMajor_val_one]; show p.val * 1 + 0 = p.val; omega)]
  exact extractStridedSlice_apply ![0, o] g hs (ix2 p (0 : Fin 1)) (ix2 p i) (fun a => match a with
    | ⟨0, _⟩ => by show p.val = 0 + p.val; omega
    | ⟨1, _⟩ => by show i.val = o + 0; omega)

/-- One expert's term of the point: its activation block scaled row-wise by a gate value and contracted against its
    weight block. -/
theorem expert_term_apply (xa : FVec Ideal S512x256 .f32) (wa : FVec Ideal S720x256 .f32) (G : FVec Ideal S16x32x256 .f32)
    (h0 : S512x256.ShapeCasts S512x256) (h1 : S512x256.ShapeCasts S16x32x256) (h2 : S16x32x256.ShapeCasts S512x256)
    (row : Fin 512) (f : Fin 720) (p : Fin 16) (q : Fin 32) (hrow : row.val = p.val * 32 + q.val)
    (γ : EReal) (hG : ∀ d : Fin 256, G (ix3 p q d) = γ) :
    matmul dot_S512x256_S720x256_S512x720_1_1_0_0_n_n none
        (shapeCast S512x256 (mulf (shapeCast S16x32x256 (shapeCast S512x256 xa h0) h1) G) h2) wa
        (constant (F := Ideal) S512x720 .f32 0x00000000#32) (ix2 row f)
      = ∑ d : Fin 256, (xa (ix2 row d) * γ) * wa (ix2 f d) := by
  rw [Cert.LibRowDots.matmul_rows dot_S512x256_S720x256_S512x720_1_1_0_0_n_n.wf dot_S512x256_S720x256_S512x720_1_1_0_0_n_n rfl]
  refine Finset.sum_congr rfl fun d _ => ?_
  rw [shapeCast_abc_nc_apply _ h2 p q d row hrow, mulf_apply, shapeCast_self, shapeCast_nc_abc_apply _ h1 p q d row hrow, hG]

/-- An expert's term of the point, as a number. -/
def term (xa : FVec Ideal S512x256 .f32) (wa : FVec Ideal S720x256 .f32) (γ : EReal) (row : Fin 512) (f : Fin 720) : EReal :=
  ∑ d : Fin 256, (xa (ix2 row d) * γ) * wa (ix2 f d)

/-- The point's partial products (the kernel's `acc`), as one value of the blocks the body loads. -/
def partials (x0 : Vec Ideal S16x8 .f32) (a0 a1 a2 a3 a4 a5 a6 a7 : Vec Ideal S512x256 .f32)
    (w0 w1 w2 w3 w4 w5 w6 w7 : Vec Ideal S720x256 .f32) : FVec Ideal S512x720 .f32 :=
  k0_pay1 (k0_pay5 x0) (k0_pay8 (k0_pay5 x0) (k0_pay6 x0 a0 w0 a1 w1) (k0_pay7 x0 a2 w2) a3 w3 a4 w4 a5 w5)
    (k0_pay9 a6) (k0_pay10 (k0_pay5 x0)) w6 a7 w7

/-- The point's partial products at `(row, f)`: the eight experts' terms added one after the other to zero. -/
theorem partials_apply (x0 : Vec Ideal S16x8 .f32) (a0 a1 a2 a3 a4 a5 a6 a7 : Vec Ideal S512x256 .f32)
    (w0 w1 w2 w3 w4 w5 w6 w7 : Vec Ideal S720x256 .f32)
    (row : Fin 512) (f : Fin 720) (p : Fin 16) (q : Fin 32) (hrow : row.val = p.val * 32 + q.val) :
    partials x0 a0 a1 a2 a3 a4 a5 a6 a7 w0 w1 w2 w3 w4 w5 w6 w7 (ix2 row f)
      = (((((((0 + term a0 w0 (max (x0 (ix2 p 0)) 0) row f) + term a1 w1 (max (x0 (ix2 p 1)) 0) row f)
          + term a2 w2 (max (x0 (ix2 p 2)) 0) row f) + term a3 w3 (max (x0 (ix2 p 3)) 0) row f)
          + term a4 w4 (max (x0 (ix2 p 4)) 0) row f) + term a5 w5 (max (x0 (ix2 p 5)) 0) row f)
          + term a6 w6 (max (x0 (ix2 p 6)) 0) row f) + term a7 w7 (max (x0 (ix2 p 7)) 0) row f := by
  unfold partials k0_pay1 k0_pay8 k0_pay6 k0_pay7 k0_pay9 k0_pay10 term
  simp only [addf_apply, broadcast_apply]
  rw [expert_term_apply a0 w0 _ _ _ _ row f p q hrow (max (x0 (ix2 p 0)) 0)
        (fun d => (gate_column_apply _ 0 _ _ _ _ 0 rfl p q d).trans (posGate_apply x0 p 0)),
      expert_term_apply a1 w1 _ _ _ _ row f p q hrow (max (x0 (ix2 p 1)) 0)
        (fun d => (gate_column_apply _ 1 _ _ _ _ 1 rfl p q d).trans (posGate_apply x0 p 1)),
      expert_term_apply a2 w2 _ _ _ _ row f p q hrow (max (x0 (ix2 p 2)) 0)
        (fun d => (gate_column_apply _ 2 _ _ _ _ 2 rfl p q d).trans (posGate_apply x0 p 2)),
      expert_term_apply a3 w3 _ _ _ _ row f p q hrow (max (x0 (ix2 p 3)) 0)
        (fun d => (gate_column_apply _ 3 _ _ _ _ 3 rfl p q d).trans (posGate_apply x0 p 3)),
      expert_term_apply a4 w4 _ _ _ _ row f p q hrow (max (x0 (ix2 p 4)) 0)
        (fun d => (gate_column_apply _ 4 _ _ _ _ 4 rfl p q d).trans (posGate_apply x0 p 4)),
      expert_term_apply a5 w5 _ _ _ _ row f p q hrow (max (x0 (ix2 p 5)) 0)
        (fun d => (gate_column_apply _ 5 _ _ _ _ 5 rfl p q d).trans (posGate_apply x0 p 5)),
      expert_term_apply a6 w6 _ _ _ _ row f p q hrow (max (x0 (ix2 p 6)) 0)
        (fun d => (gate_column_apply _ 6 _ _ _ _ 6 rfl p q d).trans (posGate_apply x0 p 6)),
      expert_term_apply a7 w7 _ _ _ _ row f p q hrow (max (x0 (ix2 p 7)) 0)
        (fun d => (gate_column_apply _ 7 _ _ _ _ 7 rfl p q d).trans (posGate_apply x0 p 7))]
  show (Ideal.ofBits .f32 0x00000000#32 + _ + _ + _ + _ + _ + _ + _ + _ : EReal) = _
  rw [Ideal.ofBits_zero_f32]

/-- The output block at `(p, f, q)`, from an accumulator `S`: the accumulator's entry for channel `q` of batch element `p`,
    plus the gate-weighted bias, plus the constant. -/
theorem output_apply (x0 : Vec Ideal S16x8 .f32) (bm : Vec Ideal S8x720 .f32) (S : Vec Ideal S512x720 .f32)
    (p : Fin 16) (f : Fin 720) (q : Fin 32) (row : Fin 512) (hrow : row.val = p.val * 32 + q.val) :
    k0_pay4 (k0_pay5 x0) bm S (ix3 p f q)
      = (S (ix2 row f) + ∑ i : Fin 8, max (x0 (ix2 p i)) 0 * bm (ix2 i f)) + Cert.HeadSpec.eps := by
  unfold k0_pay4
  rw [transpose_apply [0, 2, 1] _ _ (ix3 p f q) (ix3 p q f) (fun b => match b with
    | ⟨0, _⟩ => rfl
    | ⟨1, _⟩ => rfl
    | ⟨2, _⟩ => rfl)]
  simp only [addf_apply, broadcast_apply]
  rw [shapeCast_nc_abc_apply _ _ p q f row hrow, broadcastTo_a1c_abc_apply, shapeCast_ac_a1c_apply, shapeCast_self,
    Idealize.ShloMosaic.InnerProducts.matmul_zero_apply dot_S16x8_S8x720_S16x720_1_0_0_1_n_n rfl]
  simp only [posGate_apply]
  rfl

end Cert.KernelIdeal.Body

end
-- ==== Proof.KernelIdealValue.lean ====
import proofs.«164986_g23622320128510_cont_sun_c4_816_3_alg».proof.Proof.KernelIdealPieces
import proofs.«164986_g23622320128510_cont_sun_c4_816_3_alg».proof.Proof.KernelIdealBlocks
import proofs.«164986_g23622320128510_cont_sun_c4_816_3_alg».proof.Proof.HeadBody
import proofs.«164986_g23622320128510_cont_sun_c4_816_3_alg».proof.Proof.HeadSpec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.HeadSpec Cert.KernelIdeal
open scoped BigOperators

variable (m : (ℓ : Loc nD τ sig) → Buf (Elt Ideal) ℓ) (ρ : Dev nD → PrngReg)

/-! ## The kernel's result on the extended reals is the blockwise arrangement

The argument arrays as the specification takes them. -/

abbrev acts (c : Dev nD) : Fin 8 → SAct.Idx → EReal := ![m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)]
abbrev gts (c : Dev nD) : SGate.Idx → EReal := m ((c : Thread nD τ).loc main_arg8)
abbrev wts (c : Dev nD) : Fin 8 → SWt.Idx → EReal := ![m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16)]
abbrev bss (c : Dev nD) : Fin 8 → SBias.Idx → EReal := ![m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24)]

/-- The partial products of point `t`: the body's `acc` of the blocks the pipeline staged there. -/
def partialsAt (c : Dev nD) (t : Fin cfg0.N) : FVec Ideal S512x720 .f32 :=
  Body.partials (iblk m c 0 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t)

/-- Expert 0's term at point `t`, in the argument arrays' own coordinates. -/
theorem term0_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 2 t) (iblk m c 10 t) (max (iblk m c 0 t (ix2 p (0 : Fin 8))) 0) row f
      = ∑ col : Fin 256, (acts m c (0 : Fin 8) (ix4 b q (3 : Fin 4) (feat k col)) * max (gts m c (ix2 b (0 : Fin 8))) 0)
          * wts m c (0 : Fin 8) (ix2 f (feat k col)) := by
  unfold Body.term
  refine Finset.sum_congr rfl fun col _ => ?_
  have hN : t.val < 32 := lt_of_lt_of_eq t.isLt (show cfg0.N = 32 from N_0)
  rw [blk2_apply m c t row col ⟨512 * (t.val / 8) + row.val, by have := row.isLt; omega⟩ ⟨256 * (24 + t.val % 8) + col.val, by have := col.isLt; omega⟩ rfl rfl,
    V_act0_apply m c _ _ b q (3 : Fin 4) (feat k col) (by show 512 * (t.val / 8) + row.val = b.val * 32 + q.val; omega)
      (by show 256 * (24 + t.val % 8) + col.val = 3 * 2048 + (256 * k.val + col.val); omega),
    blk10_apply m c t f col (feat k col) (by show 256 * k.val + col.val = 256 * (t.val % 8) + col.val; omega),
    blk0_apply m c t p (0 : Fin 8) b hb]
  rfl

/-- Expert 1's term at point `t`, in the argument arrays' own coordinates. -/
theorem term1_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 3 t) (iblk m c 11 t) (max (iblk m c 0 t (ix2 p (1 : Fin 8))) 0) row f
      = ∑ col : Fin 256, (acts m c (1 : Fin 8) (ix4 b q (3 : Fin 4) (feat k col)) * max (gts m c (ix2 b (1 : Fin 8))) 0)
          * wts m c (1 : Fin 8) (ix2 f (feat k col)) := by
  unfold Body.term
  refine Finset.sum_congr rfl fun col _ => ?_
  have hN : t.val < 32 := lt_of_lt_of_eq t.isLt (show cfg0.N = 32 from N_0)
  rw [blk3_apply m c t row col ⟨512 * (t.val / 8) + row.val, by have := row.isLt; omega⟩ ⟨256 * (24 + t.val % 8) + col.val, by have := col.isLt; omega⟩ rfl rfl,
    V_act1_apply m c _ _ b q (3 : Fin 4) (feat k col) (by show 512 * (t.val / 8) + row.val = b.val * 32 + q.val; omega)
      (by show 256 * (24 + t.val % 8) + col.val = 3 * 2048 + (256 * k.val + col.val); omega),
    blk11_apply m c t f col (feat k col) (by show 256 * k.val + col.val = 256 * (t.val % 8) + col.val; omega),
    blk0_apply m c t p (1 : Fin 8) b hb]
  rfl

/-- Expert 2's term at point `t`, in the argument arrays' own coordinates. -/
theorem term2_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 4 t) (iblk m c 12 t) (max (iblk m c 0 t (ix2 p (2 : Fin 8))) 0) row f
      = ∑ col : Fin 256, (acts m c (2 : Fin 8) (ix4 b q (3 : Fin 4) (feat k col)) * max (gts m c (ix2 b (2 : Fin 8))) 0)
          * wts m c (2 : Fin 8) (ix2 f (feat k col)) := by
  unfold Body.term
  refine Finset.sum_congr rfl fun col _ => ?_
  have hN : t.val < 32 := lt_of_lt_of_eq t.isLt (show cfg0.N = 32 from N_0)
  rw [blk4_apply m c t row col ⟨512 * (t.val / 8) + row.val, by have := row.isLt; omega⟩ ⟨256 * (24 + t.val % 8) + col.val, by have := col.isLt; omega⟩ rfl rfl,
    V_act2_apply m c _ _ b q (3 : Fin 4) (feat k col) (by show 512 * (t.val / 8) + row.val = b.val * 32 + q.val; omega)
      (by show 256 * (24 + t.val % 8) + col.val = 3 * 2048 + (256 * k.val + col.val); omega),
    blk12_apply m c t f col (feat k col) (by show 256 * k.val + col.val = 256 * (t.val % 8) + col.val; omega),
    blk0_apply m c t p (2 : Fin 8) b hb]
  rfl

/-- Expert 3's term at point `t`, in the argument arrays' own coordinates. -/
theorem term3_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 5 t) (iblk m c 13 t) (max (iblk m c 0 t (ix2 p (3 : Fin 8))) 0) row f
      = ∑ col : Fin 256, (acts m c (3 : Fin 8) (ix4 b q (3 : Fin 4) (feat k col)) * max (gts m c (ix2 b (3 : Fin 8))) 0)
          * wts m c (3 : Fin 8) (ix2 f (feat k col)) := by
  unfold Body.term
  refine Finset.sum_congr rfl fun col _ => ?_
  have hN : t.val < 32 := lt_of_lt_of_eq t.isLt (show cfg0.N = 32 from N_0)
  rw [blk5_apply m c t row col ⟨512 * (t.val / 8) + row.val, by have := row.isLt; omega⟩ ⟨256 * (24 + t.val % 8) + col.val, by have := col.isLt; omega⟩ rfl rfl,
    V_act3_apply m c _ _ b q (3 : Fin 4) (feat k col) (by show 512 * (t.val / 8) + row.val = b.val * 32 + q.val; omega)
      (by show 256 * (24 + t.val % 8) + col.val = 3 * 2048 + (256 * k.val + col.val); omega),
    blk13_apply m c t f col (feat k col) (by show 256 * k.val + col.val = 256 * (t.val % 8) + col.val; omega),
    blk0_apply m c t p (3 : Fin 8) b hb]
  rfl

/-- Expert 4's term at point `t`, in the argument arrays' own coordinates. -/
theorem term4_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 6 t) (iblk m c 14 t) (max (iblk m c 0 t (ix2 p (4 : Fin 8))) 0) row f
      = ∑ col : Fin 256, (acts m c (4 : Fin 8) (ix4 b q (3 : Fin 4) (feat k col)) * max (gts m c (ix2 b (4 : Fin 8))) 0)
          * wts m c (4 : Fin 8) (ix2 f (feat k col)) := by
  unfold Body.term
  refine Finset.sum_congr rfl fun col _ => ?_
  have hN : t.val < 32 := lt_of_lt_of_eq t.isLt (show cfg0.N = 32 from N_0)
  rw [blk6_apply m c t row col ⟨512 * (t.val / 8) + row.val, by have := row.isLt; omega⟩ ⟨256 * (24 + t.val % 8) + col.val, by have := col.isLt; omega⟩ rfl rfl,
    V_act4_apply m c _ _ b q (3 : Fin 4) (feat k col) (by show 512 * (t.val / 8) + row.val = b.val * 32 + q.val; omega)
      (by show 256 * (24 + t.val % 8) + col.val = 3 * 2048 + (256 * k.val + col.val); omega),
    blk14_apply m c t f col (feat k col) (by show 256 * k.val + col.val = 256 * (t.val % 8) + col.val; omega),
    blk0_apply m c t p (4 : Fin 8) b hb]
  rfl

/-- Expert 5's term at point `t`, in the argument arrays' own coordinates. -/
theorem term5_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 7 t) (iblk m c 15 t) (max (iblk m c 0 t (ix2 p (5 : Fin 8))) 0) row f
      = ∑ col : Fin 256, (acts m c (5 : Fin 8) (ix4 b q (3 : Fin 4) (feat k col)) * max (gts m c (ix2 b (5 : Fin 8))) 0)
          * wts m c (5 : Fin 8) (ix2 f (feat k col)) := by
  unfold Body.term
  refine Finset.sum_congr rfl fun col _ => ?_
  have hN : t.val < 32 := lt_of_lt_of_eq t.isLt (show cfg0.N = 32 from N_0)
  rw [blk7_apply m c t row col ⟨512 * (t.val / 8) + row.val, by have := row.isLt; omega⟩ ⟨256 * (24 + t.val % 8) + col.val, by have := col.isLt; omega⟩ rfl rfl,
    V_act5_apply m c _ _ b q (3 : Fin 4) (feat k col) (by show 512 * (t.val / 8) + row.val = b.val * 32 + q.val; omega)
      (by show 256 * (24 + t.val % 8) + col.val = 3 * 2048 + (256 * k.val + col.val); omega),
    blk15_apply m c t f col (feat k col) (by show 256 * k.val + col.val = 256 * (t.val % 8) + col.val; omega),
    blk0_apply m c t p (5 : Fin 8) b hb]
  rfl

/-- Expert 6's term at point `t`, in the argument arrays' own coordinates. -/
theorem term6_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 8 t) (iblk m c 16 t) (max (iblk m c 0 t (ix2 p (6 : Fin 8))) 0) row f
      = ∑ col : Fin 256, (acts m c (6 : Fin 8) (ix4 b q (3 : Fin 4) (feat k col)) * max (gts m c (ix2 b (6 : Fin 8))) 0)
          * wts m c (6 : Fin 8) (ix2 f (feat k col)) := by
  unfold Body.term
  refine Finset.sum_congr rfl fun col _ => ?_
  have hN : t.val < 32 := lt_of_lt_of_eq t.isLt (show cfg0.N = 32 from N_0)
  rw [blk8_apply m c t row col ⟨512 * (t.val / 8) + row.val, by have := row.isLt; omega⟩ ⟨256 * (24 + t.val % 8) + col.val, by have := col.isLt; omega⟩ rfl rfl,
    V_act6_apply m c _ _ b q (3 : Fin 4) (feat k col) (by show 512 * (t.val / 8) + row.val = b.val * 32 + q.val; omega)
      (by show 256 * (24 + t.val % 8) + col.val = 3 * 2048 + (256 * k.val + col.val); omega),
    blk16_apply m c t f col (feat k col) (by show 256 * k.val + col.val = 256 * (t.val % 8) + col.val; omega),
    blk0_apply m c t p (6 : Fin 8) b hb]
  rfl

/-- Expert 7's term at point `t`, in the argument arrays' own coordinates. -/
theorem term7_at (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    Body.term (iblk m c 9 t) (iblk m c 17 t) (max (iblk m c 0 t (ix2 p (7 : Fin 8))) 0) row f
      = ∑ col : Fin 256, (acts m c (7 : Fin 8) (ix4 b q (3 : Fin 4) (feat k col)) * max (gts m c (ix2 b (7 : Fin 8))) 0)
          * wts m c (7 : Fin 8) (ix2 f (feat k col)) := by
  unfold Body.term
  refine Finset.sum_congr rfl fun col _ => ?_
  have hN : t.val < 32 := lt_of_lt_of_eq t.isLt (show cfg0.N = 32 from N_0)
  rw [blk9_apply m c t row col ⟨512 * (t.val / 8) + row.val, by have := row.isLt; omega⟩ ⟨256 * (24 + t.val % 8) + col.val, by have := col.isLt; omega⟩ rfl rfl,
    V_act7_apply m c _ _ b q (3 : Fin 4) (feat k col) (by show 512 * (t.val / 8) + row.val = b.val * 32 + q.val; omega)
      (by show 256 * (24 + t.val % 8) + col.val = 3 * 2048 + (256 * k.val + col.val); omega),
    blk17_apply m c t f col (feat k col) (by show 256 * k.val + col.val = 256 * (t.val % 8) + col.val; omega),
    blk0_apply m c t p (7 : Fin 8) b hb]
  rfl

set_option maxHeartbeats 2000000 in
/-- The partial products of point `t` at `(row, f)`: over the eight experts and the 256 features of the point's block. -/
theorem partialsAt_apply (c : Dev nD) (t : Fin cfg0.N) (row : Fin 512) (f : Fin 720) (p : Fin 16) (q : Fin 32) (hrow : row.val = p.val * 32 + q.val)
    (b : Fin 64) (hb : b.val = 16 * (t.val / 8) + p.val) (k : Fin 8) (hk : k.val = t.val % 8) :
    partialsAt m c t (ix2 row f)
      = ∑ i : Fin 8, ∑ col : Fin 256, (acts m c i (ix4 b q (3 : Fin 4) (feat k col)) * max (gts m c (ix2 b i)) 0)
          * wts m c i (ix2 f (feat k col)) := by
  unfold partialsAt
  refine (Body.partials_apply (iblk m c 0 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) row f p q hrow).trans ?_
  rw [term0_at m c t row f p q hrow b hb k hk,
    term1_at m c t row f p q hrow b hb k hk,
    term2_at m c t row f p q hrow b hb k hk,
    term3_at m c t row f p q hrow b hb k hk,
    term4_at m c t row f p q hrow b hb k hk,
    term5_at m c t row f p q hrow b hb k hk,
    term6_at m c t row f p q hrow b hb k hk,
    term7_at m c t row f p q hrow b hb k hk]
  rw [zero_add, Fin.sum_univ_eight]

/-! ## The accumulation over a batch block's eight feature blocks -/

theorem accAt_congr (c : Dev nD) (n n' : ℕ) (h : n < cfg0.N) (h' : n' < cfg0.N) (e : n = n') : accAt m c n h = accAt m c n' h' := by
  subst e; rfl

/-- At a first feature block the accumulator is the point's partial products. -/
theorem acc_first (c : Dev nD) (t : Fin cfg0.N) (h0 : t.val % 8 = 0) : accAt m c t.val t.isLt = partialsAt m c t := by
  rw [accAt_A m c t h0, soutA_eq]
  unfold k0_pay2 partialsAt Body.partials
  exact shapeCast_self _ _

/-- At every other feature block it is what the block before left plus the point's partial products. -/
theorem acc_next (c : Dev nD) (t : Fin cfg0.N) (h0 : ¬ t.val % 8 = 0) :
    accAt m c t.val t.isLt = addf (accAt m c (t.val - 1) (Nat.lt_of_le_of_lt (Nat.sub_le _ _) t.isLt)) (partialsAt m c t) := by
  by_cases h2 : t.val % 8 = 7
  · rw [accAt_C m c t h0 h2, soutC_eq]
    unfold k0_pay3 partialsAt Body.partials
    exact shapeCast_self _ _
  · rw [accAt_B m c t h0 h2, soutB_eq]
    unfold k0_pay3 partialsAt Body.partials
    exact shapeCast_self _ _

/-- Point `8·b' + k`. -/
abbrev pt (b' : Fin 4) (k : ℕ) (hk : k < 8) : Fin cfg0.N := ⟨8 * b'.val + k, by have := b'.isLt; show 8 * b'.val + k < 32; omega⟩

theorem acc_succ (c : Dev nD) (b' : Fin 4) (k k' : ℕ) (e : k' = k + 1) (hk : k' < 8) (j : S512x720.Idx) :
    accAt m c (pt b' k' hk).val (pt b' k' hk).isLt j
      = accAt m c (pt b' k (by omega)).val (pt b' k (by omega)).isLt j + partialsAt m c (pt b' k' hk) j := by
  subst e
  rw [acc_next m c (pt b' (k + 1) hk) (by show ¬ (8 * b'.val + (k + 1)) % 8 = 0; omega)]
  rw [addf_apply]
  rw [accAt_congr m c ((pt b' (k + 1) hk).val - 1) (pt b' k (by omega)).val _ (pt b' k (by omega)).isLt (by show 8 * b'.val + (k + 1) - 1 = 8 * b'.val + k; omega)]

set_option maxHeartbeats 2000000 in
/-- After a batch block's last feature block the accumulator holds the sum of its eight points' partial products. -/
theorem acc_total (c : Dev nD) (b' : Fin 4) (j : S512x720.Idx) :
    accAt m c (pt b' 7 (by omega)).val (pt b' 7 (by omega)).isLt j
      = ∑ k : Fin 8, partialsAt m c (pt b' k.val k.isLt) j := by
  rw [acc_succ m c b' 6 7 rfl (by omega), acc_succ m c b' 5 6 rfl (by omega), acc_succ m c b' 4 5 rfl (by omega), acc_succ m c b' 3 4 rfl (by omega),
    acc_succ m c b' 2 3 rfl (by omega), acc_succ m c b' 1 2 rfl (by omega), acc_succ m c b' 0 1 rfl (by omega),
    acc_first m c (pt b' 0 (by omega)) (by show (8 * b'.val + 0) % 8 = 0; omega), Fin.sum_univ_eight]
  rfl

/-! ## The output block -/

/-- At a last feature block the output's buffer holds the epilogue of this point's accumulator. -/
theorem outAt_last (c : Dev nD) (t : Fin cfg0.N) (h2 : t.val % 8 = 7) :
    outAt m c t = k0_pay4 (k0_pay5 (iblk m c 0 t)) (iblk m c 1 t) (accAt m c t.val t.isLt) := by
  have h0 : ¬ t.val % 8 = 0 := by omega
  rw [outAt_C m c t h0 h2, outC_eq, accAt_C m c t h0 h2, soutC_eq]

set_option maxHeartbeats 2000000 in
/-- The output block of batch block `b'` at `(p, f, q)` is the blockwise arrangement at batch element `16·b' + p`. -/
theorem outAt_apply (c : Dev nD) (b' : Fin 4) (p : Fin 16) (f : Fin 720) (q : Fin 32) (b : Fin 64) (hb : b.val = 16 * b'.val + p.val) :
    outAt m c (pt b' 7 (by omega)) (ix3 p f q) = blockwiseAt (acts m c) (gts m c) (wts m c) (bss m c) b f q := by
  have hb' := b'.isLt
  rw [outAt_last m c (pt b' 7 (by omega)) (by show (8 * b'.val + 7) % 8 = 7; omega)]
  rw [Body.output_apply (iblk m c 0 (pt b' 7 (by omega))) (iblk m c 1 (pt b' 7 (by omega))) (accAt m c (pt b' 7 (by omega)).val (pt b' 7 (by omega)).isLt)
    p f q ⟨p.val * 32 + q.val, by have := p.isLt; have := q.isLt; omega⟩ rfl]
  rw [acc_total m c b']
  unfold blockwiseAt
  congr 1
  congr 1
  · refine Finset.sum_congr rfl fun k _ => ?_
    exact partialsAt_apply m c (pt b' k.val k.isLt) ⟨p.val * 32 + q.val, by have := p.isLt; have := q.isLt; omega⟩ f p q rfl b
      (by show b.val = 16 * ((8 * b'.val + k.val) / 8) + p.val; have := k.isLt; omega) k
      (by show k.val = (8 * b'.val + k.val) % 8; have := k.isLt; omega)
  · refine Finset.sum_congr rfl fun i _ => ?_
    rw [blk0_apply m c (pt b' 7 (by omega)) p i b (by show b.val = 16 * ((8 * b'.val + 7) / 8) + p.val; omega), blk1_apply, V_bias_apply]
    fin_cases i <;> rfl

end Cert.KernelIdeal.Fr

end
-- ==== Proof.KernelIdealFinal.lean ====
import proofs.«164986_g23622320128510_cont_sun_c4_816_3_alg».proof.Proof.KernelIdealValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.HeadSpec Cert.KernelIdeal
open scoped BigOperators

variable (m : (ℓ : Loc nD τ sig) → Buf (Elt Ideal) ℓ) (ρ : Dev nD → PrngReg)

/-! ## From the output blocks to the output array

The output window is written back at each batch block's last feature block, and its four blocks tile the array along the
batch axis; what each writes back is the blockwise arrangement read through the block. -/

/-- Batch block `b'`'s last point, `8·b' + 7`. -/
abbrev lastPt (b' : Fin 4) : Fin cfg0.N := pt b' 7 (by decide)

/-- A point at a last feature block is its batch block's last point. -/
theorem last_pt (t : Fin cfg0.N) (h7 : t.val % 8 = 7) : ∃ b' : Fin 4, t = lastPt b' := by
  have hN : t.val < 32 := lt_of_lt_of_eq t.isLt (show cfg0.N = 32 from N_0)
  exact ⟨⟨t.val / 8, by omega⟩, Fin.ext (by show t.val = 8 * (t.val / 8) + 7; omega)⟩

/-- Reading an array through batch block `b'`'s output block: entry `(p, f, q)` of the block is entry `(16·b' + p, f, q)`. -/
theorem read_blk18 (c : Dev nD) (G : Buf (Elt Ideal) ((cfg0.win 18).arr.view.loc (c.tc : Thread nD τ))) (b' : Fin 4)
    (p : Fin 16) (f : Fin 720) (q : Fin 32) (b : Fin 64) (hb : b.val = 16 * b'.val + p.val) :
    ((cfg0.win 18).blk (lastPt b')).view.read (Elt Ideal) G (ix3 p f q) = G (ix3 b f q) := by
  obtain ⟨e0, e1, e2⟩ := idx_18 (lastPt b')
  have hb' := b'.isLt
  show G (((cfg0.win 18).blk (lastPt b')).view.emb (ix3 p f q)) = G (ix3 b f q)
  refine congrArg G (funext fun a => Fin.ext ?_)
  match a with
  | ⟨0, _⟩ => show win0_18.index (lastPt b') (0 : Fin 3) * 16 + 1 * p.val = b.val; rw [e0]; show (8 * b'.val + 7) / 8 * 16 + 1 * p.val = b.val; omega
  | ⟨1, _⟩ => show win0_18.index (lastPt b') (1 : Fin 3) * 720 + 1 * f.val = f.val; omega
  | ⟨2, _⟩ => show win0_18.index (lastPt b') (2 : Fin 3) * 32 + 1 * q.val = q.val; omega

set_option maxHeartbeats 2000000 in
theorem flushed_pt (c : Dev nD) (b' : Fin 4) :
    (dats m 0 c).flushed 18 (lastPt b')
      = ((cfg0.win 18).blk (lastPt b')).view.read (Elt Ideal) (blockwise (acts m c) (gts m c) (wts m c) (bss m c)) := by
  have hb' := b'.isLt
  show (cfg0.win 18).cut (grid0.coords (lastPt b')) ((dats m 0 c).after 18 (lastPt b')) = _
  rw [after0_18]
  funext y
  obtain ⟨p, f, q, rfl⟩ : ∃ (p : Fin 16) (f : Fin 720) (q : Fin 32), y = ix3 p f q := ⟨y 0, y 1, y 2, eq_ix3 (n0 := 16) (n1 := 720) (n2 := 32) y⟩
  rw [read_blk18 c _ b' p f q ⟨16 * b'.val + p.val, by have := p.isLt; omega⟩ rfl]
  show outAt m c (lastPt b') (ix3 p f q) = _
  exact outAt_apply m c b' p f q ⟨16 * b'.val + p.val, by have := p.isLt; omega⟩ rfl

theorem flushed_eq (c : Dev nD) (t : Fin cfg0.N) (hf : (cfg0.win 18).flush t = true) :
    (dats m 0 c).flushed 18 t
      = ((cfg0.win 18).blk t).view.read (Elt Ideal) (blockwise (acts m c) (gts m c) (wts m c) (bss m c)) := by
  obtain ⟨b', rfl⟩ := last_pt t ((flush0_18 t).mp hf)
  exact flushed_pt m c b'

theorem mem_blk18 (t : Fin cfg0.N) (i : S64x720x32.Idx) :
    i ∈ ((cfg0.win 18).blk t).view.set ↔ ∀ a : Fin 3, win0_18.index t a * S16x720x32.size a ≤ (i a).val ∧ (i a).val < win0_18.index t a * S16x720x32.size a + S16x720x32.size a := by
  show i ∈ ((View.whole main_v17).slice (win0_18.rect t)).set ↔ _
  rw [View.set_slice_whole, Rect.mem_set_unit]
  exact Iff.rfl

/-- Every entry of the output array lies in the block its batch element's batch block writes back. -/
theorem cover18 (i : S64x720x32.Idx) :
    ∃ t : Fin cfg0.N, (cfg0.win 18).flush t = true ∧ i ∈ ((cfg0.win 18).blk t).view.set := by
  have hi0 : (i 0).val < 64 := (i 0).isLt
  have hi1 : (i 1).val < 720 := (i 1).isLt
  have hi2 : (i 2).val < 32 := (i 2).isLt
  refine ⟨lastPt ⟨(i 0).val / 16, by omega⟩, (flush0_18 _).mpr (by show (8 * ((i 0).val / 16) + 7) % 8 = 7; omega), ?_⟩
  rw [mem_blk18]
  obtain ⟨e0, e1, e2⟩ := idx_18 (lastPt ⟨(i 0).val / 16, by omega⟩)
  intro a
  match a with
  | ⟨0, _⟩ =>
    show win0_18.index _ (0 : Fin 3) * 16 ≤ (i 0).val ∧ (i 0).val < win0_18.index _ (0 : Fin 3) * 16 + 16
    rw [e0]; show (8 * ((i 0).val / 16) + 7) / 8 * 16 ≤ (i 0).val ∧ (i 0).val < (8 * ((i 0).val / 16) + 7) / 8 * 16 + 16; omega
  | ⟨1, _⟩ =>
    show win0_18.index _ (1 : Fin 3) * 720 ≤ (i 1).val ∧ (i 1).val < win0_18.index _ (1 : Fin 3) * 720 + 720
    rw [e1]; omega
  | ⟨2, _⟩ =>
    show win0_18.index _ (2 : Fin 3) * 32 ≤ (i 2).val ∧ (i 2).val < win0_18.index _ (2 : Fin 3) * 32 + 32
    rw [e2]; omega

/-- The output array after the run is the blockwise arrangement of the argument arrays. -/
theorem final18 (c : Dev nD) : (dats m 0 c).arrAt 18 cfg0.N = blockwise (acts m c) (gts m c) (wts m c) (bss m c) :=
  (dats m 0 c).arrAt_eq_of_cover 18 _ (fun t hf => flushed_eq m c t hf) (fun i => cover18 i)

/-- The run, read: the result array at the blockwise arrangement, the argument arrays as launched. -/
theorem run_value : θ_run defs (onTc (τ := τ) (main (F := Ideal))) ⟨m, fun _ => 0, ρ⟩ (fun r => ∀ c : Dev nD,
      r.2.mem ((c.tc : Thread nD τ).loc main_v17) = blockwise (acts m c) (gts m c) (wts m c) (bss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨((h c).1 18).trans (final18 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 0).trans (((dats m 0 c).arrAt_in 0 rfl _).trans ((A_eq m c 0).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).1 14).trans (((dats m 0 c).arrAt_in 14 rfl _).trans ((A_eq m c 14).trans (V_main_arg13 m c))),
      ((h c).1 15).trans (((dats m 0 c).arrAt_in 15 rfl _).trans ((A_eq m c 15).trans (V_main_arg14 m c))),
      ((h c).1 16).trans (((dats m 0 c).arrAt_in 16 rfl _).trans ((A_eq m c 16).trans (V_main_arg15 m c))),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) (run_main m ρ)

end Cert.KernelIdeal.Fr

end
-- ==== Proof.HeadRef.lean ====
/-
  The reference program's result is the expertwise arrangement.

  The reference forms, for each of the eight experts `i`, the inner product of the last position `l = 3` of `x_i` with
  the rows of `W_i`, adds the bias `β_i`, multiplies by the gate `γ[b, i]` where it is positive and by `0` elsewhere,
  accumulates the eight products from a zero array, adds the constant, and reorders the result to `[b, p, c]`.
  Read at an index `(b, p, c)` this is `Cert.HeadSpec.expertwiseAt`: the only laws used are `0 + a = a`, the
  comparison `0 < γ` deciding the selection, and the equality of the index maps of the layout operations with the
  coordinates `(b, c, 3, d)`, `(p, d)`, `(p)`, `(b, i)`. No finiteness is needed.
-/
import proofs.«164986_g23622320128510_cont_sun_c4_816_3_alg».proof.Proof.RefReadP
import proofs.«164986_g23622320128510_cont_sun_c4_816_3_alg».proof.Proof.HeadSpec

noncomputable section

open scoped BigOperators

namespace Cert.HeadRef

open Cert.ReferenceIdeal Cert.ReferenceIdeal.ReadP Idealize.ShloMosaic Idealize.ShloMosaic.ValueIdx Cert.HeadSpec

/-- One expert's contribution at `(b, p, c)`: its inner product plus its bias, times the gate's positive part. -/
def term (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (i : Fin 8) (b : Fin 64) (p : Fin 720) (c : Fin 32) : EReal :=
  ((∑ d : Fin 2048, x (ix4 b c (3 : Fin 4) d) * w (ix2 p d)) + β (ix1 p)) * (if 0 < g (ix2 b i) then g (ix2 b i) else 0)

/-- Selecting `γ` where `γ > 0` and the zero word elsewhere is `if 0 < γ then γ else 0`. -/
theorem select_gt_zero (γ : EReal) :
    Scalar.select (FloatOps.cmpf (F := Ideal) (φ := FTy.f32) .ogt γ (FloatOps.ofBits (F := Ideal) .f32 0x00000000#32)) γ
        (FloatOps.ofBits (F := Ideal) .f32 0x00000000#32)
      = if 0 < γ then γ else 0 := by
  rw [Ideal.ofBits_def, Ideal.ofBits_zero_f32, Ideal.cmpf_def]
  by_cases h : (0 : EReal) < γ
  · have hc : Ideal.cmp .ogt γ 0 = 1#1 := by
      show BitVec.ofBool (decide (0 < γ)) = 1#1
      rw [decide_eq_true h]; rfl
    rw [hc, select_one, if_pos h]
  · have hc : Ideal.cmp .ogt γ 0 = 0#1 := by
      show BitVec.ofBool (decide (0 < γ)) = 0#1
      rw [decide_eq_false h]; rfl
    rw [hc, select_zero, if_neg h]

/-! ## The first expert (gate column 0) -/

/-- Its inner product plus its bias, read at `(b, c, 0, p)`. -/
theorem pre0 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v4 (F := Ideal) x w β (ix4 b c (0 : Fin 1) p)
      = (∑ d : Fin 2048, x (ix4 b c (3 : Fin 4) d) * w (ix2 p d)) + β (ix1 p) := by
  have hβ : idx_main_v2 (idx_main_v3 (ix4 b c (0 : Fin 1) p)) = ix1 p := by
    funext a; match a with | ⟨0, _⟩ => rfl
  have hx : ∀ d : Fin 2048, idx_main_v0 (lidx_main_v1 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v1 (ix4 b c (0 : Fin 1) p) d = ix2 p d := fun d => by
    funext a; match a with | ⟨0, _⟩ => rfl | ⟨1, _⟩ => rfl
  rw [val_main_v4_apply, val_main_v1_apply, val_main_v3_apply, val_main_v2_apply, hβ, Ideal.addf_def]
  refine congrArg (· + β (ix1 p)) (Finset.sum_congr rfl fun d _ => ?_)
  rw [val_main_v0_apply, hx d, hw d]

/-- Its gate's positive part, read at `(b, c, 0, p)`. -/
theorem gate0 (g : (⟨S64x8, .f32⟩ : BufTy).Contents (Elt Ideal)) (b : Fin 64) (p : Fin 720) (c : Fin 32) :
    val_main_v49 (F := Ideal) g (ix4 b c (0 : Fin 1) p) = if 0 < g (ix2 b (0 : Fin 8)) then g (ix2 b (0 : Fin 8)) else 0 := by
  have hc : idx_main_v41 (idx_main_v42 (idx_main_v48 (idx_main_v49 (ix4 b c (0 : Fin 1) p)))) = ix2 b (0 : Fin 8) := by
    funext a; match a with | ⟨0, _⟩ => exact Fin.ext (Nat.div_one _) | ⟨1, _⟩ => rfl
  have hs : idx_main_v45 (idx_main_v46 (idx_main_v48 (idx_main_v49 (ix4 b c (0 : Fin 1) p)))) = ix2 b (0 : Fin 8) := by
    funext a; match a with | ⟨0, _⟩ => exact Fin.ext (Nat.div_one _) | ⟨1, _⟩ => rfl
  rw [val_main_v49_apply, val_main_v48_apply, val_main_v47_apply, val_main_v44_apply, val_main_v42_apply,
    val_main_v41_apply, val_main_v46_apply, val_main_v45_apply, val_main_v43_apply, val_main_cst_0_apply,
    val_main_call0_v1_apply, val_main_call0_v0_apply, val_main_cst_1_apply, hc, hs]
  exact select_gt_zero _

/-- Its contribution, read at `(b, c, 0, p)`. -/
theorem term0 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v50 (F := Ideal) x g w β (ix4 b c (0 : Fin 1) p) = term x g w β (0 : Fin 8) b p c := by
  have h := val_main_v50_apply (F := Ideal) x g w β (ix4 b c (0 : Fin 1) p)
  rw [pre0, gate0, Ideal.mulf_def] at h
  exact h

/-! ## The second expert (gate column 1) -/

/-- Its inner product plus its bias, read at `(b, c, 0, p)`. -/
theorem pre1 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v9 (F := Ideal) x w β (ix4 b c (0 : Fin 1) p)
      = (∑ d : Fin 2048, x (ix4 b c (3 : Fin 4) d) * w (ix2 p d)) + β (ix1 p) := by
  have hβ : idx_main_v7 (idx_main_v8 (ix4 b c (0 : Fin 1) p)) = ix1 p := by
    funext a; match a with | ⟨0, _⟩ => rfl
  have hx : ∀ d : Fin 2048, idx_main_v5 (lidx_main_v6 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v6 (ix4 b c (0 : Fin 1) p) d = ix2 p d := fun d => by
    funext a; match a with | ⟨0, _⟩ => rfl | ⟨1, _⟩ => rfl
  rw [val_main_v9_apply, val_main_v6_apply, val_main_v8_apply, val_main_v7_apply, hβ, Ideal.addf_def]
  refine congrArg (· + β (ix1 p)) (Finset.sum_congr rfl fun d _ => ?_)
  rw [val_main_v5_apply, hx d, hw d]

/-- Its gate's positive part, read at `(b, c, 0, p)`. -/
theorem gate1 (g : (⟨S64x8, .f32⟩ : BufTy).Contents (Elt Ideal)) (b : Fin 64) (p : Fin 720) (c : Fin 32) :
    val_main_v60 (F := Ideal) g (ix4 b c (0 : Fin 1) p) = if 0 < g (ix2 b (1 : Fin 8)) then g (ix2 b (1 : Fin 8)) else 0 := by
  have hc : idx_main_v52 (idx_main_v53 (idx_main_v59 (idx_main_v60 (ix4 b c (0 : Fin 1) p)))) = ix2 b (1 : Fin 8) := by
    funext a; match a with | ⟨0, _⟩ => exact Fin.ext (Nat.div_one _) | ⟨1, _⟩ => rfl
  have hs : idx_main_v56 (idx_main_v57 (idx_main_v59 (idx_main_v60 (ix4 b c (0 : Fin 1) p)))) = ix2 b (1 : Fin 8) := by
    funext a; match a with | ⟨0, _⟩ => exact Fin.ext (Nat.div_one _) | ⟨1, _⟩ => rfl
  rw [val_main_v60_apply, val_main_v59_apply, val_main_v58_apply, val_main_v55_apply, val_main_v53_apply,
    val_main_v52_apply, val_main_v57_apply, val_main_v56_apply, val_main_v54_apply, val_main_cst_2_apply,
    val_main_call1_v1_apply, val_main_call1_v0_apply, val_main_cst_3_apply, hc, hs]
  exact select_gt_zero _

/-- Its contribution, read at `(b, c, 0, p)`. -/
theorem term1 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v61 (F := Ideal) x g w β (ix4 b c (0 : Fin 1) p) = term x g w β (1 : Fin 8) b p c := by
  have h := val_main_v61_apply (F := Ideal) x g w β (ix4 b c (0 : Fin 1) p)
  rw [pre1, gate1, Ideal.mulf_def] at h
  exact h

/-! ## The third expert (gate column 2) -/

/-- Its inner product plus its bias, read at `(b, c, 0, p)`. -/
theorem pre2 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v14 (F := Ideal) x w β (ix4 b c (0 : Fin 1) p)
      = (∑ d : Fin 2048, x (ix4 b c (3 : Fin 4) d) * w (ix2 p d)) + β (ix1 p) := by
  have hβ : idx_main_v12 (idx_main_v13 (ix4 b c (0 : Fin 1) p)) = ix1 p := by
    funext a; match a with | ⟨0, _⟩ => rfl
  have hx : ∀ d : Fin 2048, idx_main_v10 (lidx_main_v11 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v11 (ix4 b c (0 : Fin 1) p) d = ix2 p d := fun d => by
    funext a; match a with | ⟨0, _⟩ => rfl | ⟨1, _⟩ => rfl
  rw [val_main_v14_apply, val_main_v11_apply, val_main_v13_apply, val_main_v12_apply, hβ, Ideal.addf_def]
  refine congrArg (· + β (ix1 p)) (Finset.sum_congr rfl fun d _ => ?_)
  rw [val_main_v10_apply, hx d, hw d]

/-- Its gate's positive part, read at `(b, c, 0, p)`. -/
theorem gate2 (g : (⟨S64x8, .f32⟩ : BufTy).Contents (Elt Ideal)) (b : Fin 64) (p : Fin 720) (c : Fin 32) :
    val_main_v71 (F := Ideal) g (ix4 b c (0 : Fin 1) p) = if 0 < g (ix2 b (2 : Fin 8)) then g (ix2 b (2 : Fin 8)) else 0 := by
  have hc : idx_main_v63 (idx_main_v64 (idx_main_v70 (idx_main_v71 (ix4 b c (0 : Fin 1) p)))) = ix2 b (2 : Fin 8) := by
    funext a; match a with | ⟨0, _⟩ => exact Fin.ext (Nat.div_one _) | ⟨1, _⟩ => rfl
  have hs : idx_main_v67 (idx_main_v68 (idx_main_v70 (idx_main_v71 (ix4 b c (0 : Fin 1) p)))) = ix2 b (2 : Fin 8) := by
    funext a; match a with | ⟨0, _⟩ => exact Fin.ext (Nat.div_one _) | ⟨1, _⟩ => rfl
  rw [val_main_v71_apply, val_main_v70_apply, val_main_v69_apply, val_main_v66_apply, val_main_v64_apply,
    val_main_v63_apply, val_main_v68_apply, val_main_v67_apply, val_main_v65_apply, val_main_cst_4_apply,
    val_main_call2_v1_apply, val_main_call2_v0_apply, val_main_cst_5_apply, hc, hs]
  exact select_gt_zero _

/-- Its contribution, read at `(b, c, 0, p)`. -/
theorem term2 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v72 (F := Ideal) x g w β (ix4 b c (0 : Fin 1) p) = term x g w β (2 : Fin 8) b p c := by
  have h := val_main_v72_apply (F := Ideal) x g w β (ix4 b c (0 : Fin 1) p)
  rw [pre2, gate2, Ideal.mulf_def] at h
  exact h

/-! ## The fourth expert (gate column 3) -/

/-- Its inner product plus its bias, read at `(b, c, 0, p)`. -/
theorem pre3 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v19 (F := Ideal) x w β (ix4 b c (0 : Fin 1) p)
      = (∑ d : Fin 2048, x (ix4 b c (3 : Fin 4) d) * w (ix2 p d)) + β (ix1 p) := by
  have hβ : idx_main_v17 (idx_main_v18 (ix4 b c (0 : Fin 1) p)) = ix1 p := by
    funext a; match a with | ⟨0, _⟩ => rfl
  have hx : ∀ d : Fin 2048, idx_main_v15 (lidx_main_v16 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v16 (ix4 b c (0 : Fin 1) p) d = ix2 p d := fun d => by
    funext a; match a with | ⟨0, _⟩ => rfl | ⟨1, _⟩ => rfl
  rw [val_main_v19_apply, val_main_v16_apply, val_main_v18_apply, val_main_v17_apply, hβ, Ideal.addf_def]
  refine congrArg (· + β (ix1 p)) (Finset.sum_congr rfl fun d _ => ?_)
  rw [val_main_v15_apply, hx d, hw d]

/-- Its gate's positive part, read at `(b, c, 0, p)`. -/
theorem gate3 (g : (⟨S64x8, .f32⟩ : BufTy).Contents (Elt Ideal)) (b : Fin 64) (p : Fin 720) (c : Fin 32) :
    val_main_v82 (F := Ideal) g (ix4 b c (0 : Fin 1) p) = if 0 < g (ix2 b (3 : Fin 8)) then g (ix2 b (3 : Fin 8)) else 0 := by
  have hc : idx_main_v74 (idx_main_v75 (idx_main_v81 (idx_main_v82 (ix4 b c (0 : Fin 1) p)))) = ix2 b (3 : Fin 8) := by
    funext a; match a with | ⟨0, _⟩ => exact Fin.ext (Nat.div_one _) | ⟨1, _⟩ => rfl
  have hs : idx_main_v78 (idx_main_v79 (idx_main_v81 (idx_main_v82 (ix4 b c (0 : Fin 1) p)))) = ix2 b (3 : Fin 8) := by
    funext a; match a with | ⟨0, _⟩ => exact Fin.ext (Nat.div_one _) | ⟨1, _⟩ => rfl
  rw [val_main_v82_apply, val_main_v81_apply, val_main_v80_apply, val_main_v77_apply, val_main_v75_apply,
    val_main_v74_apply, val_main_v79_apply, val_main_v78_apply, val_main_v76_apply, val_main_cst_6_apply,
    val_main_call3_v1_apply, val_main_call3_v0_apply, val_main_cst_7_apply, hc, hs]
  exact select_gt_zero _

/-- Its contribution, read at `(b, c, 0, p)`. -/
theorem term3 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v83 (F := Ideal) x g w β (ix4 b c (0 : Fin 1) p) = term x g w β (3 : Fin 8) b p c := by
  have h := val_main_v83_apply (F := Ideal) x g w β (ix4 b c (0 : Fin 1) p)
  rw [pre3, gate3, Ideal.mulf_def] at h
  exact h

/-! ## The fifth expert (gate column 4) -/

/-- Its inner product plus its bias, read at `(b, c, 0, p)`. -/
theorem pre4 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v24 (F := Ideal) x w β (ix4 b c (0 : Fin 1) p)
      = (∑ d : Fin 2048, x (ix4 b c (3 : Fin 4) d) * w (ix2 p d)) + β (ix1 p) := by
  have hβ : idx_main_v22 (idx_main_v23 (ix4 b c (0 : Fin 1) p)) = ix1 p := by
    funext a; match a with | ⟨0, _⟩ => rfl
  have hx : ∀ d : Fin 2048, idx_main_v20 (lidx_main_v21 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v21 (ix4 b c (0 : Fin 1) p) d = ix2 p d := fun d => by
    funext a; match a with | ⟨0, _⟩ => rfl | ⟨1, _⟩ => rfl
  rw [val_main_v24_apply, val_main_v21_apply, val_main_v23_apply, val_main_v22_apply, hβ, Ideal.addf_def]
  refine congrArg (· + β (ix1 p)) (Finset.sum_congr rfl fun d _ => ?_)
  rw [val_main_v20_apply, hx d, hw d]

/-- Its gate's positive part, read at `(b, c, 0, p)`. -/
theorem gate4 (g : (⟨S64x8, .f32⟩ : BufTy).Contents (Elt Ideal)) (b : Fin 64) (p : Fin 720) (c : Fin 32) :
    val_main_v93 (F := Ideal) g (ix4 b c (0 : Fin 1) p) = if 0 < g (ix2 b (4 : Fin 8)) then g (ix2 b (4 : Fin 8)) else 0 := by
  have hc : idx_main_v85 (idx_main_v86 (idx_main_v92 (idx_main_v93 (ix4 b c (0 : Fin 1) p)))) = ix2 b (4 : Fin 8) := by
    funext a; match a with | ⟨0, _⟩ => exact Fin.ext (Nat.div_one _) | ⟨1, _⟩ => rfl
  have hs : idx_main_v89 (idx_main_v90 (idx_main_v92 (idx_main_v93 (ix4 b c (0 : Fin 1) p)))) = ix2 b (4 : Fin 8) := by
    funext a; match a with | ⟨0, _⟩ => exact Fin.ext (Nat.div_one _) | ⟨1, _⟩ => rfl
  rw [val_main_v93_apply, val_main_v92_apply, val_main_v91_apply, val_main_v88_apply, val_main_v86_apply,
    val_main_v85_apply, val_main_v90_apply, val_main_v89_apply, val_main_v87_apply, val_main_cst_8_apply,
    val_main_call4_v1_apply, val_main_call4_v0_apply, val_main_cst_9_apply, hc, hs]
  exact select_gt_zero _

/-- Its contribution, read at `(b, c, 0, p)`. -/
theorem term4 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v94 (F := Ideal) x g w β (ix4 b c (0 : Fin 1) p) = term x g w β (4 : Fin 8) b p c := by
  have h := val_main_v94_apply (F := Ideal) x g w β (ix4 b c (0 : Fin 1) p)
  rw [pre4, gate4, Ideal.mulf_def] at h
  exact h

/-! ## The sixth expert (gate column 5) -/

/-- Its inner product plus its bias, read at `(b, c, 0, p)`. -/
theorem pre5 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v29 (F := Ideal) x w β (ix4 b c (0 : Fin 1) p)
      = (∑ d : Fin 2048, x (ix4 b c (3 : Fin 4) d) * w (ix2 p d)) + β (ix1 p) := by
  have hβ : idx_main_v27 (idx_main_v28 (ix4 b c (0 : Fin 1) p)) = ix1 p := by
    funext a; match a with | ⟨0, _⟩ => rfl
  have hx : ∀ d : Fin 2048, idx_main_v25 (lidx_main_v26 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v26 (ix4 b c (0 : Fin 1) p) d = ix2 p d := fun d => by
    funext a; match a with | ⟨0, _⟩ => rfl | ⟨1, _⟩ => rfl
  rw [val_main_v29_apply, val_main_v26_apply, val_main_v28_apply, val_main_v27_apply, hβ, Ideal.addf_def]
  refine congrArg (· + β (ix1 p)) (Finset.sum_congr rfl fun d _ => ?_)
  rw [val_main_v25_apply, hx d, hw d]

/-- Its gate's positive part, read at `(b, c, 0, p)`. -/
theorem gate5 (g : (⟨S64x8, .f32⟩ : BufTy).Contents (Elt Ideal)) (b : Fin 64) (p : Fin 720) (c : Fin 32) :
    val_main_v104 (F := Ideal) g (ix4 b c (0 : Fin 1) p) = if 0 < g (ix2 b (5 : Fin 8)) then g (ix2 b (5 : Fin 8)) else 0 := by
  have hc : idx_main_v96 (idx_main_v97 (idx_main_v103 (idx_main_v104 (ix4 b c (0 : Fin 1) p)))) = ix2 b (5 : Fin 8) := by
    funext a; match a with | ⟨0, _⟩ => exact Fin.ext (Nat.div_one _) | ⟨1, _⟩ => rfl
  have hs : idx_main_v100 (idx_main_v101 (idx_main_v103 (idx_main_v104 (ix4 b c (0 : Fin 1) p)))) = ix2 b (5 : Fin 8) := by
    funext a; match a with | ⟨0, _⟩ => exact Fin.ext (Nat.div_one _) | ⟨1, _⟩ => rfl
  rw [val_main_v104_apply, val_main_v103_apply, val_main_v102_apply, val_main_v99_apply, val_main_v97_apply,
    val_main_v96_apply, val_main_v101_apply, val_main_v100_apply, val_main_v98_apply, val_main_cst_10_apply,
    val_main_call5_v1_apply, val_main_call5_v0_apply, val_main_cst_11_apply, hc, hs]
  exact select_gt_zero _

/-- Its contribution, read at `(b, c, 0, p)`. -/
theorem term5 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v105 (F := Ideal) x g w β (ix4 b c (0 : Fin 1) p) = term x g w β (5 : Fin 8) b p c := by
  have h := val_main_v105_apply (F := Ideal) x g w β (ix4 b c (0 : Fin 1) p)
  rw [pre5, gate5, Ideal.mulf_def] at h
  exact h

/-! ## The seventh expert (gate column 6) -/

/-- Its inner product plus its bias, read at `(b, c, 0, p)`. -/
theorem pre6 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v34 (F := Ideal) x w β (ix4 b c (0 : Fin 1) p)
      = (∑ d : Fin 2048, x (ix4 b c (3 : Fin 4) d) * w (ix2 p d)) + β (ix1 p) := by
  have hβ : idx_main_v32 (idx_main_v33 (ix4 b c (0 : Fin 1) p)) = ix1 p := by
    funext a; match a with | ⟨0, _⟩ => rfl
  have hx : ∀ d : Fin 2048, idx_main_v30 (lidx_main_v31 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v31 (ix4 b c (0 : Fin 1) p) d = ix2 p d := fun d => by
    funext a; match a with | ⟨0, _⟩ => rfl | ⟨1, _⟩ => rfl
  rw [val_main_v34_apply, val_main_v31_apply, val_main_v33_apply, val_main_v32_apply, hβ, Ideal.addf_def]
  refine congrArg (· + β (ix1 p)) (Finset.sum_congr rfl fun d _ => ?_)
  rw [val_main_v30_apply, hx d, hw d]

/-- Its gate's positive part, read at `(b, c, 0, p)`. -/
theorem gate6 (g : (⟨S64x8, .f32⟩ : BufTy).Contents (Elt Ideal)) (b : Fin 64) (p : Fin 720) (c : Fin 32) :
    val_main_v115 (F := Ideal) g (ix4 b c (0 : Fin 1) p) = if 0 < g (ix2 b (6 : Fin 8)) then g (ix2 b (6 : Fin 8)) else 0 := by
  have hc : idx_main_v107 (idx_main_v108 (idx_main_v114 (idx_main_v115 (ix4 b c (0 : Fin 1) p)))) = ix2 b (6 : Fin 8) := by
    funext a; match a with | ⟨0, _⟩ => exact Fin.ext (Nat.div_one _) | ⟨1, _⟩ => rfl
  have hs : idx_main_v111 (idx_main_v112 (idx_main_v114 (idx_main_v115 (ix4 b c (0 : Fin 1) p)))) = ix2 b (6 : Fin 8) := by
    funext a; match a with | ⟨0, _⟩ => exact Fin.ext (Nat.div_one _) | ⟨1, _⟩ => rfl
  rw [val_main_v115_apply, val_main_v114_apply, val_main_v113_apply, val_main_v110_apply, val_main_v108_apply,
    val_main_v107_apply, val_main_v112_apply, val_main_v111_apply, val_main_v109_apply, val_main_cst_12_apply,
    val_main_call6_v1_apply, val_main_call6_v0_apply, val_main_cst_13_apply, hc, hs]
  exact select_gt_zero _

/-- Its contribution, read at `(b, c, 0, p)`. -/
theorem term6 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v116 (F := Ideal) x g w β (ix4 b c (0 : Fin 1) p) = term x g w β (6 : Fin 8) b p c := by
  have h := val_main_v116_apply (F := Ideal) x g w β (ix4 b c (0 : Fin 1) p)
  rw [pre6, gate6, Ideal.mulf_def] at h
  exact h

/-! ## The eighth expert (gate column 7) -/

/-- Its inner product plus its bias, read at `(b, c, 0, p)`. -/
theorem pre7 (x : (⟨S64x32x4x2048, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v39 (F := Ideal) x w β (ix4 b c (0 : Fin 1) p)
      = (∑ d : Fin 2048, x (ix4 b c (3 : Fin 4) d) * w (ix2 p d)) + β (ix1 p) := by
  have hβ : idx_main_v37 (idx_main_v38 (ix4 b c (0 : Fin 1) p)) = ix1 p := by
    funext a; match a with | ⟨0, _⟩ => rfl
  have hx : ∀ d : Fin 2048, idx_main_v35 (lidx_main_v36 (ix4 b c (0 : Fin 1) p) d) = ix4 b c (3 : Fin 4) d := fun d => by
    funext a; match a with | ⟨0, _⟩ => rfl | ⟨1, _⟩ => rfl | ⟨2, _⟩ => rfl | ⟨3, _⟩ => rfl
  have hw : ∀ d : Fin 2048, ridx_main_v36 (ix4 b c (0 : Fin 1) p) d = ix2 p d := fun d => by
    funext a; match a with | ⟨0, _⟩ => rfl | ⟨1, _⟩ => rfl
  rw [val_main_v39_apply, val_main_v36_apply, val_main_v38_apply, val_main_v37_apply, hβ, Ideal.addf_def]
  refine congrArg (· + β (ix1 p)) (Finset.sum_congr rfl fun d _ => ?_)
  rw [val_main_v35_apply, hx d, hw d]

/-- Its gate's positive part, read at `(b, c, 0, p)`. -/
theorem gate7 (g : (⟨S64x8, .f32⟩ : BufTy).Contents (Elt Ideal)) (b : Fin 64) (p : Fin 720) (c : Fin 32) :
    val_main_v126 (F := Ideal) g (ix4 b c (0 : Fin 1) p) = if 0 < g (ix2 b (7 : Fin 8)) then g (ix2 b (7 : Fin 8)) else 0 := by
  have hc : idx_main_v118 (idx_main_v119 (idx_main_v125 (idx_main_v126 (ix4 b c (0 : Fin 1) p)))) = ix2 b (7 : Fin 8) := by
    funext a; match a with | ⟨0, _⟩ => exact Fin.ext (Nat.div_one _) | ⟨1, _⟩ => rfl
  have hs : idx_main_v122 (idx_main_v123 (idx_main_v125 (idx_main_v126 (ix4 b c (0 : Fin 1) p)))) = ix2 b (7 : Fin 8) := by
    funext a; match a with | ⟨0, _⟩ => exact Fin.ext (Nat.div_one _) | ⟨1, _⟩ => rfl
  rw [val_main_v126_apply, val_main_v125_apply, val_main_v124_apply, val_main_v121_apply, val_main_v119_apply,
    val_main_v118_apply, val_main_v123_apply, val_main_v122_apply, val_main_v120_apply, val_main_cst_14_apply,
    val_main_call7_v1_apply, val_main_call7_v0_apply, val_main_cst_15_apply, hc, hs]
  exact select_gt_zero _

/-- Its contribution, read at `(b, c, 0, p)`. -/
theorem term7 (x : (⟨S64x32x4x2048, .f32⟩ : BufTy).Contents (Elt Ideal)) (g : (⟨S64x8, .f32⟩ : BufTy).Contents (Elt Ideal)) (w : (⟨S720x2048, .f32⟩ : BufTy).Contents (Elt Ideal)) (β : (⟨S720, .f32⟩ : BufTy).Contents (Elt Ideal))
    (b : Fin 64) (p : Fin 720) (c : Fin 32) :
    val_main_v127 (F := Ideal) x g w β (ix4 b c (0 : Fin 1) p) = term x g w β (7 : Fin 8) b p c := by
  have h := val_main_v127_apply (F := Ideal) x g w β (ix4 b c (0 : Fin 1) p)
  rw [pre7, gate7, Ideal.mulf_def] at h
  exact h

/-! ## The eight contributions accumulated from the zero array -/

/-- The accumulated array at `(b, c, 0, p)` is the sum of the eight contributions, in the program's (left-nested) order. -/
theorem acc_all (x0 x1 x2 x3 x4 x5 x6 x7 : (⟨S64x32x4x2048, .f32⟩ : BufTy).Contents (Elt Ideal))
    (g : (⟨S64x8, .f32⟩ : BufTy).Contents (Elt Ideal))
    (w0 w1 w2 w3 w4 w5 w6 w7 : (⟨S720x2048, .f32⟩ : BufTy).Contents (Elt Ideal))
    (β0 β1 β2 β3 β4 β5 β6 β7 : (⟨S720, .f32⟩ : BufTy).Contents (Elt Ideal))
    (b : Fin 64) (p : Fin 720) (c : Fin 32) :
    val_main_v128 (F := Ideal) x0 x1 x2 x3 x4 x5 x6 x7 g w0 w1 w2 w3 w4 w5 w6 w7 β0 β1 β2 β3 β4 β5 β6 β7 (ix4 b c (0 : Fin 1) p)
      = term x0 g w0 β0 (0 : Fin 8) b p c
        + term x1 g w1 β1 (1 : Fin 8) b p c
        + term x2 g w2 β2 (2 : Fin 8) b p c
        + term x3 g w3 β3 (3 : Fin 8) b p c
        + term x4 g w4 β4 (4 : Fin 8) b p c
        + term x5 g w5 β5 (5 : Fin 8) b p c
        + term x6 g w6 β6 (6 : Fin 8) b p c
        + term x7 g w7 β7 (7 : Fin 8) b p c := by
  rw [val_main_v128_apply, val_main_v117_apply, val_main_v106_apply, val_main_v95_apply, val_main_v84_apply, val_main_v73_apply, val_main_v62_apply, val_main_v51_apply,
    val_main_v40_apply, val_main_cst_apply,
    term0, term1, term2, term3, term4, term5, term6, term7,
    Ideal.ofBits_def, Ideal.ofBits_zero_f32]
  simp only [Ideal.addf_def]
  rw [zero_add]

/-! ## The result, read at `(b, p, c)` -/

/-- The reshape to `[b, c, p]` followed by the transposition to `[b, p, c]` reads the accumulated array at `(b, c, 0, p)`. -/
theorem idx_result (b : Fin 64) (p : Fin 720) (c : Fin 32) :
    idx_main_v131 (idx_main_v132 (ix3 b p c)) = (ix4 b c (0 : Fin 1) p) := by
  have hb : b.val < 64 := b.isLt
  have hp : p.val < 720 := p.isLt
  have hc : c.val < 32 := c.isLt
  funext a
  match a with
  | ⟨0, _⟩ => exact Fin.ext (show ((b.val * 32 + c.val) * 720 + p.val) / 23040 = b.val by omega)
  | ⟨1, _⟩ => exact Fin.ext (show ((b.val * 32 + c.val) * 720 + p.val) / 720 % 32 = c.val by omega)
  | ⟨2, _⟩ => rfl
  | ⟨3, _⟩ => exact Fin.ext (show ((b.val * 32 + c.val) * 720 + p.val) % 720 = p.val by omega)

/-- The reference's result at `(b, p, c)`: the eight contributions and the constant. -/
theorem reference_at (x0 x1 x2 x3 x4 x5 x6 x7 : (⟨S64x32x4x2048, .f32⟩ : BufTy).Contents (Elt Ideal))
    (g : (⟨S64x8, .f32⟩ : BufTy).Contents (Elt Ideal))
    (w0 w1 w2 w3 w4 w5 w6 w7 : (⟨S720x2048, .f32⟩ : BufTy).Contents (Elt Ideal))
    (β0 β1 β2 β3 β4 β5 β6 β7 : (⟨S720, .f32⟩ : BufTy).Contents (Elt Ideal))
    (b : Fin 64) (p : Fin 720) (c : Fin 32) :
    val_main_v132 (F := Ideal) x0 x1 x2 x3 x4 x5 x6 x7 g w0 w1 w2 w3 w4 w5 w6 w7 β0 β1 β2 β3 β4 β5 β6 β7 (ix3 b p c)
      = (term x0 g w0 β0 (0 : Fin 8) b p c
        + term x1 g w1 β1 (1 : Fin 8) b p c
        + term x2 g w2 β2 (2 : Fin 8) b p c
        + term x3 g w3 β3 (3 : Fin 8) b p c
        + term x4 g w4 β4 (4 : Fin 8) b p c
        + term x5 g w5 β5 (5 : Fin 8) b p c
        + term x6 g w6 β6 (6 : Fin 8) b p c
        + term x7 g w7 β7 (7 : Fin 8) b p c) + eps := by
  rw [val_main_v132_apply, val_main_v131_apply, idx_result, val_main_v130_apply, acc_all, val_main_v129_apply,
    val_main_cst_16_apply, Ideal.ofBits_def, Ideal.addf_def]
  rfl

/-- The reference program's result is the expertwise arrangement of the eight experts' arrays. -/
theorem reference_is_expertwise (x0 x1 x2 x3 x4 x5 x6 x7 : (⟨S64x32x4x2048, .f32⟩ : BufTy).Contents (Elt Ideal))
    (g : (⟨S64x8, .f32⟩ : BufTy).Contents (Elt Ideal))
    (w0 w1 w2 w3 w4 w5 w6 w7 : (⟨S720x2048, .f32⟩ : BufTy).Contents (Elt Ideal))
    (β0 β1 β2 β3 β4 β5 β6 β7 : (⟨S720, .f32⟩ : BufTy).Contents (Elt Ideal)) :
    val_main_v132 (F := Ideal) x0 x1 x2 x3 x4 x5 x6 x7 g w0 w1 w2 w3 w4 w5 w6 w7 β0 β1 β2 β3 β4 β5 β6 β7
      = expertwise ![x0, x1, x2, x3, x4, x5, x6, x7] g ![w0, w1, w2, w3, w4, w5, w6, w7] ![β0, β1, β2, β3, β4, β5, β6, β7] := by
  funext j
  obtain ⟨b, p, c, rfl⟩ : ∃ b p c, j = ix3 b p c := ⟨j 0, j 1, j 2, eq_ix3 j⟩
  rw [reference_at]
  show _ = expertwiseAt _ g _ _ b p c
  unfold expertwiseAt
  rw [Fin.sum_univ_eight]
  rfl

end Cert.HeadRef

end
-- ==== Proof.HeadLaw.lean ====
/-
  The algebraic law behind the prediction head: the blockwise and the expertwise arrangement of the gated sum agree
  whenever every entry is a real number.

  Over the reals this is distributivity (a factor moved across a finite sum), commuting the sums over feature blocks
  and experts, and re-indexing the feature axis `d = 256·k + col` by the pair `(k, col)`. On the extended reals the
  same identity follows by writing every entry as the image of a real and moving the embedding `ℝ → EReal` outward
  through products, sums and the positive part.
-/
import proofs.«164986_g23622320128510_cont_sun_c4_816_3_alg».proof.Proof.HeadSpec

noncomputable section

open scoped BigOperators

namespace Cert.HeadSpec

open Idealize.ShloMosaic Idealize.ShloMosaic.ValueIdx

/-! ### Re-indexing the feature axis -/

/-- The pair `(k, col)` of feature block and column within the block names the feature `256·k + col`; every feature
`d < 2048` is named exactly once, by `(d / 256, d % 256)`. -/
def featEquiv : Fin 8 × Fin 256 ≃ Fin 2048 where
  toFun q := feat q.1 q.2
  invFun d := (⟨d.val / 256, by have := d.isLt; omega⟩, ⟨d.val % 256, by omega⟩)
  left_inv := by
    rintro ⟨k, col⟩
    have hk := k.isLt
    have hc := col.isLt
    refine Prod.ext (Fin.ext ?_) (Fin.ext ?_)
    · show (256 * k.val + col.val) / 256 = k.val
      omega
    · show (256 * k.val + col.val) % 256 = col.val
      omega
  right_inv := by
    intro d
    refine Fin.ext ?_
    show 256 * (d.val / 256) + d.val % 256 = d.val
    omega

/-- A sum over the 2048 features is the sum over the eight blocks of the sums over the 256 columns of each block. -/
theorem sum_feat {M : Type*} [AddCommMonoid M] (f : Fin 2048 → M) :
    ∑ d : Fin 2048, f d = ∑ k : Fin 8, ∑ col : Fin 256, f (feat k col) := by
  rw [← Equiv.sum_comp featEquiv f, Fintype.sum_prod_type]
  rfl

/-! ### The law over the reals -/

/-- The law for real data. `x i d`, `w i d` are expert `i`'s activation and weight at feature `d`, `g i` its
(already clipped) gate and `β i` its bias. Scaling every activation by the gate before the block-by-block contraction
and adding the gate-weighted biases is the same as scaling each expert's full inner product plus bias by the gate. -/
theorem real_law (x w : Fin 8 → Fin 2048 → ℝ) (g β : Fin 8 → ℝ) :
    (∑ k : Fin 8, ∑ i : Fin 8, ∑ col : Fin 256, (x i (feat k col) * g i) * w i (feat k col))
        + ∑ i : Fin 8, g i * β i
      = ∑ i : Fin 8, ((∑ d : Fin 2048, x i d * w i d) + β i) * g i := by
  -- bring the sum over experts outside, and merge blocks and columns into the feature axis
  rw [Finset.sum_comm]
  have h1 : ∀ i : Fin 8,
      (∑ k : Fin 8, ∑ col : Fin 256, (x i (feat k col) * g i) * w i (feat k col))
        = (∑ d : Fin 2048, x i d * w i d) * g i := by
    intro i
    rw [← sum_feat (fun d => (x i d * g i) * w i d), Finset.sum_mul]
    refine Finset.sum_congr rfl (fun d _ => ?_)
    ring
  rw [Finset.sum_congr rfl (fun i _ => h1 i), ← Finset.sum_add_distrib]
  refine Finset.sum_congr rfl (fun i _ => ?_)
  ring

/-! ### Moving the embedding of the reals outward -/

/-- The embedding `ℝ → EReal` commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The positive part of a real gate, taken on the extended reals. -/
theorem max_coe_zero (g : ℝ) : max (g : EReal) 0 = ((max g 0 : ℝ) : EReal) := by
  rw [EReal.coe_strictMono.monotone.map_max, EReal.coe_zero]

/-- Keeping a gate only where it is positive is taking its positive part. -/
theorem ite_pos_coe (g : ℝ) :
    (if (0 : EReal) < (g : EReal) then (g : EReal) else 0) = ((max g 0 : ℝ) : EReal) := by
  by_cases h : 0 < g
  · rw [if_pos (EReal.coe_pos.2 h), max_eq_left h.le]
  · rw [if_neg (fun h' => h (EReal.coe_pos.1 h')), max_eq_right (not_lt.1 h), EReal.coe_zero]

/-! ### The law on the extended reals -/

section wrapper

variable (X : Fin 8 → SAct.Idx → ℝ) (G : SGate.Idx → ℝ) (W : Fin 8 → SWt.Idx → ℝ) (B : Fin 8 → SBias.Idx → ℝ)

/-- The blockwise arrangement of real data is the image of the corresponding real expression, plus the constant. -/
theorem blockwiseAt_coe (b : Fin 64) (p : Fin 720) (c : Fin 32) :
    blockwiseAt (fun i j => (X i j : EReal)) (fun j => (G j : EReal)) (fun i j => (W i j : EReal))
        (fun i j => (B i j : EReal)) b p c
      = (((∑ k : Fin 8, ∑ i : Fin 8, ∑ col : Fin 256,
            (X i (ix4 b c (3 : Fin 4) (feat k col)) * max (G (ix2 b i)) 0) * W i (ix2 p (feat k col)))
          + ∑ i : Fin 8, max (G (ix2 b i)) 0 * B i (ix1 p) : ℝ) : EReal) + eps := by
  unfold blockwiseAt
  simp only [max_coe_zero, EReal.coe_add, coe_finsum, EReal.coe_mul]

/-- The expertwise arrangement of real data is the image of the corresponding real expression, plus the constant. -/
theorem expertwiseAt_coe (b : Fin 64) (p : Fin 720) (c : Fin 32) :
    expertwiseAt (fun i j => (X i j : EReal)) (fun j => (G j : EReal)) (fun i j => (W i j : EReal))
        (fun i j => (B i j : EReal)) b p c
      = ((∑ i : Fin 8, ((∑ d : Fin 2048, X i (ix4 b c (3 : Fin 4) d) * W i (ix2 p d)) + B i (ix1 p))
            * max (G (ix2 b i)) 0 : ℝ) : EReal) + eps := by
  unfold expertwiseAt
  simp only [ite_pos_coe, EReal.coe_add, coe_finsum, EReal.coe_mul]

/-- The two arrangements agree at every output position, for real data. -/
theorem blockwiseAt_eq_expertwiseAt_coe (b : Fin 64) (p : Fin 720) (c : Fin 32) :
    blockwiseAt (fun i j => (X i j : EReal)) (fun j => (G j : EReal)) (fun i j => (W i j : EReal))
        (fun i j => (B i j : EReal)) b p c
      = expertwiseAt (fun i j => (X i j : EReal)) (fun j => (G j : EReal)) (fun i j => (W i j : EReal))
        (fun i j => (B i j : EReal)) b p c := by
  rw [blockwiseAt_coe, expertwiseAt_coe]
  exact congrArg (fun r : ℝ => (r : EReal) + eps)
    (real_law (fun i d => X i (ix4 b c (3 : Fin 4) d)) (fun i d => W i (ix2 p d))
      (fun i => max (G (ix2 b i)) 0) (fun i => B i (ix1 p)))

end wrapper

/-- **The law.** When every activation, gate, weight and bias is a real number, the blockwise and the expertwise
arrangement are the same array. -/
theorem blockwise_eq_expertwise (xs : Fin 8 → SAct.Idx → EReal) (gates : SGate.Idx → EReal)
    (ws : Fin 8 → SWt.Idx → EReal) (bs : Fin 8 → SBias.Idx → EReal)
    (hx : ∀ i, AllReal (xs i)) (hg : AllReal gates) (hw : ∀ i, AllReal (ws i)) (hb : ∀ i, AllReal (bs i)) :
    blockwise xs gates ws bs = expertwise xs gates ws bs := by
  choose X hX using hx
  choose G hG using hg
  choose W hW using hw
  choose B hB using hb
  have exs : xs = fun i j => (X i j : EReal) := funext fun i => funext fun j => hX i j
  have eg : gates = fun j => (G j : EReal) := funext fun j => hG j
  have ews : ws = fun i j => (W i j : EReal) := funext fun i => funext fun j => hW i j
  have ebs : bs = fun i j => (B i j : EReal) := funext fun i => funext fun j => hB i j
  subst exs eg ews ebs
  funext j
  exact blockwiseAt_eq_expertwiseAt_coe X G W B (j 0) (j 1) (j 2)

end Cert.HeadSpec

end
-- ==== Proof.HeadFinite.lean ====
/-
  From the finiteness precondition to "every entry is a real number".

  The precondition is the conjunction, over the twenty-five input arrays, of "every entry x satisfies |x| < +∞". On the
  extended reals |x| is max x (-x), the f32 word 0x7F800000 denotes +∞, and an extended real whose absolute value lies
  below +∞ is neither infinity, that is, it is a real number.
-/
import proofs.«164986_g23622320128510_cont_sun_c4_816_3_alg».proof.Pre_finite_inputs
import proofs.«164986_g23622320128510_cont_sun_c4_816_3_alg».proof.Proof.Gen.Pre_finite_inputs
import proofs.«164986_g23622320128510_cont_sun_c4_816_3_alg».proof.Proof.HeadSpec
import Idealize.ShloMosaic.Lib.ReduceAll
import Idealize.ShloMosaic.Lib.ValueIdx
import Idealize.ShloMosaic.PureOps.Ideal.Laws

noncomputable section

namespace Cert.HeadFinite

open Idealize.ShloMosaic Cert.HeadSpec Cert.Pre_finite_inputs

/-- The scalar shape has exactly one index. -/
instance : Subsingleton S_.Idx := ⟨fun a b => funext fun d => d.elim0⟩

/-- The f32 word `0x7F800000` denotes `+∞`. -/
theorem ofBits_inf : Ideal.ofBits .f32 0x7F800000#32 = (⊤ : EReal) := by simp [Ideal.ofBits, Ideal.ieee]

/-- An extended real whose absolute value `max x (-x)` lies below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element: if the comparison `|x| < +∞` came out true then `x` is a real number. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  refine real_of_abs_lt_top x ?_
  rw [ofBits_inf] at h
  change BitVec.ofBool (decide (max x (-x) < ⊤)) = 1#1 at h
  by_contra hn
  rw [decide_eq_false hn] at h
  exact absurd h (by decide)

/-- One array: if the conjunction over all entries of `|a| < +∞` came out true then every entry of `a` is a real number. -/
theorem allReal_of_all {S : Shape} {axes : List (Fin S.rank)} (hb : S_.BroadcastsInDim S (![] : Fin 0 → Fin S.rank))
    (hr : S.ReducesTo axes S_) (hu : 0 < S_.numel) (a : FVec Ideal S .f32) (init : IVec S_ 1)
    (h : Host.reduce IntOp.andi
        (cmpf .olt (Host.absf a) (broadcastInDim S ![] hb (constant (F := Ideal) S_ .f32 0x7F800000#32))) init hr hu ValueIdx.ix0 = 1#1) :
    AllReal a := by
  intro j
  exact real_of_cmp (a j) (Host.reduce_andi_all _ init hr hu ValueIdx.ix0 h j)

/-- A conjunction of two one-bit words, read at the scalar index, is true only if both are. -/
theorem andi_split (x y : IVec S_ 1) (h : andi x y ValueIdx.ix0 = 1#1) : x ValueIdx.ix0 = 1#1 ∧ y ValueIdx.ix0 = 1#1 :=
  IntOp.andi_eq_one.1 h

/-- The precondition: the conjunction of the twenty-five checks `|x| < +∞ everywhere`, so every entry of every input is
    a real number. The printed predicate conjoins the checks to the left, ((c₀ ∧ c₁) ∧ c₂) ∧ …, so they peel off from the
    last to the first. -/
theorem allReal_of_finite [Cert.Pre_finite_inputs.Facts]
    (a0 a1 a2 a3 a4 a5 a6 a7 : FVec Ideal Cert.Pre_finite_inputs.S64x32x4x2048 .f32) (a8 : FVec Ideal Cert.Pre_finite_inputs.S64x8 .f32)
    (a9 a10 a11 a12 a13 a14 a15 a16 : FVec Ideal Cert.Pre_finite_inputs.S720x2048 .f32)
    (a17 a18 a19 a20 a21 a22 a23 a24 : FVec Ideal Cert.Pre_finite_inputs.S720 .f32)
    (h : Cert.Pre_finite_inputs.fn (F := Ideal) a0 a1 a2 a3 a4 a5 a6 a7 a8 a9 a10 a11 a12 a13 a14 a15 a16 a17 a18 a19 a20 a21 a22 a23 a24 = (fun _ => 1#1)) :
    (AllReal a0 ∧ AllReal a1 ∧ AllReal a2 ∧ AllReal a3 ∧ AllReal a4 ∧ AllReal a5 ∧ AllReal a6 ∧ AllReal a7) ∧ AllReal a8
    ∧ (AllReal a9 ∧ AllReal a10 ∧ AllReal a11 ∧ AllReal a12 ∧ AllReal a13 ∧ AllReal a14 ∧ AllReal a15 ∧ AllReal a16)
    ∧ (AllReal a17 ∧ AllReal a18 ∧ AllReal a19 ∧ AllReal a20 ∧ AllReal a21 ∧ AllReal a22 ∧ AllReal a23 ∧ AllReal a24) := by
  have h0 := congrFun h ValueIdx.ix0
  dsimp only [fn, fn_part1, fn_part2, fn_part3, fn_part4, fn_part5, fn_part6, fn_part7] at h0
  obtain ⟨h0, h24⟩ := andi_split _ _ h0
  obtain ⟨h0, h23⟩ := andi_split _ _ h0
  obtain ⟨h0, h22⟩ := andi_split _ _ h0
  obtain ⟨h0, h21⟩ := andi_split _ _ h0
  obtain ⟨h0, h20⟩ := andi_split _ _ h0
  obtain ⟨h0, h19⟩ := andi_split _ _ h0
  obtain ⟨h0, h18⟩ := andi_split _ _ h0
  obtain ⟨h0, h17⟩ := andi_split _ _ h0
  obtain ⟨h0, h16⟩ := andi_split _ _ h0
  obtain ⟨h0, h15⟩ := andi_split _ _ h0
  obtain ⟨h0, h14⟩ := andi_split _ _ h0
  obtain ⟨h0, h13⟩ := andi_split _ _ h0
  obtain ⟨h0, h12⟩ := andi_split _ _ h0
  obtain ⟨h0, h11⟩ := andi_split _ _ h0
  obtain ⟨h0, h10⟩ := andi_split _ _ h0
  obtain ⟨h0, h9⟩ := andi_split _ _ h0
  obtain ⟨h0, h8⟩ := andi_split _ _ h0
  obtain ⟨h0, h7⟩ := andi_split _ _ h0
  obtain ⟨h0, h6⟩ := andi_split _ _ h0
  obtain ⟨h0, h5⟩ := andi_split _ _ h0
  obtain ⟨h0, h4⟩ := andi_split _ _ h0
  obtain ⟨h0, h3⟩ := andi_split _ _ h0
  obtain ⟨h0, h2⟩ := andi_split _ _ h0
  obtain ⟨h0, h1⟩ := andi_split _ _ h0
  exact ⟨⟨allReal_of_all _ _ _ a0 _ h0, allReal_of_all _ _ _ a1 _ h1, allReal_of_all _ _ _ a2 _ h2, allReal_of_all _ _ _ a3 _ h3, allReal_of_all _ _ _ a4 _ h4, allReal_of_all _ _ _ a5 _ h5, allReal_of_all _ _ _ a6 _ h6, allReal_of_all _ _ _ a7 _ h7⟩, allReal_of_all _ _ _ a8 _ h8,
    ⟨allReal_of_all _ _ _ a9 _ h9, allReal_of_all _ _ _ a10 _ h10, allReal_of_all _ _ _ a11 _ h11, allReal_of_all _ _ _ a12 _ h12, allReal_of_all _ _ _ a13 _ h13, allReal_of_all _ _ _ a14 _ h14, allReal_of_all _ _ _ a15 _ h15, allReal_of_all _ _ _ a16 _ h16⟩,
    allReal_of_all _ _ _ a17 _ h17, allReal_of_all _ _ _ a18 _ h18, allReal_of_all _ _ _ a19 _ h19, allReal_of_all _ _ _ a20 _ h20, allReal_of_all _ _ _ a21 _ h21, allReal_of_all _ _ _ a22 _ h22, allReal_of_all _ _ _ a23 _ h23, allReal_of_all _ _ _ a24 _ h24⟩

end Cert.HeadFinite

end
-- ==== Proof.lean ====
/-
  The certificate of the gated eight-expert prediction head.

  The kernel and the reference compute, for batch element `b`, prediction `p` and channel `c`,
  `Σ_i γ⁺[b,i] · (Σ_d x_i[b,c,3,d] · W_i[p,d] + β_i[p]) + ε` with `γ⁺ = max γ 0`, arranged differently: the kernel scales the
  activations by the gate before contracting, cuts the feature axis in eight blocks accumulated one grid point after
  the other, and adds the gate-weighted bias at the end (the blockwise arrangement); the reference forms each expert's
  inner product plus bias first and scales it by the gate where positive (the expertwise arrangement). On finite inputs
  every entry is a real number and the two arrangements are one function (distributivity and re-indexing of finite real
  sums). The three programs run to the end, fault nowhere and leave their arguments as launched; the idealization
  rewrote no operation.
-/
import proofs.«164986_g23622320128510_cont_sun_c4_816_3_alg».proof.Defs
import proofs.«164986_g23622320128510_cont_sun_c4_816_3_alg».proof.Proof.Gen.Kernel
import proofs.«164986_g23622320128510_cont_sun_c4_816_3_alg».proof.Proof.Gen.KernelIdeal
import proofs.«164986_g23622320128510_cont_sun_c4_816_3_alg».proof.Proof.Gen.ReferenceIdeal
import proofs.«164986_g23622320128510_cont_sun_c4_816_3_alg».proof.Proof.Gen.Pre_finite_inputs
import proofs.«164986_g23622320128510_cont_sun_c4_816_3_alg».proof.Proof.KernelFrame
import proofs.«164986_g23622320128510_cont_sun_c4_816_3_alg».proof.Proof.KernelIdealFinal
import proofs.«164986_g23622320128510_cont_sun_c4_816_3_alg».proof.Proof.RefReadP
import proofs.«164986_g23622320128510_cont_sun_c4_816_3_alg».proof.Proof.HeadRef
import proofs.«164986_g23622320128510_cont_sun_c4_816_3_alg».proof.Proof.HeadLaw
import proofs.«164986_g23622320128510_cont_sun_c4_816_3_alg».proof.Proof.HeadFinite
import Idealize.ShloMosaic.Adequacy
import Idealize.ShloMosaic.Init

noncomputable section

namespace Cert.Proof

open Idealize.ShloMosaic Idealize.SL.Sem Cert.HeadSpec

theorem forall_fin8 {P : Fin 8 → Prop} (h0 : P 0) (h1 : P 1) (h2 : P 2) (h3 : P 3) (h4 : P 4) (h5 : P 5) (h6 : P 6) (h7 : P 7) :
    ∀ i, P i := fun i => by fin_cases i <;> assumption

/-- The word-level kernel runs to the end and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals the kernel's result is the blockwise arrangement and the reference's the expertwise one; from
    finite arguments that agree the two are equal. -/
theorem algebraic : Cert.algebraic_KernelIdeal_ReferenceIdeal := by
  intro m ρ m' ρ' hpre hagree
  refine ⟨fun c => blockwise (Cert.KernelIdeal.Fr.acts m c) (Cert.KernelIdeal.Fr.gts m c) (Cert.KernelIdeal.Fr.wts m c) (Cert.KernelIdeal.Fr.bss m c),
    Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18, e19, e20, e21, e22, e23, e24⟩ := hagree c
  rw [Cert.ReferenceIdeal.ReadP.val_main_v132_eq, e0, e1, e2, e3, e4, e5, e6, e7, e8, e9, e10, e11, e12, e13, e14, e15, e16, e17, e18, e19, e20, e21, e22, e23, e24, Cert.HeadRef.reference_is_expertwise]
  obtain ⟨⟨h0, h1, h2, h3, h4, h5, h6, h7⟩, hg, ⟨h9, h10, h11, h12, h13, h14, h15, h16⟩, ⟨h17, h18, h19, h20, h21, h22, h23, h24⟩⟩ :=
    Cert.HeadFinite.allReal_of_finite _ _ _ _ _ _ _ _ _ _ _ _ _ _ _ _ _ _ _ _ _ _ _ _ _ (hpre c)
  exact (blockwise_eq_expertwise _ _ _ _ (forall_fin8 h0 h1 h2 h3 h4 h5 h6 h7) hg
    (forall_fin8 h9 h10 h11 h12 h13 h14 h15 h16) (forall_fin8 h17 h18 h19 h20 h21 h22 h23 h24)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
